-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S2x16x128 : Shape := ⟨3, ![2, 16, 128]⟩
abbrev S4096x128 : Shape := ⟨2, ![4096, 128]⟩
abbrev S1x16x128 : Shape := ⟨3, ![1, 16, 128]⟩
abbrev S16x128 : Shape := ⟨2, ![16, 128]⟩
abbrev S1x128 : Shape := ⟨2, ![1, 128]⟩
abbrev S128 : Shape := ⟨1, ![128]⟩
abbrev S2x15x128 : Shape := ⟨3, ![2, 15, 128]⟩
abbrev S_ : Shape := ⟨0, ![]⟩
abbrev S15 : Shape := ⟨1, ![15]⟩

abbrev nBuf : Space → Nat
  | .hbm => 29
  | .vmem => 13
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S2x16x128, .f32⟩
  | .hbm, ⟨5, _⟩ => ⟨S2x16x128, .f32⟩
  | .hbm, ⟨6, _⟩ => ⟨S2x16x128, .f32⟩
  | .hbm, ⟨7, _⟩ => ⟨S2x15x128, .f32⟩
  | .hbm, ⟨8, _⟩ => ⟨S_, .f32⟩
  | .hbm, ⟨9, _⟩ => ⟨S15, .f32⟩
  | .hbm, ⟨10, _⟩ => ⟨S2x15x128, .f32⟩
  | .hbm, ⟨11, _⟩ => ⟨S_, .f32⟩
  | .hbm, ⟨12, _⟩ => ⟨S15, .f32⟩
  | .hbm, ⟨13, _⟩ => ⟨S2x15x128, .f32⟩
  | .hbm, ⟨14, _⟩ => ⟨S_, .f32⟩
  | .hbm, ⟨15, _⟩ => ⟨S15, .f32⟩
  | .hbm, ⟨16, _⟩ => ⟨S_, .f32⟩
  | .hbm, ⟨17, _⟩ => ⟨S15, .f32⟩
  | .hbm, ⟨18, _⟩ => ⟨S15, .f32⟩
  | .hbm, ⟨19, _⟩ => ⟨S15, .f32⟩
  | .hbm, ⟨20, _⟩ => ⟨S15, .f32⟩
  | .hbm, ⟨21, _⟩ => ⟨S_, .f32⟩
  | .hbm, ⟨22, _⟩ => ⟨S15, .f32⟩
  | .hbm, ⟨23, _⟩ => ⟨S15, .f32⟩
  | .hbm, ⟨24, _⟩ => ⟨S15, .f32⟩
  | .hbm, ⟨25, _⟩ => ⟨S15, .f32⟩
  | .hbm, ⟨26, _⟩ => ⟨S15, .f32⟩
  | .hbm, ⟨27, _⟩ => ⟨S_, .f32⟩
  | .hbm, ⟨28, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v460 : BitVec 1 := Scalar.cmpi .eq arg1 c31_i32
  let v461 : BitVec 32 := Scalar.extui v460
  let c0_i32_251 : BitVec 32 := 0#32
  let v462 : BitVec 1 := Scalar.cmpi .ne v461 c0_i32_251
  v462

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S33554432_S262144x128 : S33554432.ShapeCasts S262144x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S16x128_S1x128_0_0 : ∀ a, (![0, 0] : Fin 2 → Nat) a + S1x128.size a ≤ S16x128.size a
  h_S1x128 : 0 < S1x128.numel
  shapeCasts_S1x128_S128 : S1x128.ShapeCasts S128
  natLt_1_32 : 1 < 32
  reduces_S4096x128_S128 : S4096x128.Reduces [0] S128
  shapeCasts_S128_S1x128 : S128.ShapeCasts S1x128
  inb_S16x128_S1x128_1_0 : ∀ a, (![1, 0] : Fin 2 → Nat) a + S1x128.size a ≤ S16x128.size a
  inb_S16x128_S1x128_2_0 : ∀ a, (![2, 0] : Fin 2 → Nat) a + S1x128.size a ≤ S16x128.size a
  inb_S16x128_S1x128_3_0 : ∀ a, (![3, 0] : Fin 2 → Nat) a + S1x128.size a ≤ S16x128.size a
  inb_S16x128_S1x128_4_0 : ∀ a, (![4, 0] : Fin 2 → Nat) a + S1x128.size a ≤ S16x128.size a
  inb_S16x128_S1x128_5_0 : ∀ a, (![5, 0] : Fin 2 → Nat) a + S1x128.size a ≤ S16x128.size a
  inb_S16x128_S1x128_6_0 : ∀ a, (![6, 0] : Fin 2 → Nat) a + S1x128.size a ≤ S16x128.size a
  inb_S16x128_S1x128_7_0 : ∀ a, (![7, 0] : Fin 2 → Nat) a + S1x128.size a ≤ S16x128.size a
  inb_S16x128_S1x128_8_0 : ∀ a, (![8, 0] : Fin 2 → Nat) a + S1x128.size a ≤ S16x128.size a
  inb_S16x128_S1x128_9_0 : ∀ a, (![9, 0] : Fin 2 → Nat) a + S1x128.size a ≤ S16x128.size a
  inb_S16x128_S1x128_10_0 : ∀ a, (![10, 0] : Fin 2 → Nat) a + S1x128.size a ≤ S16x128.size a
  inb_S16x128_S1x128_11_0 : ∀ a, (![11, 0] : Fin 2 → Nat) a + S1x128.size a ≤ S16x128.size a
  inb_S16x128_S1x128_12_0 : ∀ a, (![12, 0] : Fin 2 → Nat) a + S1x128.size a ≤ S16x128.size a
  inb_S16x128_S1x128_13_0 : ∀ a, (![13, 0] : Fin 2 → Nat) a + S1x128.size a ≤ S16x128.size a
  inb_S16x128_S1x128_14_0 : ∀ a, (![14, 0] : Fin 2 → Nat) a + S1x128.size a ≤ S16x128.size a
  shapeCasts_S16x128_S1x16x128 : S16x128.ShapeCasts S1x16x128
  inb_S1x16x128_S1x16x128_0_0_0 : ∀ a, (![0, 0, 0] : Fin 3 → Nat) a + S1x16x128.size a ≤ S1x16x128.size a
  h_S1x16x128 : 0 < S1x16x128.numel
  slices_S2x16x128_S2x15x128_0_0_0 : S2x16x128.Slices ![0, 0, 0] S2x15x128
  reducesTo_S2x15x128_S15_d0_2 : S2x15x128.ReducesTo [0, 2] S15
  h_S_ : 0 < S_.numel
  bcast_S_S15 : S_.BroadcastsInDim S15 (![] : Fin 0 → Fin S15.rank)
  reducesTo_S15_S_d0 : S15.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .i32 = 32 ∨ (Rect.block (s := S262144x128) S4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S2x16x128.size a
  hwx0_2 : ∀ i : grid0.Coords, EltTy.bits .f32 = 32 ∨ (Rect.block (s := S2x16x128) S1x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128.size a ≤ S2x16x128.size a
  hwx0_3 : ∀ i : grid0.Coords, EltTy.bits .f32 = 32 ∨ (Rect.block (s := S2x16x128) S1x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128.size a ≤ S2x16x128.size a
  hwx0_4 : ∀ i : grid0.Coords, EltTy.bits .f32 = 32 ∨ (Rect.block (s := S2x16x128) S1x16x128.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x16x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x16x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x16x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S15 : Shape := ⟨1, ![15]⟩
abbrev S33554432x1 : Shape := ⟨2, ![33554432, 1]⟩

abbrev nBuf : Space → Nat
  | .hbm => 54
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S_, .f32⟩
  | .hbm, ⟨3, _⟩ => ⟨S33554432, .f32⟩
  | .hbm, ⟨4, _⟩ => ⟨S33554432, .f32⟩
  | .hbm, ⟨5, _⟩ => ⟨S33554432, .f32⟩
  | .hbm, ⟨6, _⟩ => ⟨S33554432, .i32⟩
  | .hbm, ⟨7, _⟩ => ⟨S_, .i32⟩
  | .hbm, ⟨8, _⟩ => ⟨S33554432, .i32⟩
  | .hbm, ⟨9, _⟩ => ⟨S33554432, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S33554432, .i32⟩
  | .hbm, ⟨14, _⟩ => ⟨S33554432, .i32⟩
  | .hbm, ⟨15, _⟩ => ⟨S_, .i32⟩
  | .hbm, ⟨16, _⟩ => ⟨S33554432, .i32⟩
  | .hbm, ⟨17, _⟩ => ⟨S33554432, .i32⟩
  | .hbm, ⟨18, _⟩ => ⟨S_, .f32⟩
  | .hbm, ⟨19, _⟩ => ⟨S33554432, .f32⟩
  | .hbm, ⟨20, _⟩ => ⟨S33554432, .i1⟩
  | .hbm, ⟨21, _⟩ => ⟨S_, .f32⟩
  | .hbm, ⟨22, _⟩ => ⟨S33554432, .f32⟩
  | .hbm, ⟨23, _⟩ => ⟨S33554432, .i1⟩
  | .hbm, ⟨24, _⟩ => ⟨S33554432, .i1⟩
  | .hbm, ⟨25, _⟩ => ⟨S33554432, .f32⟩
  | .hbm, ⟨26, _⟩ => ⟨S_, .f32⟩
  | .hbm, ⟨27, _⟩ => ⟨S15, .f32⟩
  | .hbm, ⟨28, _⟩ => ⟨S33554432x1, .i32⟩
  | .hbm, ⟨29, _⟩ => ⟨S15, .f32⟩
  | .hbm, ⟨30, _⟩ => ⟨S33554432, .f32⟩
  | .hbm, ⟨31, _⟩ => ⟨S_, .f32⟩
  | .hbm, ⟨32, _⟩ => ⟨S15, .f32⟩
  | .hbm, ⟨33, _⟩ => ⟨S33554432x1, .i32⟩
  | .hbm, ⟨34, _⟩ => ⟨S15, .f32⟩
  | .hbm, ⟨35, _⟩ => ⟨S33554432, .f32⟩
  | .hbm, ⟨36, _⟩ => ⟨S33554432, .f32⟩
  | .hbm, ⟨37, _⟩ => ⟨S_, .f32⟩
  | .hbm, ⟨38, _⟩ => ⟨S15, .f32⟩
  | .hbm, ⟨39, _⟩ => ⟨S33554432x1, .i32⟩
  | .hbm, ⟨40, _⟩ => ⟨S15, .f32⟩
  | .hbm, ⟨41, _⟩ => ⟨S_, .f32⟩
  | .hbm, ⟨42, _⟩ => ⟨S15, .f32⟩
  | .hbm, ⟨43, _⟩ => ⟨S15, .f32⟩
  | .hbm, ⟨44, _⟩ => ⟨S15, .f32⟩
  | .hbm, ⟨45, _⟩ => ⟨S15, .f32⟩
  | .hbm, ⟨46, _⟩ => ⟨S_, .f32⟩
  | .hbm, ⟨47, _⟩ => ⟨S15, .f32⟩
  | .hbm, ⟨48, _⟩ => ⟨S15, .f32⟩
  | .hbm, ⟨49, _⟩ => ⟨S15, .f32⟩
  | .hbm, ⟨50, _⟩ => ⟨S15, .f32⟩
  | .hbm, ⟨51, _⟩ => ⟨S15, .f32⟩
  | .hbm, ⟨52, _⟩ => ⟨S_, .f32⟩
  | .hbm, ⟨53, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  bcast_S_S15 : S_.BroadcastsInDim S15 (![] : Fin 0 → Fin S15.rank)
  bcast_S33554432_S33554432x1_0 : S33554432.BroadcastsInDim S33554432x1 (![0] : Fin 1 → Fin S33554432x1.rank)
  reducesTo_S15_S_d0 : S15.ReducesTo [0] S_
  h_S_ : 0 < S_.numel
  scatter_S15_S33554432x1_S33554432_n_0_0_1_wf : ScatterDims.WF S15 S33554432x1 S33554432 [] [0] [0] 1

variable [Facts₀]

def scatter_S15_S33554432x1_S33554432_n_0_0_1 : ScatterDims S15 S33554432x1 S33554432 where
  updateWindowDims := []
  insertedWindowDims := [0]
  scatterDimsToOperandDims := [0]
  indexVectorDim := 1
  wf := scatter_S15_S33554432x1_S33554432_n_0_0_1_wf

class Facts : Prop extends Facts₀ where

variable [Facts]
-- ==== Proof.Spec.lean ====
/-
  The calibration error as one function of the two argument arrays, over the extended reals.

  An element with probability `p` belongs to bin `min 14 (max 0 (⌈15·p⌉ - 1))` (the ceiling converted to a 32-bit
  integer first) when `0 < p ≤ 1`, and to no bin otherwise: its KEY is the bin's number, or the word `-1` that
  equals no bin's number. For each of the fifteen bins three sums run over all elements: how many elements have the
  bin's key (`counts`), the sum of their probabilities (`confs`), and the sum of their labels (`accs`). The result is
  `∑ bins, (count / 2^25) · |acc / max count 1 - conf / max count 1|` (`tail`).
-/
import Idealize.ShloMosaic.PureOps.Ideal
import Idealize.ShloMosaic.Lib.ValueIdx

noncomputable section

namespace Cert.Spec

open Idealize.ShloMosaic

abbrev SN : Shape := ⟨1, ![33554432]⟩
abbrev S15 : Shape := ⟨1, ![15]⟩
abbrev S_ : Shape := ⟨0, ![]⟩

/-- The bin of a probability, before validity is looked at: `⌈15·p⌉ - 1` clipped to `[0, 14]`. -/
def bin (p : Ideal .f32) : BitVec 32 :=
  IntOp.minsi 14#32 (IntOp.maxsi 0#32 (IntOp.subi
    (FloatOps.fptosi 32 (FloatOps.ceil (FloatOps.mulf p (FloatOps.ofBits .f32 0x41700000#32)))) 1#32))

/-- Whether a probability lies in `(0, 1]`, as one bit. -/
def valid (p : Ideal .f32) : BitVec 1 :=
  IntOp.andi (FloatOps.cmpf .ogt p (FloatOps.ofBits .f32 0x00000000#32))
    (FloatOps.cmpf .ole p (FloatOps.ofBits .f32 0x3F800000#32))

/-- The key: the bin when the probability is valid, the word `-1` otherwise. -/
def key (p : Ideal .f32) : BitVec 32 := Scalar.select (valid p) (bin p) 4294967295#32

/-- A bin's number as a 32-bit word. -/
def binWord (j : S15.Idx) : BitVec 32 := BitVec.ofNat 32 (j 0).val

/-- One element's contribution to a bin's count, probability sum and label sum. -/
def cntTerm (j : S15.Idx) (p : Ideal .f32) : EReal := if key p = binWord j then 1 else 0
def confTerm (j : S15.Idx) (p : Ideal .f32) : EReal := if key p = binWord j then p else 0
def accTerm (j : S15.Idx) (p : Ideal .f32) (l : BitVec 32) : EReal :=
  if key p = binWord j then ((l.toInt : ℝ) : EReal) else 0

/-- The three histograms: sums over all the elements. -/
def counts (p : SN.Idx → Ideal .f32) : S15.Idx → EReal := fun j => ∑ e, cntTerm j (p e)
def confs (p : SN.Idx → Ideal .f32) : S15.Idx → EReal := fun j => ∑ e, confTerm j (p e)
def accs (p : SN.Idx → Ideal .f32) (l : SN.Idx → BitVec 32) : S15.Idx → EReal := fun j => ∑ e, accTerm j (p e) (l e)

/-- The error from the three histograms: `∑ bins, (count / 2^25) · |acc / max count 1 - conf / max count 1|`. -/
def tail (hb : S_.BroadcastsInDim S15 (![] : Fin 0 → Fin S15.rank)) (hr : S15.ReducesTo [0] S_) (hz : 0 < S_.numel)
    (cnt conf acc : FVec Ideal S15 .f32) : FVec Ideal S_ .f32 :=
  Host.reduceAdd
    (mulf (Host.divf cnt (broadcastInDim S15 ![] hb (constant (F := Ideal) S_ .f32 0x4C000000#32)))
      (Host.absf (subf
        (Host.divf acc (maximumf cnt (broadcastInDim S15 ![] hb (constant (F := Ideal) S_ .f32 0x3F800000#32))))
        (Host.divf conf (maximumf cnt (broadcastInDim S15 ![] hb (constant (F := Ideal) S_ .f32 0x3F800000#32)))))))
    (constant (F := Ideal) S_ .f32 0x00000000#32) hr hz

/-- The whole result as a function of the argument arrays. -/
def spec (hb : S_.BroadcastsInDim S15 (![] : Fin 0 → Fin S15.rank)) (hr : S15.ReducesTo [0] S_) (hz : 0 < S_.numel)
    (p : SN.Idx → Ideal .f32) (l : SN.Idx → BitVec 32) : FVec Ideal S_ .f32 :=
  tail hb hr hz (counts p) (confs p) (accs p l)

end Cert.Spec

end
-- ==== Proof.LibScatterAdd.lean ====
/-
  A float scatter-add of a rank-1 array of updates into a rank-1 operand, one scatter index per update, read at an
  index of the operand.

  The operand has `K` elements, the updates are `N` values, and the scatter indices are an `N × 1` array of words:
  update `e` is added to the operand's element whose number is the word `idx[e, 0]` read as a SIGNED integer, and
  is dropped when that integer is not in `[0, K)`. Over the extended reals the result's element `i` is therefore the
  operand's element `i` plus the sum, over ALL updates `e`, of `upd e` when `idx[e, 0] = i` and of `0` otherwise.
-/
import Idealize.ShloMosaic.Lib.ValueIdx
import Idealize.ShloMosaic.PureOps.Ideal.Laws

noncomputable section

open scoped BigOperators

namespace Cert.LibScatterAdd

open Idealize.ShloMosaic Idealize.ShloMosaic.ValueIdx

/-- The dimension numbers of that scatter: no window axis among the updates', the operand's one axis inserted, the
    index vector (of length one, along the indices' second axis) naming the operand's axis. -/
abbrev binDims (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

variable {K N w : Nat} (wf : ScatterDims.WF ⟨1, ![K]⟩ ⟨2, ![N, 1]⟩ ⟨1, ![N]⟩ [] [0] [0] 1)

/-- Update `e` reads its start index at `[e, 0]` of the scatter indices. -/
theorem siIdx_eq (e : (⟨1, ![N]⟩ : Shape).Idx) (c : Fin (binDims K N wf).scatterDimsToOperandDims.length) :
    (binDims K N wf).siIdx e c = ix2 (n0 := N) (n1 := 1) (e 0) 0 := by
  funext b; refine Fin.ext ?_
  have hc : c.val = 0 := by have := c.isLt; simpa using this
  match b with
  | ⟨0, _⟩ => rfl
  | ⟨1, _⟩ => exact hc

/-- The window of update `e` starts at the word `idx[e, 0]` read signed … -/
theorem start_eq (e : (⟨1, ![N]⟩ : Shape).Idx) (idx : IVec ⟨2, ![N, 1]⟩ w) :
    (binDims K N wf).start e idx 0 = (idx (ix2 (n0 := N) (n1 := 1) (e 0) 0)).toInt := by
  unfold ScatterDims.start
  rw [dif_pos (show (0 : Fin 1) ∈ (binDims K N wf).scatterDimsToOperandDims from List.mem_singleton.mpr rfl), siIdx_eq]

/-- … and has the one coordinate `0` (the operand's axis is an inserted one). -/
theorem window_eq (e : (⟨1, ![N]⟩ : Shape).Idx) : (binDims K N wf).window e 0 = 0 := by
  unfold ScatterDims.window
  rw [dif_neg]
  intro h
  have h2 := (List.mem_filter.mp h).2
  simp at h2

/-- Update `e` lands on the operand's element `i` exactly when the word `idx[e, 0]`, read signed, is `i`'s number. -/
theorem resultIdx?_eq_some_iff (e : (⟨1, ![N]⟩ : Shape).Idx) (idx : IVec ⟨2, ![N, 1]⟩ w) (i : (⟨1, ![K]⟩ : Shape).Idx) :
    (binDims K N wf).resultIdx? e idx = some i ↔ (idx (ix2 (n0 := N) (n1 := 1) (e 0) 0)).toInt = ((i 0).val : Int) := by
  have hs := start_eq wf e idx
  have hw := window_eq (K := K) wf e
  have hi : (i 0).val < K := (i 0).isLt
  unfold ScatterDims.resultIdx?
  constructor
  · intro h
    split at h
    · rename_i hall
      have h0 : ((binDims K N wf).start e idx 0 + ((binDims K N wf).window e 0 : Int)).toNat = (i 0).val :=
        congrArg (fun f => (f 0).val) (Option.some.inj h)
      have := hall 0
      rw [hs, hw] at this h0
      omega
    · cases h
  · intro h
    have hall : ∀ a, 0 ≤ (binDims K N wf).start e idx a + ((binDims K N wf).window e a : Int) ∧
        (binDims K N wf).start e idx a + ((binDims K N wf).window e a : Int) < ((⟨1, ![K]⟩ : Shape).size a : Int) := by
      intro a
      obtain rfl : a = 0 := Subsingleton.elim _ _
      rw [hs, hw, h]
      show (0 : Int) ≤ ((i 0).val : Int) + ((0 : Nat) : Int) ∧ ((i 0).val : Int) + ((0 : Nat) : Int) < (K : Int)
      omega
    rw [dif_pos hall]
    refine congrArg some (funext fun a => ?_)
    obtain rfl : a = 0 := Subsingleton.elim _ _
    refine Fin.ext ?_
    show ((binDims K N wf).start e idx 0 + ((binDims K N wf).window e 0 : Int)).toNat = (i 0).val
    rw [hs, hw, h]
    omega

/-- THE SCATTER-ADD READ AT `i`: the operand's element plus the sum over all updates of the update when its index word,
    read signed, is `i`'s number, and of zero otherwise. -/
theorem scatterAdd_apply {φ : FTy} (x : FVec Ideal ⟨1, ![K]⟩ φ) (idx : IVec ⟨2, ![N, 1]⟩ w) (upd : FVec Ideal ⟨1, ![N]⟩ φ)
    (i : (⟨1, ![K]⟩ : Shape).Idx) :
    Host.scatterAdd (binDims K N wf) x idx upd i
      = x i + ∑ e : (⟨1, ![N]⟩ : Shape).Idx,
          if (idx (ix2 (n0 := N) (n1 := 1) (e 0) 0)).toInt = ((i 0).val : Int) then upd e else 0 := by
  show Ideal.hostScatterAdd (binDims K N wf) x idx upd i = _
  unfold Ideal.hostScatterAdd
  rw [Finset.sum_filter]
  refine congrArg (x i + ·) (Finset.sum_congr rfl fun e _ => ?_)
  simp only [resultIdx?_eq_some_iff]

end Cert.LibScatterAdd

end
-- ==== Proof.RefValue.lean ====
/-
  The reference's result as a function of its two argument arrays is the specification (`Cert.Spec.spec`).

  The reference computes, for each element, the bin `min 14 (max 0 (⌈15·p⌉ - 1))` of its probability and a weight that is
  one when `0 < p ≤ 1` and zero otherwise, and scatter-adds into three arrays of fifteen zeros, at the element's bin, the
  weight, the probability times the weight, and the label times the weight. A scatter-add over the extended reals is
  a sum over all elements of the update where the element's index is the bin's number and of zero elsewhere; the bin
  lies in `[0, 14]`, so "the index read signed is the number `j`" is "the bin is `j`'s word". For a valid probability
  the key is the bin and the weight one; for an invalid one the key is the word `-1`, which is no bin's word, and the
  weight zero, so the update is zero whatever its bin: in both cases the summand is the specification's term. The ten
  operations after the scatters are the specification's tail, operation for operation.
-/
import proofs.«114207_j16947940950786_2_alg».proof.Proof.Gen.ReferenceIdeal.Read
import proofs.«114207_j16947940950786_2_alg».proof.Proof.Spec
import proofs.«114207_j16947940950786_2_alg».proof.Proof.LibScatterAdd
import Idealize.ShloMosaic.Lib.ValueIdx
import Idealize.ShloMosaic.PureOps.Ideal.Laws

noncomputable section

open scoped BigOperators

namespace Cert.RefSide

open Idealize.ShloMosaic Idealize.ShloMosaic.ValueIdx
open Cert.ReferenceIdeal Cert.ReferenceIdeal.Gen Cert.ReferenceIdeal.Read
open Cert.LibScatterAdd

/-! ## The last ten operations are the specification's tail -/

theorem tail_eq (x0 : (⟨S33554432, .f32⟩ : BufTy).Contents (Elt Ideal)) (x1 : (⟨S33554432, .i32⟩ : BufTy).Contents (Elt Ideal)) :
    val_main_v34 (F := Ideal) x0 x1
      = Spec.tail bcast_S_S15 reducesTo_S15_S_d0 h_S_ (val_main_v15 (F := Ideal) x0) (val_main_v19 (F := Ideal) x0)
          (val_main_v24 (F := Ideal) x0 x1) := by
  unfold val_main_v34 val_main_v33 val_main_v30 val_main_v32 val_main_v31 val_main_v28 val_main_v27 val_main_v26
    val_main_v29 val_main_v25 val_main_cst_7 val_main_cst_8 val_main_cst_9 Spec.tail
  rfl

/-! ## Words -/

/-- A word read signed is a bin's number exactly when it is the bin's word. -/
theorem toInt_eq_iff (b : BitVec 32) (j : Spec.S15.Idx) : b.toInt = ((j 0).val : Int) ↔ b = Spec.binWord j := by
  have hj : (j 0).val < 15 := (j 0).isLt
  have h : (Spec.binWord j).toInt = ((j 0).val : Int) := by
    unfold Spec.binWord
    rw [BitVec.toInt_eq_toNat_cond, BitVec.toNat_ofNat]
    split <;> omega
  rw [← h]
  exact BitVec.toInt_inj

/-- The word `-1` is no bin's word. -/
theorem neg_one_ne (j : Spec.S15.Idx) : ¬ (4294967295#32 = Spec.binWord j) := by
  have hj : (j 0).val < 15 := (j 0).isLt
  intro h
  have h2 := congrArg BitVec.toNat h
  unfold Spec.binWord at h2
  rw [BitVec.toNat_ofNat, BitVec.toNat_ofNat] at h2
  omega

/-! ## One element's three contributions -/

theorem cnt_term (p : Ideal .f32) (j : Spec.S15.Idx) :
    (if (Spec.bin p).toInt = ((j 0).val : Int) then (((Spec.valid p).toNat : ℝ) : EReal) else 0) = Spec.cntTerm j p := by
  unfold Spec.cntTerm Spec.key
  simp only [toInt_eq_iff]
  by_cases hv : Spec.valid p = 1#1
  · rw [hv, select_one]
    simp
  · rw [eq_zero_of_ne_one hv, select_zero, if_neg (neg_one_ne j)]
    simp

theorem conf_term (p : Ideal .f32) (j : Spec.S15.Idx) :
    (if (Spec.bin p).toInt = ((j 0).val : Int) then p * (((Spec.valid p).toNat : ℝ) : EReal) else 0) = Spec.confTerm j p := by
  unfold Spec.confTerm Spec.key
  simp only [toInt_eq_iff]
  by_cases hv : Spec.valid p = 1#1
  · rw [hv, select_one]
    simp
  · rw [eq_zero_of_ne_one hv, select_zero, if_neg (neg_one_ne j)]
    simp

theorem acc_term (p : Ideal .f32) (l : BitVec 32) (j : Spec.S15.Idx) :
    (if (Spec.bin p).toInt = ((j 0).val : Int) then ((l.toInt : ℝ) : EReal) * (((Spec.valid p).toNat : ℝ) : EReal) else 0)
      = Spec.accTerm j p l := by
  unfold Spec.accTerm Spec.key
  simp only [toInt_eq_iff]
  by_cases hv : Spec.valid p = 1#1
  · rw [hv, select_one]
    simp
  · rw [eq_zero_of_ne_one hv, select_zero, if_neg (neg_one_ne j)]
    simp

/-! ## The scatters' operands at an element -/

/-- The scatter index of element `e` is its bin. -/
theorem idx_read (x0 : (⟨S33554432, .f32⟩ : BufTy).Contents (Elt Ideal)) (e : S33554432.Idx) :
    val_main_v14 (F := Ideal) x0 (ix2 (n0 := 33554432) (n1 := 1) (e 0) 0) = Spec.bin (x0 e) := by
  rw [val_main_v14_apply]
  have he : idx_main_v14 (ix2 (n0 := 33554432) (n1 := 1) (e 0) 0) = e := by
    funext a; match a with | ⟨0, _⟩ => rfl
  rw [he]
  rfl

/-- The weight of element `e`: one when its probability is valid, zero otherwise. -/
theorem w_read (x0 : (⟨S33554432, .f32⟩ : BufTy).Contents (Elt Ideal)) (e : S33554432.Idx) :
    val_main_v12 (F := Ideal) x0 e = (((Spec.valid (x0 e)).toNat : ℝ) : EReal) := rfl

theorem pw_read (x0 : (⟨S33554432, .f32⟩ : BufTy).Contents (Elt Ideal)) (e : S33554432.Idx) :
    val_main_v16 (F := Ideal) x0 e = x0 e * (((Spec.valid (x0 e)).toNat : ℝ) : EReal) := rfl

theorem lw_read (x0 : (⟨S33554432, .f32⟩ : BufTy).Contents (Elt Ideal)) (x1 : (⟨S33554432, .i32⟩ : BufTy).Contents (Elt Ideal))
    (e : S33554432.Idx) :
    val_main_v21 (F := Ideal) x0 x1 e = (((x1 e).toInt : ℝ) : EReal) * (((Spec.valid (x0 e)).toNat : ℝ) : EReal) := rfl

/-! ## The three scatters are the three histograms -/

theorem counts_eq (x0 : (⟨S33554432, .f32⟩ : BufTy).Contents (Elt Ideal)) :
    val_main_v15 (F := Ideal) x0 = Spec.counts x0 := by
  funext j
  unfold val_main_v15 Spec.counts
  refine (scatterAdd_apply (K := 15) (N := 33554432) scatter_S15_S33554432x1_S33554432_n_0_0_1_wf _ _ _ j).trans ?_
  have h0 : val_main_v13 (F := Ideal) j = 0 := Ideal.ofBits_zero_f32
  rw [h0, zero_add]
  refine Finset.sum_congr rfl fun e _ => ?_
  rw [idx_read, w_read]
  exact cnt_term (x0 e) j

theorem confs_eq (x0 : (⟨S33554432, .f32⟩ : BufTy).Contents (Elt Ideal)) :
    val_main_v19 (F := Ideal) x0 = Spec.confs x0 := by
  funext j
  unfold val_main_v19 Spec.confs
  refine (scatterAdd_apply (K := 15) (N := 33554432) scatter_S15_S33554432x1_S33554432_n_0_0_1_wf _ _ _ j).trans ?_
  have h0 : val_main_v17 (F := Ideal) j = 0 := Ideal.ofBits_zero_f32
  rw [h0, zero_add]
  refine Finset.sum_congr rfl fun e _ => ?_
  rw [show val_main_v18 (F := Ideal) x0 = val_main_v14 (F := Ideal) x0 from rfl, idx_read, pw_read]
  exact conf_term (x0 e) j

theorem accs_eq (x0 : (⟨S33554432, .f32⟩ : BufTy).Contents (Elt Ideal)) (x1 : (⟨S33554432, .i32⟩ : BufTy).Contents (Elt Ideal)) :
    val_main_v24 (F := Ideal) x0 x1 = Spec.accs x0 x1 := by
  funext j
  unfold val_main_v24 Spec.accs
  refine (scatterAdd_apply (K := 15) (N := 33554432) scatter_S15_S33554432x1_S33554432_n_0_0_1_wf _ _ _ j).trans ?_
  have h0 : val_main_v22 (F := Ideal) j = 0 := Ideal.ofBits_zero_f32
  rw [h0, zero_add]
  refine Finset.sum_congr rfl fun e _ => ?_
  rw [show val_main_v23 (F := Ideal) x0 = val_main_v14 (F := Ideal) x0 from rfl, idx_read, lw_read]
  exact acc_term (x0 e) (x1 e) j

/-! ## The reference is the specification -/

/-- The reference's result, as a function of the two argument arrays, is the specification: its three scatters are the
    three histograms, and the operations after them are the specification's tail. -/
theorem ref_eq (x0 : (⟨S33554432, .f32⟩ : BufTy).Contents (Elt Ideal)) (x1 : (⟨S33554432, .i32⟩ : BufTy).Contents (Elt Ideal)) :
    Cert.ReferenceIdeal.Read.val_main_v34 (F := Ideal) x0 x1
      = Cert.Spec.spec bcast_S_S15 reducesTo_S15_S_d0 h_S_ x0 x1 := by
  rw [tail_eq, counts_eq, confs_eq, accs_eq]
  rfl

end Cert.RefSide

end
-- ==== Proof.KTerms.lean ====
/-
  One element's contribution to a bin as the kernel computes it: the key is compared with the bin's number ONCE; the
  count adds the comparison's bit read as a number, the other two sums add the probability, or the label, where the
  bit is set and zero where it is not. These are the terms of the specification.
-/
import proofs.«114207_j16947940950786_2_alg».proof.Proof.Spec

noncomputable section

namespace Cert.KTerms

open Idealize.ShloMosaic

/-- The comparison's bit, widened to 32 bits and read as a number. -/
def kcnt (w : BitVec 32) (p : Ideal .f32) : EReal :=
  FloatOps.sitofp (F := Ideal) .f32 ((IntOp.cmpi .eq (Cert.Spec.key p) w).setWidth 32)

/-- The probability where the key is the bin's number, zero elsewhere. -/
def kconf (w : BitVec 32) (p : Ideal .f32) : EReal :=
  Scalar.select (IntOp.cmpi .eq (Cert.Spec.key p) w) p (FloatOps.ofBits (F := Ideal) .f32 0x00000000#32)

/-- The label, as a number, where the key is the bin's number, zero elsewhere. -/
def kacc (w : BitVec 32) (p : Ideal .f32) (l : BitVec 32) : EReal :=
  Scalar.select (IntOp.cmpi .eq (Cert.Spec.key p) w) (FloatOps.sitofp (F := Ideal) .f32 l)
    (FloatOps.ofBits (F := Ideal) .f32 0x00000000#32)

end Cert.KTerms

end
-- ==== Proof.RowUpdate.lean ====
/-
  One row of an accumulator, updated: the row `R` (a [1,128] vector) plus, lane by lane, the sum over the 4096 rows of
  a [4096,128] block `src`. Read at lane `l` it is `R (0, l) + ∑ r, src (r, l)`. Also: a single row loaded from a
  whole [16,128] buffer, read at a lane, is that row's entry.
-/
import proofs.«114207_j16947940950786_2_alg».proof.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RowUpdate

open Idealize.ShloMosaic Idealize.ShloMosaic.ValueIdx Cert.KernelIdeal

/-- The sum over the rows of a [4096,128] block, lane by lane. -/
theorem laneSum_apply (src : FVec Ideal S4096x128 .f32) (h : S4096x128.Reduces [0] S128) (hφ : FKind.Formats .f32)
    (hacc : (0x00000000#32 : BitVec 32) = FKind.add.neutral .f32 hφ) (l : Fin 128) :
    multiReduction .add [0] S128 src 0x00000000#32 h hφ hacc (ix1 l) = ∑ r : Fin 4096, src (ix2 r l) := by
  refine (Ideal.multiReduction_add_single src _ h hφ hacc (ix1 l)).trans ?_
  refine Finset.sum_congr rfl fun r _ => congrArg src ?_
  funext a
  match a with
  | ⟨0, _⟩ => rfl
  | ⟨1, _⟩ => rfl

/-- A row plus the lane sums of a block, read at a lane. -/
theorem rowUpd_apply (R : S1x128.Idx → Ideal .f32) (src : FVec Ideal S4096x128 .f32)
    (h1 : S1x128.ShapeCasts S128) (h2 : S128.ShapeCasts S1x128) (h : S4096x128.Reduces [0] S128)
    (hφ : FKind.Formats .f32) (hacc : (0x00000000#32 : BitVec 32) = FKind.add.neutral .f32 hφ) (l : Fin 128) :
    (shapeCast S1x128 (addf (shapeCast S128 R h1) (multiReduction .add [0] S128 src 0x00000000#32 h hφ hacc)) h2
        : FVec Ideal S1x128 .f32) (ix2 (0 : Fin 1) l)
      = R (ix2 (0 : Fin 1) l) + ∑ r : Fin 4096, src (ix2 r l) := by
  refine (shapeCast_a_1a_apply _ h2 (0 : Fin 1) l).trans ?_
  show (shapeCast S128 R h1) (ix1 l) + multiReduction .add [0] S128 src 0x00000000#32 h hφ hacc (ix1 l) = _
  rw [shapeCast_1a_a_apply R h1 l, laneSum_apply]

end Cert.KernelIdeal.RowUpdate

end
-- ==== Proof.KernelTerms.lean ====
/-
  What one grid point adds to the three accumulators. The point's block of probabilities `X` and of labels `X1` are
  [4096,128]; row `b < 15` of an accumulator gains, at lane `l`, the sum over the block's rows `r` of the element
  (r, l)'s term for bin `b`; row 15 gains nothing. Also: the body's casts of a block to its own shape are the
  identity, and a single row read out of a [16,128] array is that row.
-/
import proofs.«114207_j16947940950786_2_alg».proof.Proof.Gen.KernelIdeal.Skeleton
import proofs.«114207_j16947940950786_2_alg».proof.Proof.KTerms
import proofs.«114207_j16947940950786_2_alg».proof.Proof.RowUpdate

noncomputable section

namespace Cert.KernelIdeal.KernelTerms

open Idealize.ShloMosaic Idealize.ShloMosaic.ValueIdx Cert.KernelIdeal Cert.KernelIdeal.Gen Cert.KTerms

/-- The block of probabilities, cast to its own shape, is itself. -/
theorem pay8_eq (X : Vec Ideal S4096x128 .f32) : k0_pay8 (F := Ideal) X = X := shapeCast_self X _

/-- The block of labels, cast to its own shape and converted, is the labels converted. -/
theorem pay9_apply (X1 : Vec Ideal S4096x128 .i32) (i : S4096x128.Idx) :
    k0_pay9 (F := Ideal) X1 i = FloatOps.sitofp (F := Ideal) .f32 (X1 i) := by
  show FloatOps.sitofp (F := Ideal) .f32 ((shapeCast S4096x128 X1 _) i) = _
  rw [shapeCast_self]

/-- Row `b` of a [16,128] array read through the rectangle of that row, at lane `l`. -/
theorem ldRow_apply (X : S16x128.Idx → Ideal .f32) (b : ℕ) (hb : b < 16)
    (inb : ∀ a, (![b, 0] : Fin 2 → ℕ) a + (![1, 128] : Fin 2 → ℕ) a ≤ S16x128.size a) (l : Fin 128) :
    View.ld (Val := Elt Ideal) (e' := .f32) X (Rect.unit (s := S16x128) ![b, 0] ![1, 128] inb) (ix2 (0 : Fin 1) l)
      = X (ix2 ⟨b, hb⟩ l) := by
  show X _ = X _
  congr 1
  funext a
  apply Fin.ext
  match a with
  | ⟨0, _⟩ => show b + 1 * 0 = b; omega
  | ⟨1, _⟩ => show 0 + 1 * l.val = l.val; omega

/-- What a point adds to the counts accumulator at (row, lane). -/
def add0 (X : Vec Ideal S4096x128 .f32) (b : Fin 16) (l : Fin 128) : EReal :=
  if b.val < 15 then ∑ r : Fin 4096, kcnt (BitVec.ofNat 32 b.val) (X (ix2 r l)) else 0

/-- What a point adds to the accumulator of probability sums. -/
def add1 (X : Vec Ideal S4096x128 .f32) (b : Fin 16) (l : Fin 128) : EReal :=
  if b.val < 15 then ∑ r : Fin 4096, kconf (BitVec.ofNat 32 b.val) (X (ix2 r l)) else 0

/-- What a point adds to the accumulator of label sums. -/
def add2 (X : Vec Ideal S4096x128 .f32) (X1 : Vec Ideal S4096x128 .i32) (b : Fin 16) (l : Fin 128) : EReal :=
  if b.val < 15 then ∑ r : Fin 4096, kacc (BitVec.ofNat 32 b.val) (X (ix2 r l)) (X1 (ix2 r l)) else 0

theorem add0_lt (X : Vec Ideal S4096x128 .f32) (b : Fin 16) (l : Fin 128) (h : b.val < 15) :
    add0 X b l = ∑ r : Fin 4096, kcnt (BitVec.ofNat 32 b.val) (X (ix2 r l)) := if_pos h
theorem add1_lt (X : Vec Ideal S4096x128 .f32) (b : Fin 16) (l : Fin 128) (h : b.val < 15) :
    add1 X b l = ∑ r : Fin 4096, kconf (BitVec.ofNat 32 b.val) (X (ix2 r l)) := if_pos h
theorem add2_lt (X : Vec Ideal S4096x128 .f32) (X1 : Vec Ideal S4096x128 .i32) (b : Fin 16) (l : Fin 128) (h : b.val < 15) :
    add2 X X1 b l = ∑ r : Fin 4096, kacc (BitVec.ofNat 32 b.val) (X (ix2 r l)) (X1 (ix2 r l)) := if_pos h
theorem add0_top (X : Vec Ideal S4096x128 .f32) (b : Fin 16) (l : Fin 128) (h : ¬ b.val < 15) : add0 X b l = 0 := if_neg h
theorem add1_top (X : Vec Ideal S4096x128 .f32) (b : Fin 16) (l : Fin 128) (h : ¬ b.val < 15) : add1 X b l = 0 := if_neg h
theorem add2_top (X : Vec Ideal S4096x128 .f32) (X1 : Vec Ideal S4096x128 .i32) (b : Fin 16) (l : Fin 128) (h : ¬ b.val < 15) :
    add2 X X1 b l = 0 := if_neg h

end Cert.KernelIdeal.KernelTerms

end
-- ==== Proof.KTermsEq.lean ====
/-
  The kernel's three per-element terms, at a bin's word, are the specification's terms: comparing the key with the
  bin's word gives the bit `1` exactly when the key is that word; the bit widened and read as a number is then one or
  zero, and a select on it picks the probability (or the label) or zero.
-/
import proofs.«114207_j16947940950786_2_alg».proof.Proof.KTerms
import Idealize.ShloMosaic.PureOps.Ideal.Laws

noncomputable section

namespace Cert.KTerms

open Idealize.ShloMosaic

/-! ## They are the specification's terms -/

/-- Comparing equal words gives the bit `1` … -/
theorem cmpi_eq_of_eq {a b : BitVec 32} (h : a = b) : IntOp.cmpi .eq a b = 1#1 := by
  subst h
  show BitVec.ofBool (a == a) = 1#1
  rw [beq_self_eq_true]
  rfl

/-- … and comparing different words the bit `0`. -/
theorem cmpi_eq_of_ne {a b : BitVec 32} (h : ¬ a = b) : IntOp.cmpi .eq a b = 0#1 := by
  show BitVec.ofBool (a == b) = 0#1
  rw [beq_eq_false_iff_ne.mpr h]
  rfl

theorem kcnt_eq (j : Cert.Spec.S15.Idx) (p : Ideal .f32) : kcnt (Cert.Spec.binWord j) p = Cert.Spec.cntTerm j p := by
  unfold kcnt Cert.Spec.cntTerm
  by_cases h : Cert.Spec.key p = Cert.Spec.binWord j
  · rw [cmpi_eq_of_eq h, if_pos h]
    have h1 : ((1#1 : BitVec 1).setWidth 32).toInt = 1 := by decide
    show ((((1#1 : BitVec 1).setWidth 32).toInt : ℝ) : EReal) = 1
    rw [h1]
    simp
  · rw [cmpi_eq_of_ne h, if_neg h]
    have h0 : ((0#1 : BitVec 1).setWidth 32).toInt = 0 := by decide
    show ((((0#1 : BitVec 1).setWidth 32).toInt : ℝ) : EReal) = 0
    rw [h0]
    simp

theorem kconf_eq (j : Cert.Spec.S15.Idx) (p : Ideal .f32) : kconf (Cert.Spec.binWord j) p = Cert.Spec.confTerm j p := by
  unfold kconf Cert.Spec.confTerm
  by_cases h : Cert.Spec.key p = Cert.Spec.binWord j
  · rw [cmpi_eq_of_eq h, ValueIdx.select_one, if_pos h]
  · rw [cmpi_eq_of_ne h, ValueIdx.select_zero, if_neg h]
    exact Ideal.ofBits_zero_f32

theorem kacc_eq (j : Cert.Spec.S15.Idx) (p : Ideal .f32) (l : BitVec 32) :
    kacc (Cert.Spec.binWord j) p l = Cert.Spec.accTerm j p l := by
  unfold kacc Cert.Spec.accTerm
  by_cases h : Cert.Spec.key p = Cert.Spec.binWord j
  · rw [cmpi_eq_of_eq h, ValueIdx.select_one, if_pos h]
    rfl
  · rw [cmpi_eq_of_ne h, ValueIdx.select_zero, if_neg h]
    exact Ideal.ofBits_zero_f32

/-- The word of the bin numbered `b`. -/
theorem binWord_ix1 (b : ℕ) (h : b < 15) : Cert.Spec.binWord (ValueIdx.ix1 ⟨b, h⟩) = BitVec.ofNat 32 b := rfl

end Cert.KTerms

end
-- ==== Proof.Layout.lean ====
/-
  Where the kernel finds an element. The vector of 33554432 elements is read as 262144 rows of 128 lanes; core `c`
  (of 2) takes 32 consecutive blocks of 4096 rows. So the element at row `r`, lane `l` of block `i` of core `c` is
  element number `((32·c + i)·4096 + r)·128 + l` of the vector.
-/
import Idealize.ShloMosaic.Lib.ValueIdx

noncomputable section

namespace Cert.Layout

open Idealize.ShloMosaic Idealize.ShloMosaic.ValueIdx

abbrev SN : Shape := ⟨1, ![33554432]⟩

/-- The element number of any (core, block, row, lane) is below the vector's length. -/
theorem elem_lt (c : Fin 2) (i : Fin 32) (r : Fin 4096) (l : Fin 128) :
    ((c.val * 32 + i.val) * 4096 + r.val) * 128 + l.val < 33554432 := by
  have := c.isLt; have := i.isLt; have := r.isLt; have := l.isLt; omega

/-- The element at (core, block, row, lane), as an index of the vector: number `((32·c + i)·4096 + r)·128 + l`. -/
def elemIdx (c : Fin 2) (i : Fin 32) (r : Fin 4096) (l : Fin 128) : SN.Idx :=
  ix1 ⟨((c.val * 32 + i.val) * 4096 + r.val) * 128 + l.val, elem_lt c i r l⟩

end Cert.Layout

end
-- ==== Proof.Final.lean ====
/-
  What the kernel's three output arrays hold when the region ends. Entry (core `c`, row `b`, lane `l`) of the
  [2,16,128] counts array is, for a bin `b < 15`, the number of elements of core `c` in lane `l` whose key is `b`: the
  sum over the core's 32 blocks and each block's 4096 rows of the element's count term. The other two arrays hold the
  same sums of the probability terms and of the label terms. Row 15 is padding and holds zero.
-/
import proofs.«114207_j16947940950786_2_alg».proof.Proof.Spec
import proofs.«114207_j16947940950786_2_alg».proof.Proof.Layout

noncomputable section

namespace Cert.Final

open Idealize.ShloMosaic Idealize.ShloMosaic.ValueIdx Cert.Layout

abbrev S2x16x128 : Shape := ⟨3, ![2, 16, 128]⟩

/-- A row below 15 as a bin. -/
def binOf (b : ℕ) (h : b < 15) : Cert.Spec.S15.Idx := ix1 ⟨b, h⟩

/-- The counts array. -/
def cntArr (p : SN.Idx → Ideal .f32) : S2x16x128.Idx → EReal := fun y =>
  if h : (y 1).val < 15 then
    ∑ i : Fin 32, ∑ r : Fin 4096, Cert.Spec.cntTerm (binOf (y 1).val h) (p (elemIdx (y 0) i r (y 2)))
  else 0

/-- The array of probability sums. -/
def confArr (p : SN.Idx → Ideal .f32) : S2x16x128.Idx → EReal := fun y =>
  if h : (y 1).val < 15 then
    ∑ i : Fin 32, ∑ r : Fin 4096, Cert.Spec.confTerm (binOf (y 1).val h) (p (elemIdx (y 0) i r (y 2)))
  else 0

/-- The array of label sums. -/
def accArr (p : SN.Idx → Ideal .f32) (l : SN.Idx → BitVec 32) : S2x16x128.Idx → EReal := fun y =>
  if h : (y 1).val < 15 then
    ∑ i : Fin 32, ∑ r : Fin 4096,
      Cert.Spec.accTerm (binOf (y 1).val h) (p (elemIdx (y 0) i r (y 2))) (l (elemIdx (y 0) i r (y 2)))
  else 0

end Cert.Final

end
-- ==== Proof.BlockRead.lean ====
/-
  The kernel's two input windows, read through the reshape that precedes the region.

  Before the region the vector of 33554432 elements is reshaped to 262144 rows of 128 lanes: row `R`, lane `l` of
  the reshaped array is element `128·R + l` of the vector. At grid point `t` (of 64) a window's block is rows
  `4096·t … 4096·t + 4095`, all 128 lanes. So the block's entry at row `r`, lane `l` is element
  `(4096·t + r)·128 + l`: with `t = 32·c + i` it is the element at (core `c`, block `i`, row `r`, lane `l`).
-/
import proofs.«114207_j16947940950786_2_alg».proof.Proof.Gen.KernelIdeal.Frame
import proofs.«114207_j16947940950786_2_alg».proof.Proof.Layout
import Idealize.ShloMosaic.Lib.Pipeline.Value
import Idealize.ShloMosaic.Lib.StableHlo.Run
import Idealize.ShloMosaic.Lib.Tactic

noncomputable section

namespace Cert.BlockRead

open Idealize.ShloMosaic Idealize.ShloMosaic.TcCoe Idealize.ShloMosaic.Tactic Idealize.SL.Sem
open Idealize.ShloMosaic.ValueIdx
open Cert.KernelIdeal Cert.KernelIdeal.Gen

variable {F : FTy → Type} [FloatOps F]
variable (m : (ℓ : Loc nD τ sig) → Buf (Elt F) ℓ)

/-! ## The reshape at an index -/

/-- Position `128·R + l` is inside the vector. -/
theorem flat_lt (R : Fin 262144) (l : Fin 128) : R.val * 128 + l.val < 33554432 := by
  have := R.isLt; have := l.isLt; omega

/-- The vector reshaped to 262144 × 128, read at row `R`, lane `l`, is the vector at `128·R + l`: the same row-major
    position. -/
theorem reshape_apply {α : Type} (x : S33554432.Idx → α) (R : Fin 262144) (l : Fin 128) :
    shapeCast S262144x128 x shapeCasts_S33554432_S262144x128 (ix2 R l) = x (ix1 ⟨R.val * 128 + l.val, flat_lt R l⟩) :=
  shapeCast_apply x shapeCasts_S33554432_S262144x128 (ix2 R l) (ix1 ⟨R.val * 128 + l.val, flat_lt R l⟩)
    (by rw [Shape.rowMajor_val_one, Shape.rowMajor_val_two]; rfl)

/-! ## The windows' arrays when the region is entered -/

/-- Window 0's array is the first argument reshaped. -/
theorem V_main_v0 (c : Dev nD) :
    (V m c main_v0 : S262144x128.Idx → Elt F .f32)
      = shapeCast S262144x128 (m ((c : Thread nD τ).loc main_arg0)) shapeCasts_S33554432_S262144x128 := by
  show StableHlo.after hostOps0 (fun b => m (c, b)) (Proc.devRef .tc main_v0) = _
  after_results
  rfl

/-- Window 1's array is the second argument reshaped. -/
theorem V_main_v1 (c : Dev nD) :
    (V m c main_v1 : S262144x128.Idx → Elt F .i32)
      = shapeCast S262144x128 (m ((c : Thread nD τ).loc main_arg1)) shapeCasts_S33554432_S262144x128 := by
  show StableHlo.after hostOps0 (fun b => m (c, b)) (Proc.devRef .tc main_v1) = _
  after_results
  rfl

/-! ## The block index maps over the grid -/

/-- Window 0's block at point `t` is block `t` of the rows, block 0 of the lanes. -/
theorem idx0 : ∀ t : Fin cfg0.N, win0_0.index t 0 = t.val ∧ win0_0.index t 1 = 0 :=
  (by decide +kernel : ∀ t : Fin grid0.N, win0_0.index t 0 = t.val ∧ win0_0.index t 1 = 0)
/-- So is window 1's. -/
theorem idx1 : ∀ t : Fin cfg0.N, win0_1.index t 0 = t.val ∧ win0_1.index t 1 = 0 :=
  (by decide +kernel : ∀ t : Fin grid0.N, win0_1.index t 0 = t.val ∧ win0_1.index t 1 = 0)

/-- A grid point's core coordinate `t / 32` is below 2. -/
theorem core_lt (t : Fin cfg0.N) : t.val / 32 < 2 := by
  have ht : t.val < 64 := lt_of_lt_of_eq t.isLt N_0
  omega

/-- A grid point's block coordinate `t % 32` is below 32. -/
theorem blk_lt (t : Fin cfg0.N) : t.val % 32 < 32 := Nat.mod_lt _ (by decide)

/-! ## The blocks at an index -/

/-- Window 0's block at point `t`, read at row `r`, lane `l`, is the first argument at element
    `(4096·t + r)·128 + l`, the element at (core `t / 32`, block `t % 32`, row `r`, lane `l`). -/
theorem iblk0_apply (c : Dev nD) (t : Fin cfg0.N) (r : Fin 4096) (l : Fin 128) :
    (iblk m c 0 t : Vec F S4096x128 .f32) (ix2 r l)
      = m ((c : Thread nD τ).loc main_arg0)
          (Cert.Layout.elemIdx ⟨t.val / 32, core_lt t⟩ ⟨t.val % 32, blk_lt t⟩ r l) := by
  have hi := idx0 t
  unfold iblk
  rw [View.read_apply]
  show V m c main_v0 _ = _
  rw [V_main_v0]
  refine (shapeCast_apply _ _ _ (Cert.Layout.elemIdx ⟨t.val / 32, core_lt t⟩ ⟨t.val % 32, blk_lt t⟩ r l) ?_).trans rfl
  rw [Shape.rowMajor_val_one, Shape.rowMajor_val_two]
  show ((t.val / 32 * 32 + t.val % 32) * 4096 + r.val) * 128 + l.val
    = (win0_0.index t 0 * 4096 + 1 * r.val) * 128 + (win0_0.index t 1 * 128 + 1 * l.val)
  rw [hi.1, hi.2]
  have := Nat.div_add_mod t.val 32
  omega

/-- Window 1's block at point `t`, read at row `r`, lane `l`, is the second argument at the same element. -/
theorem iblk1_apply (c : Dev nD) (t : Fin cfg0.N) (r : Fin 4096) (l : Fin 128) :
    (iblk m c 1 t : Vec F S4096x128 .i32) (ix2 r l)
      = m ((c : Thread nD τ).loc main_arg1)
          (Cert.Layout.elemIdx ⟨t.val / 32, core_lt t⟩ ⟨t.val % 32, blk_lt t⟩ r l) := by
  have hi := idx1 t
  unfold iblk
  rw [View.read_apply]
  show V m c main_v1 _ = _
  rw [V_main_v1]
  refine (shapeCast_apply _ _ _ (Cert.Layout.elemIdx ⟨t.val / 32, core_lt t⟩ ⟨t.val % 32, blk_lt t⟩ r l) ?_).trans rfl
  rw [Shape.rowMajor_val_one, Shape.rowMajor_val_two]
  show ((t.val / 32 * 32 + t.val % 32) * 4096 + r.val) * 128 + l.val
    = (win0_1.index t 0 * 4096 + 1 * r.val) * 128 + (win0_1.index t 1 * 128 + 1 * l.val)
  rw [hi.1, hi.2]
  have := Nat.div_add_mod t.val 32
  omega

end Cert.BlockRead

end
-- ==== Proof.LibGridAccum.lean ====
/-
  An accumulator over a grid walked in order, reset every 32 steps. `S n` is the accumulator after step `n` and `g n`
  what step `n` adds. If a step whose number is a multiple of 32 starts afresh (`S n = g n`) and every other step adds
  to what the step before left (`S n = S (n - 1) + g n`), then after step `n` the accumulator holds the sum of what the
  steps since the last multiple of 32 added: `∑ k < n % 32 + 1, g (n - n % 32 + k)`. In particular after the last
  step of a group of 32 it holds the whole group's sum.
-/
import Idealize.ShloMosaic.Lib.ValueIdx

namespace Cert.LibGridAccum

/-- The accumulator after step `n` is the sum of the increments since the last multiple of 32. -/
theorem accum_closed {M : Type*} [AddCommMonoid M] (S g : ℕ → M) (N : ℕ)
    (hA : ∀ n, n < N → n % 32 = 0 → S n = g n)
    (hB : ∀ n, n < N → n % 32 ≠ 0 → S n = S (n - 1) + g n) :
    ∀ n, n < N → S n = ∑ k ∈ Finset.range (n % 32 + 1), g (n - n % 32 + k) := by
  intro n
  induction n with
  | zero =>
    intro h
    rw [hA 0 h rfl]
    simp
  | succ n ih =>
    intro h
    by_cases h0 : (n + 1) % 32 = 0
    · rw [hA (n + 1) h h0, h0]
      simp
    · rw [hB (n + 1) h h0, Nat.add_sub_cancel, ih (by omega)]
      have e1 : (n + 1) % 32 = n % 32 + 1 := by omega
      have e2 : n + 1 - (n % 32 + 1) = n - n % 32 := by omega
      rw [e1, e2, Finset.sum_range_succ (fun k => g (n - n % 32 + k)) (n % 32 + 1)]
      congr 2
      omega

/-- After the last step of group `q` (step `32 q + 31`) the accumulator holds the group's 32 increments. -/
theorem accum_last {M : Type*} [AddCommMonoid M] (S g : ℕ → M) (N : ℕ)
    (hA : ∀ n, n < N → n % 32 = 0 → S n = g n)
    (hB : ∀ n, n < N → n % 32 ≠ 0 → S n = S (n - 1) + g n)
    (n : ℕ) (hn : n < N) (h31 : n % 32 = 31) :
    S n = ∑ i : Fin 32, g (n / 32 * 32 + i.val) := by
  rw [accum_closed S g N hA hB n hn, h31, Finset.sum_range (fun k => g (n - 31 + k))]
  refine Finset.sum_congr rfl fun i _ => ?_
  congr 1
  omega

end Cert.LibGridAccum
-- ==== Proof.ScratchAIn.lean ====
/-
  The two input blocks of a grid point, read whole out of their buffers, are the blocks themselves.
-/
import proofs.«114207_j16947940950786_2_alg».proof.Proof.Gen.KernelIdeal.Frame
import proofs.«114207_j16947940950786_2_alg».proof.Proof.KernelTerms
import Idealize.ShloMosaic.Lib.Pipeline.Value
import Idealize.ShloMosaic.Lib.WritesUnit
import Idealize.ShloMosaic.Lib.Tactic

set_option maxRecDepth 16384

noncomputable section

namespace Cert.KernelIdeal.ScratchA

open Idealize.ShloMosaic Idealize.ShloMosaic.TcCoe Idealize.ShloMosaic.ValueIdx Idealize.SL.Sem
open Cert.KernelIdeal Cert.KernelIdeal.Gen Cert.KernelIdeal.RowUpdate Cert.KernelIdeal.KernelTerms Cert.KTerms

theorem hz2 : (![0, 0] : Fin 2 → Nat) = fun _ => 0 := funext fun a => by fin_cases a <;> rfl

/-- The block of probabilities, read whole out of its buffer, is the block. -/
theorem xin_eq (arg2 : Memref sig .tc .vmem S4096x128 .f32) (harg2 : arg2.IsWhole) (x0 : Vec Ideal S4096x128 .f32) :
    (View.readAt (Elt Ideal) arg2.view (Rect.unit ![0, 0] S4096x128.size inb_S4096x128_S4096x128_0_0).toLoadRect (harg2.unread x0)) = x0 := by
  simp only [View.readAt_eq_ld, harg2.read_unread, View.ld_unit_zero (S := S4096x128) hz2]

/-- The block of labels, read whole out of its buffer, is the block. -/
theorem x1in_eq (arg3 : Memref sig .tc .vmem S4096x128 .i32) (harg3 : arg3.IsWhole) (x1 : Vec Ideal S4096x128 .i32) :
    (View.readAt (Elt Ideal) arg3.view (Rect.unit ![0, 0] S4096x128.size inb_S4096x128_S4096x128_0_0).toLoadRect (harg3.unread x1)) = x1 := by
  simp only [View.readAt_eq_ld, harg3.read_unread, View.ld_unit_zero (S := S4096x128) hz2]

end Cert.KernelIdeal.ScratchA

end
-- ==== Proof.ScratchA0.lean ====
/-
  The first grid point of a core, accumulator of counts. The body stores a whole block of zeros, then for each bin
  `ρ = 0, …, 14` in turn loads row `ρ`, adds the lane sums of the block's terms for bin `ρ`, and stores the row back.
  Read newest store first: after the rows `0, …, k - 1` have been stored, entry (row, lane) reads what the block adds
  when the row is below `k` and zero otherwise — by induction on `k`, since the row loaded for bin `k` is still zero.
  After all fifteen, row 15 is zero and every other row holds what the block adds.
-/
import proofs.«114207_j16947940950786_2_alg».proof.Proof.Gen.KernelIdeal.Frame
import proofs.«114207_j16947940950786_2_alg».proof.Proof.KernelTerms
import proofs.«114207_j16947940950786_2_alg».proof.Proof.ScratchAIn
import Idealize.ShloMosaic.Lib.Pipeline.Value
import Idealize.ShloMosaic.Lib.WritesUnit
import Idealize.ShloMosaic.Lib.Tactic

set_option maxRecDepth 16384

noncomputable section

namespace Cert.KernelIdeal.ScratchA

open Idealize.ShloMosaic Idealize.ShloMosaic.TcCoe Idealize.ShloMosaic.ValueIdx Idealize.SL.Sem
open Cert.KernelIdeal Cert.KernelIdeal.Gen Cert.KernelIdeal.RowUpdate Cert.KernelIdeal.KernelTerms Cert.KTerms

/-- After the one store of a whole block of zeros every entry reads zero, whatever was there before. -/
theorem LA0_1 {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_1 (F := Ideal))) y = 0 := by
  unfold kernelRun0_A.sl.HS0_1
  refine (View.read_writes_cons_unit_of_mem v f _ _ _ y y rfl
    (Fin.forall_fin_two.mpr ⟨(Nat.zero_add _).symm, (Nat.zero_add _).symm⟩)).trans ?_
  show (shapeCast S16x128 (broadcast S16x128 (Scalar.ofBits (F := Ideal) .f32 0x00000000#32)) shapeCasts_S16x128_S16x128
    : FVec Ideal S16x128 .f32) y = 0
  rw [shapeCast_self]
  exact Ideal.ofBits_zero_f32

/-- After rows 0 to 0 have been updated: those rows hold what the block adds, the rows below still zero. -/
theorem LA0_2 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_2 (F := Ideal) c arg2 harg2 arg7 x0)) y
      = if (y (0 : Fin 2)).val < 1 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 1 then add0 x0 b l else 0
  unfold kernelRun0_A.sl.HS0_2
  by_cases h : b.val = 0
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 1 from by omega)).trans (add0_lt x0 b l (by omega))).symm
    refine (congrArg₂ (· + ·) ?_ (Finset.sum_congr rfl fun r _ => ?_)).trans (zero_add _)
    · exact LA0_1 arg7.view arg7.view.junk ((Rect.unit (s := S16x128) ![0, 0] S1x128.size inb_S16x128_S1x128_0_0).toLoadRect.idx (ix2 (0 : Fin 1) l))
    · show kcnt (BitVec.ofNat 32 0) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 0 ∨ 0 + 1 ≤ b.val from by omega)).trans ?_
    refine (LA0_1 v f (ix2 b l)).trans ?_
    exact (if_neg (show ¬ b.val < 1 from by omega)).symm

/-- After rows 0 to 1 have been updated: those rows hold what the block adds, the rows below still zero. -/
theorem LA0_3 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_3 (F := Ideal) c arg2 harg2 arg7 x0)) y
      = if (y (0 : Fin 2)).val < 2 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 2 then add0 x0 b l else 0
  unfold kernelRun0_A.sl.HS0_3
  by_cases h : b.val = 1
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 2 from by omega)).trans (add0_lt x0 b l (by omega))).symm
    refine (congrArg₂ (· + ·) ?_ (Finset.sum_congr rfl fun r _ => ?_)).trans (zero_add _)
    · exact (LA0_2 c arg2 harg2 arg7 x0 arg7.view arg7.view.junk ((Rect.unit (s := S16x128) ![1, 0] S1x128.size inb_S16x128_S1x128_1_0).toLoadRect.idx (ix2 (0 : Fin 1) l))).trans
        (if_neg (show ¬ ((1 + 1 * 0 : ℕ) < 1) from by decide))
    · show kcnt (BitVec.ofNat 32 1) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 1 ∨ 1 + 1 ≤ b.val from by omega)).trans ?_
    refine (LA0_2 c arg2 harg2 arg7 x0 v f (ix2 b l)).trans ?_
    show (if b.val < 1 then add0 x0 b l else 0) = if b.val < 2 then add0 x0 b l else 0
    rcases Nat.lt_or_ge b.val 1 with h1 | h1
    · rw [if_pos h1, if_pos (show b.val < 2 from by omega)]
    · rw [if_neg (show ¬ b.val < 1 from by omega), if_neg (show ¬ b.val < 2 from by omega)]

/-- After rows 0 to 2 have been updated: those rows hold what the block adds, the rows below still zero. -/
theorem LA0_4 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_4 (F := Ideal) c arg2 harg2 arg7 x0)) y
      = if (y (0 : Fin 2)).val < 3 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 3 then add0 x0 b l else 0
  unfold kernelRun0_A.sl.HS0_4
  by_cases h : b.val = 2
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 3 from by omega)).trans (add0_lt x0 b l (by omega))).symm
    refine (congrArg₂ (· + ·) ?_ (Finset.sum_congr rfl fun r _ => ?_)).trans (zero_add _)
    · exact (LA0_3 c arg2 harg2 arg7 x0 arg7.view arg7.view.junk ((Rect.unit (s := S16x128) ![2, 0] S1x128.size inb_S16x128_S1x128_2_0).toLoadRect.idx (ix2 (0 : Fin 1) l))).trans
        (if_neg (show ¬ ((2 + 1 * 0 : ℕ) < 2) from by decide))
    · show kcnt (BitVec.ofNat 32 2) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 2 ∨ 2 + 1 ≤ b.val from by omega)).trans ?_
    refine (LA0_3 c arg2 harg2 arg7 x0 v f (ix2 b l)).trans ?_
    show (if b.val < 2 then add0 x0 b l else 0) = if b.val < 3 then add0 x0 b l else 0
    rcases Nat.lt_or_ge b.val 2 with h1 | h1
    · rw [if_pos h1, if_pos (show b.val < 3 from by omega)]
    · rw [if_neg (show ¬ b.val < 2 from by omega), if_neg (show ¬ b.val < 3 from by omega)]

/-- After rows 0 to 3 have been updated: those rows hold what the block adds, the rows below still zero. -/
theorem LA0_5 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_5 (F := Ideal) c arg2 harg2 arg7 x0)) y
      = if (y (0 : Fin 2)).val < 4 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 4 then add0 x0 b l else 0
  unfold kernelRun0_A.sl.HS0_5
  by_cases h : b.val = 3
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 4 from by omega)).trans (add0_lt x0 b l (by omega))).symm
    refine (congrArg₂ (· + ·) ?_ (Finset.sum_congr rfl fun r _ => ?_)).trans (zero_add _)
    · exact (LA0_4 c arg2 harg2 arg7 x0 arg7.view arg7.view.junk ((Rect.unit (s := S16x128) ![3, 0] S1x128.size inb_S16x128_S1x128_3_0).toLoadRect.idx (ix2 (0 : Fin 1) l))).trans
        (if_neg (show ¬ ((3 + 1 * 0 : ℕ) < 3) from by decide))
    · show kcnt (BitVec.ofNat 32 3) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 3 ∨ 3 + 1 ≤ b.val from by omega)).trans ?_
    refine (LA0_4 c arg2 harg2 arg7 x0 v f (ix2 b l)).trans ?_
    show (if b.val < 3 then add0 x0 b l else 0) = if b.val < 4 then add0 x0 b l else 0
    rcases Nat.lt_or_ge b.val 3 with h1 | h1
    · rw [if_pos h1, if_pos (show b.val < 4 from by omega)]
    · rw [if_neg (show ¬ b.val < 3 from by omega), if_neg (show ¬ b.val < 4 from by omega)]

/-- After rows 0 to 4 have been updated: those rows hold what the block adds, the rows below still zero. -/
theorem LA0_6 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_6 (F := Ideal) c arg2 harg2 arg7 x0)) y
      = if (y (0 : Fin 2)).val < 5 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 5 then add0 x0 b l else 0
  unfold kernelRun0_A.sl.HS0_6
  by_cases h : b.val = 4
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 5 from by omega)).trans (add0_lt x0 b l (by omega))).symm
    refine (congrArg₂ (· + ·) ?_ (Finset.sum_congr rfl fun r _ => ?_)).trans (zero_add _)
    · exact (LA0_5 c arg2 harg2 arg7 x0 arg7.view arg7.view.junk ((Rect.unit (s := S16x128) ![4, 0] S1x128.size inb_S16x128_S1x128_4_0).toLoadRect.idx (ix2 (0 : Fin 1) l))).trans
        (if_neg (show ¬ ((4 + 1 * 0 : ℕ) < 4) from by decide))
    · show kcnt (BitVec.ofNat 32 4) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 4 ∨ 4 + 1 ≤ b.val from by omega)).trans ?_
    refine (LA0_5 c arg2 harg2 arg7 x0 v f (ix2 b l)).trans ?_
    show (if b.val < 4 then add0 x0 b l else 0) = if b.val < 5 then add0 x0 b l else 0
    rcases Nat.lt_or_ge b.val 4 with h1 | h1
    · rw [if_pos h1, if_pos (show b.val < 5 from by omega)]
    · rw [if_neg (show ¬ b.val < 4 from by omega), if_neg (show ¬ b.val < 5 from by omega)]

/-- After rows 0 to 5 have been updated: those rows hold what the block adds, the rows below still zero. -/
theorem LA0_7 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_7 (F := Ideal) c arg2 harg2 arg7 x0)) y
      = if (y (0 : Fin 2)).val < 6 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 6 then add0 x0 b l else 0
  unfold kernelRun0_A.sl.HS0_7
  by_cases h : b.val = 5
  · refine (View.read_writes_cons_rows_of_mem v f _ _ _ (ix2 b l) (ix2 (0 : Fin 1) l) rfl (h.trans (Nat.add_zero _).symm) rfl).trans ?_
    unfold kernelRun0_A.sl.r_10 kernelRun0_A.sl.r_11
    refine (rowUpd_apply _ _ _ _ _ _ _ l).trans ?_
    refine Eq.trans ?_ ((if_pos (show b.val < 6 from by omega)).trans (add0_lt x0 b l (by omega))).symm
    refine (congrArg₂ (· + ·) ?_ (Finset.sum_congr rfl fun r _ => ?_)).trans (zero_add _)
    · exact (LA0_6 c arg2 harg2 arg7 x0 arg7.view arg7.view.junk ((Rect.unit (s := S16x128) ![5, 0] S1x128.size inb_S16x128_S1x128_5_0).toLoadRect.idx (ix2 (0 : Fin 1) l))).trans
        (if_neg (show ¬ ((5 + 1 * 0 : ℕ) < 5) from by decide))
    · show kcnt (BitVec.ofNat 32 5) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 5 ∨ 5 + 1 ≤ b.val from by omega)).trans ?_
    refine (LA0_6 c arg2 harg2 arg7 x0 v f (ix2 b l)).trans ?_
    show (if b.val < 5 then add0 x0 b l else 0) = if b.val < 6 then add0 x0 b l else 0
    rcases Nat.lt_or_ge b.val 5 with h1 | h1
    · rw [if_pos h1, if_pos (show b.val < 6 from by omega)]
    · rw [if_neg (show ¬ b.val < 5 from by omega), if_neg (show ¬ b.val < 6 from by omega)]

/-- After rows 0 to 6 have been updated: those rows hold what the block adds, the rows below still zero. -/
theorem LA0_8 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_8 (F := Ideal) c arg2 harg2 arg7 x0)) y
      = if (y (0 : Fin 2)).val < 7 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 7 then add0 x0 b l else 0
  unfold kernelRun0_A.sl.HS0_8
  by_cases h : b.val = 6
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 7 from by omega)).trans (add0_lt x0 b l (by omega))).symm
    refine (congrArg₂ (· + ·) ?_ (Finset.sum_congr rfl fun r _ => ?_)).trans (zero_add _)
    · exact (LA0_7 c arg2 harg2 arg7 x0 arg7.view arg7.view.junk ((Rect.unit (s := S16x128) ![6, 0] S1x128.size inb_S16x128_S1x128_6_0).toLoadRect.idx (ix2 (0 : Fin 1) l))).trans
        (if_neg (show ¬ ((6 + 1 * 0 : ℕ) < 6) from by decide))
    · show kcnt (BitVec.ofNat 32 6) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 6 ∨ 6 + 1 ≤ b.val from by omega)).trans ?_
    refine (LA0_7 c arg2 harg2 arg7 x0 v f (ix2 b l)).trans ?_
    show (if b.val < 6 then add0 x0 b l else 0) = if b.val < 7 then add0 x0 b l else 0
    rcases Nat.lt_or_ge b.val 6 with h1 | h1
    · rw [if_pos h1, if_pos (show b.val < 7 from by omega)]
    · rw [if_neg (show ¬ b.val < 6 from by omega), if_neg (show ¬ b.val < 7 from by omega)]

/-- After rows 0 to 7 have been updated: those rows hold what the block adds, the rows below still zero. -/
theorem LA0_9 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_9 (F := Ideal) c arg2 harg2 arg7 x0)) y
      = if (y (0 : Fin 2)).val < 8 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 8 then add0 x0 b l else 0
  unfold kernelRun0_A.sl.HS0_9
  by_cases h : b.val = 7
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 8 from by omega)).trans (add0_lt x0 b l (by omega))).symm
    refine (congrArg₂ (· + ·) ?_ (Finset.sum_congr rfl fun r _ => ?_)).trans (zero_add _)
    · exact (LA0_8 c arg2 harg2 arg7 x0 arg7.view arg7.view.junk ((Rect.unit (s := S16x128) ![7, 0] S1x128.size inb_S16x128_S1x128_7_0).toLoadRect.idx (ix2 (0 : Fin 1) l))).trans
        (if_neg (show ¬ ((7 + 1 * 0 : ℕ) < 7) from by decide))
    · show kcnt (BitVec.ofNat 32 7) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 7 ∨ 7 + 1 ≤ b.val from by omega)).trans ?_
    refine (LA0_8 c arg2 harg2 arg7 x0 v f (ix2 b l)).trans ?_
    show (if b.val < 7 then add0 x0 b l else 0) = if b.val < 8 then add0 x0 b l else 0
    rcases Nat.lt_or_ge b.val 7 with h1 | h1
    · rw [if_pos h1, if_pos (show b.val < 8 from by omega)]
    · rw [if_neg (show ¬ b.val < 7 from by omega), if_neg (show ¬ b.val < 8 from by omega)]

/-- After rows 0 to 8 have been updated: those rows hold what the block adds, the rows below still zero. -/
theorem LA0_10 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_10 (F := Ideal) c arg2 harg2 arg7 x0)) y
      = if (y (0 : Fin 2)).val < 9 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 9 then add0 x0 b l else 0
  unfold kernelRun0_A.sl.HS0_10
  by_cases h : b.val = 8
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 9 from by omega)).trans (add0_lt x0 b l (by omega))).symm
    refine (congrArg₂ (· + ·) ?_ (Finset.sum_congr rfl fun r _ => ?_)).trans (zero_add _)
    · exact (LA0_9 c arg2 harg2 arg7 x0 arg7.view arg7.view.junk ((Rect.unit (s := S16x128) ![8, 0] S1x128.size inb_S16x128_S1x128_8_0).toLoadRect.idx (ix2 (0 : Fin 1) l))).trans
        (if_neg (show ¬ ((8 + 1 * 0 : ℕ) < 8) from by decide))
    · show kcnt (BitVec.ofNat 32 8) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 8 ∨ 8 + 1 ≤ b.val from by omega)).trans ?_
    refine (LA0_9 c arg2 harg2 arg7 x0 v f (ix2 b l)).trans ?_
    show (if b.val < 8 then add0 x0 b l else 0) = if b.val < 9 then add0 x0 b l else 0
    rcases Nat.lt_or_ge b.val 8 with h1 | h1
    · rw [if_pos h1, if_pos (show b.val < 9 from by omega)]
    · rw [if_neg (show ¬ b.val < 8 from by omega), if_neg (show ¬ b.val < 9 from by omega)]

/-- After rows 0 to 9 have been updated: those rows hold what the block adds, the rows below still zero. -/
theorem LA0_11 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_11 (F := Ideal) c arg2 harg2 arg7 x0)) y
      = if (y (0 : Fin 2)).val < 10 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 10 then add0 x0 b l else 0
  unfold kernelRun0_A.sl.HS0_11
  by_cases h : b.val = 9
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 10 from by omega)).trans (add0_lt x0 b l (by omega))).symm
    refine (congrArg₂ (· + ·) ?_ (Finset.sum_congr rfl fun r _ => ?_)).trans (zero_add _)
    · exact (LA0_10 c arg2 harg2 arg7 x0 arg7.view arg7.view.junk ((Rect.unit (s := S16x128) ![9, 0] S1x128.size inb_S16x128_S1x128_9_0).toLoadRect.idx (ix2 (0 : Fin 1) l))).trans
        (if_neg (show ¬ ((9 + 1 * 0 : ℕ) < 9) from by decide))
    · show kcnt (BitVec.ofNat 32 9) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 9 ∨ 9 + 1 ≤ b.val from by omega)).trans ?_
    refine (LA0_10 c arg2 harg2 arg7 x0 v f (ix2 b l)).trans ?_
    show (if b.val < 9 then add0 x0 b l else 0) = if b.val < 10 then add0 x0 b l else 0
    rcases Nat.lt_or_ge b.val 9 with h1 | h1
    · rw [if_pos h1, if_pos (show b.val < 10 from by omega)]
    · rw [if_neg (show ¬ b.val < 9 from by omega), if_neg (show ¬ b.val < 10 from by omega)]

/-- After rows 0 to 10 have been updated: those rows hold what the block adds, the rows below still zero. -/
theorem LA0_12 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_12 (F := Ideal) c arg2 harg2 arg7 x0)) y
      = if (y (0 : Fin 2)).val < 11 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 11 then add0 x0 b l else 0
  unfold kernelRun0_A.sl.HS0_12
  by_cases h : b.val = 10
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 11 from by omega)).trans (add0_lt x0 b l (by omega))).symm
    refine (congrArg₂ (· + ·) ?_ (Finset.sum_congr rfl fun r _ => ?_)).trans (zero_add _)
    · exact (LA0_11 c arg2 harg2 arg7 x0 arg7.view arg7.view.junk ((Rect.unit (s := S16x128) ![10, 0] S1x128.size inb_S16x128_S1x128_10_0).toLoadRect.idx (ix2 (0 : Fin 1) l))).trans
        (if_neg (show ¬ ((10 + 1 * 0 : ℕ) < 10) from by decide))
    · show kcnt (BitVec.ofNat 32 10) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 10 ∨ 10 + 1 ≤ b.val from by omega)).trans ?_
    refine (LA0_11 c arg2 harg2 arg7 x0 v f (ix2 b l)).trans ?_
    show (if b.val < 10 then add0 x0 b l else 0) = if b.val < 11 then add0 x0 b l else 0
    rcases Nat.lt_or_ge b.val 10 with h1 | h1
    · rw [if_pos h1, if_pos (show b.val < 11 from by omega)]
    · rw [if_neg (show ¬ b.val < 10 from by omega), if_neg (show ¬ b.val < 11 from by omega)]

/-- After rows 0 to 11 have been updated: those rows hold what the block adds, the rows below still zero. -/
theorem LA0_13 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_13 (F := Ideal) c arg2 harg2 arg7 x0)) y
      = if (y (0 : Fin 2)).val < 12 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 12 then add0 x0 b l else 0
  unfold kernelRun0_A.sl.HS0_13
  by_cases h : b.val = 11
  · refine (View.read_writes_cons_rows_of_mem v f _ _ _ (ix2 b l) (ix2 (0 : Fin 1) l) rfl (h.trans (Nat.add_zero _).symm) rfl).trans ?_
    unfold kernelRun0_A.sl.r_19 kernelRun0_A.sl.r_20
    refine (rowUpd_apply _ _ _ _ _ _ _ l).trans ?_
    refine Eq.trans ?_ ((if_pos (show b.val < 12 from by omega)).trans (add0_lt x0 b l (by omega))).symm
    refine (congrArg₂ (· + ·) ?_ (Finset.sum_congr rfl fun r _ => ?_)).trans (zero_add _)
    · exact (LA0_12 c arg2 harg2 arg7 x0 arg7.view arg7.view.junk ((Rect.unit (s := S16x128) ![11, 0] S1x128.size inb_S16x128_S1x128_11_0).toLoadRect.idx (ix2 (0 : Fin 1) l))).trans
        (if_neg (show ¬ ((11 + 1 * 0 : ℕ) < 11) from by decide))
    · show kcnt (BitVec.ofNat 32 11) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 11 ∨ 11 + 1 ≤ b.val from by omega)).trans ?_
    refine (LA0_12 c arg2 harg2 arg7 x0 v f (ix2 b l)).trans ?_
    show (if b.val < 11 then add0 x0 b l else 0) = if b.val < 12 then add0 x0 b l else 0
    rcases Nat.lt_or_ge b.val 11 with h1 | h1
    · rw [if_pos h1, if_pos (show b.val < 12 from by omega)]
    · rw [if_neg (show ¬ b.val < 11 from by omega), if_neg (show ¬ b.val < 12 from by omega)]

/-- After rows 0 to 12 have been updated: those rows hold what the block adds, the rows below still zero. -/
theorem LA0_14 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_14 (F := Ideal) c arg2 harg2 arg7 x0)) y
      = if (y (0 : Fin 2)).val < 13 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 13 then add0 x0 b l else 0
  unfold kernelRun0_A.sl.HS0_14
  by_cases h : b.val = 12
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 13 from by omega)).trans (add0_lt x0 b l (by omega))).symm
    refine (congrArg₂ (· + ·) ?_ (Finset.sum_congr rfl fun r _ => ?_)).trans (zero_add _)
    · exact (LA0_13 c arg2 harg2 arg7 x0 arg7.view arg7.view.junk ((Rect.unit (s := S16x128) ![12, 0] S1x128.size inb_S16x128_S1x128_12_0).toLoadRect.idx (ix2 (0 : Fin 1) l))).trans
        (if_neg (show ¬ ((12 + 1 * 0 : ℕ) < 12) from by decide))
    · show kcnt (BitVec.ofNat 32 12) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 12 ∨ 12 + 1 ≤ b.val from by omega)).trans ?_
    refine (LA0_13 c arg2 harg2 arg7 x0 v f (ix2 b l)).trans ?_
    show (if b.val < 12 then add0 x0 b l else 0) = if b.val < 13 then add0 x0 b l else 0
    rcases Nat.lt_or_ge b.val 12 with h1 | h1
    · rw [if_pos h1, if_pos (show b.val < 13 from by omega)]
    · rw [if_neg (show ¬ b.val < 12 from by omega), if_neg (show ¬ b.val < 13 from by omega)]

/-- After rows 0 to 13 have been updated: those rows hold what the block adds, the rows below still zero. -/
theorem LA0_15 (c : Dev nD) (arg2 : Memref sig .tc .vmem S4096x128 .f32) (harg2 : arg2.IsWhole)
    (arg7 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS0_15 (F := Ideal) c arg2 harg2 arg7 x0)) y
      = if (y (0 : Fin 2)).val < 14 then add0 x0 (y (0 : Fin 2)) (y (1 : Fin 2)) else 0 := by
  obtain ⟨b, l, rfl⟩ : ∃ (b : Fin 16) (l : Fin 128), y = ix2 b l := ⟨y 0, y 1, eq_ix2 y⟩
  show _ = if b.val < 14 then add0 x0 b l else 0
  unfold kernelRun0_A.sl.HS0_15
  by_cases h : b.val = 13
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 14 from by omega)).trans (add0_lt x0 b l (by omega))).symm
    refine (congrArg₂ (· + ·) ?_ (Finset.sum_congr rfl fun r _ => ?_)).trans (zero_add _)
    · exact (LA0_14 c arg2 harg2 arg7 x0 arg7.view arg7.view.junk ((Rect.unit (s := S16x128) ![13, 0] S1x128.size inb_S16x128_S1x128_13_0).toLoadRect.idx (ix2 (0 : Fin 1) l))).trans
        (if_neg (show ¬ ((13 + 1 * 0 : ℕ) < 13) from by decide))
    · show kcnt (BitVec.ofNat 32 13) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem v f _ _ _ (ix2 b l) rfl rfl
      (show b.val < 13 ∨ 13 + 1 ≤ b.val from by omega)).trans ?_
    refine (LA0_14 c arg2 harg2 arg7 x0 v f (ix2 b l)).trans ?_
    show (if b.val < 13 then add0 x0 b l else 0) = if b.val < 14 then add0 x0 b l else 0
    rcases Nat.lt_or_ge b.val 13 with h1 | h1
    · rw [if_pos h1, if_pos (show b.val < 14 from by omega)]
    · rw [if_neg (show ¬ b.val < 13 from by omega), if_neg (show ¬ b.val < 14 from by omega)]

/-- CASE A, counts: after the first point of a core, entry (row, lane) of the accumulator is what the point's block adds. -/
theorem soutA0_apply (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : cond0_0 i) (hc1 : ¬cond0_1 i)
    (x0 : Vec Ideal S4096x128 .f32) (x1 : Vec Ideal S4096x128 .i32) (b : Fin 16) (l : Fin 128) :
    sout0_A_0 (F := Ideal) c i arg2 harg2 arg3 harg3 arg4 harg4 arg5 harg5 arg6 harg6 arg7 harg7 arg8 harg8 arg9 harg9 hc0 hc1 x0 x1 (ix2 b l) = add0 x0 b l := by
  unfold sout0_A_0
  unfold kernelRun0_A
  dsimp only
  refine Eq.trans ?_ (show (if b.val < 15 then add0 x0 b l else 0) = add0 x0 b l from by
    by_cases hb : b.val < 15
    · exact if_pos hb
    · rw [if_neg hb, add0_top x0 b l hb])
  by_cases h : b.val = 14
  · refine (View.read_writes_cons_rows_of_mem VS0_0 VS0_0.junk _ _ _ (ix2 b l) (ix2 (0 : Fin 1) l) rfl (h.trans (Nat.add_zero _).symm) rfl).trans ?_
    refine (rowUpd_apply _ _ _ _ _ _ _ l).trans ?_
    refine Eq.trans ?_ ((if_pos (show b.val < 15 from by omega)).trans (add0_lt x0 b l (by omega))).symm
    refine (congrArg₂ (· + ·) ?_ (Finset.sum_congr rfl fun r _ => ?_)).trans (zero_add _)
    · exact (LA0_15 c arg2 harg2 arg7 x0 arg7.view arg7.view.junk ((Rect.unit (s := S16x128) ![14, 0] S1x128.size inb_S16x128_S1x128_14_0).toLoadRect.idx (ix2 (0 : Fin 1) l))).trans
        (if_neg (show ¬ ((14 + 1 * 0 : ℕ) < 14) from by decide))
    · show kcnt (BitVec.ofNat 32 14) (k0_pay8 (F := Ideal) (View.readAt (Elt Ideal) arg2.view (Rect.unit ![0, 0] S4096x128.size inb_S4096x128_S4096x128_0_0).toLoadRect (harg2.unread x0)) (ix2 r l))
        = kcnt (BitVec.ofNat 32 b.val) (x0 (ix2 r l))
      rw [xin_eq, pay8_eq, h]
  · refine (View.read_writes_cons_rows_of_not_mem VS0_0 VS0_0.junk _ _ _ (ix2 b l) rfl rfl
      (show b.val < 14 ∨ 14 + 1 ≤ b.val from by omega)).trans ?_
    refine (LA0_15 c arg2 harg2 arg7 x0 VS0_0 VS0_0.junk (ix2 b l)).trans ?_
    show (if b.val < 14 then add0 x0 b l else 0) = if b.val < 15 then add0 x0 b l else 0
    rcases Nat.lt_or_ge b.val 14 with h1 | h1
    · rw [if_pos h1, if_pos (show b.val < 15 from by omega)]
    · rw [if_neg (show ¬ b.val < 14 from by omega), if_neg (show ¬ b.val < 15 from by omega)]

end Cert.KernelIdeal.ScratchA

end
-- ==== Proof.ScratchA1.lean ====
/-
  The first grid point of a core, accumulator of probability sums. The body stores a whole block of zeros, then for
  each bin `ρ = 0, …, 14` in turn loads row `ρ`, adds the lane sums of the block's probabilities whose key is bin `ρ`,
  and stores the row back. Read newest store first: after the rows `0, …, k - 1` have been stored, entry (row, lane)
  reads what the block adds when the row is below `k` and zero otherwise — by induction on `k`, since the row loaded
  for bin `k` is still zero. After all fifteen, row 15 is zero and every other row holds what the block adds.
-/
import proofs.«114207_j16947940950786_2_alg».proof.Proof.Gen.KernelIdeal.Frame
import proofs.«114207_j16947940950786_2_alg».proof.Proof.KernelTerms
import proofs.«114207_j16947940950786_2_alg».proof.Proof.ScratchAIn
import Idealize.ShloMosaic.Lib.Pipeline.Value
import Idealize.ShloMosaic.Lib.WritesUnit
import Idealize.ShloMosaic.Lib.Tactic

set_option maxRecDepth 16384

noncomputable section

namespace Cert.KernelIdeal.ScratchA

open Idealize.ShloMosaic Idealize.ShloMosaic.TcCoe Idealize.ShloMosaic.ValueIdx Idealize.SL.Sem
open Cert.KernelIdeal Cert.KernelIdeal.Gen Cert.KernelIdeal.RowUpdate Cert.KernelIdeal.KernelTerms Cert.KTerms

/-- After the one store of a whole block of zeros every entry reads zero, whatever was there before. -/
theorem LA1_1 {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_1 (F := Ideal))) y = 0 := by
  unfold kernelRun0_A.sl.HS1_1
  refine (View.read_writes_cons_unit_of_mem v f _ _ _ y y rfl
    (Fin.forall_fin_two.mpr ⟨(Nat.zero_add _).symm, (Nat.zero_add _).symm⟩)).trans ?_
  show (shapeCast S16x128 (broadcast S16x128 (Scalar.ofBits (F := Ideal) .f32 0x00000000#32)) shapeCasts_S16x128_S16x128
    : FVec Ideal S16x128 .f32) y = 0
  rw [shapeCast_self]
  exact Ideal.ofBits_zero_f32

/-- After rows 0 to 0 have been updated: those rows hold what the block adds, the rows below still zero. -/
theorem LA1_2 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_2 (F := Ideal) c arg2 harg2 arg8 x0)) y
      = if (y (0 : Fin 2)).val < 1 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 1 then add1 x0 b l else 0
  unfold kernelRun0_A.sl.HS1_2
  by_cases h : b.val = 0
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 1 from by omega)).trans (add1_lt x0 b l (by omega))).symm
    refine (congrArg₂ (· + ·) ?_ (Finset.sum_congr rfl fun r _ => ?_)).trans (zero_add _)
    · exact LA1_1 arg8.view arg8.view.junk ((Rect.unit (s := S16x128) ![0, 0] S1x128.size inb_S16x128_S1x128_0_0).toLoadRect.idx (ix2 (0 : Fin 1) l))
    · show kconf (BitVec.ofNat 32 0) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 0 ∨ 0 + 1 ≤ b.val from by omega)).trans ?_
    refine (LA1_1 v f (ix2 b l)).trans ?_
    exact (if_neg (show ¬ b.val < 1 from by omega)).symm

/-- After rows 0 to 1 have been updated: those rows hold what the block adds, the rows below still zero. -/
theorem LA1_3 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_3 (F := Ideal) c arg2 harg2 arg8 x0)) y
      = if (y (0 : Fin 2)).val < 2 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 2 then add1 x0 b l else 0
  unfold kernelRun0_A.sl.HS1_3
  by_cases h : b.val = 1
  · refine (View.read_writes_cons_rows_of_mem v f _ _ _ (ix2 b l) (ix2 (0 : Fin 1) l) rfl (h.trans (Nat.add_zero _).symm) rfl).trans ?_
    unfold kernelRun0_A.sl.r_5
    refine (rowUpd_apply _ _ _ _ _ _ _ l).trans ?_
    refine Eq.trans ?_ ((if_pos (show b.val < 2 from by omega)).trans (add1_lt x0 b l (by omega))).symm
    refine (congrArg₂ (· + ·) ?_ (Finset.sum_congr rfl fun r _ => ?_)).trans (zero_add _)
    · exact (LA1_2 c arg2 harg2 arg8 x0 arg8.view arg8.view.junk ((Rect.unit (s := S16x128) ![1, 0] S1x128.size inb_S16x128_S1x128_1_0).toLoadRect.idx (ix2 (0 : Fin 1) l))).trans
        (if_neg (show ¬ ((1 + 1 * 0 : ℕ) < 1) from by decide))
    · show kconf (BitVec.ofNat 32 1) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 1 ∨ 1 + 1 ≤ b.val from by omega)).trans ?_
    refine (LA1_2 c arg2 harg2 arg8 x0 v f (ix2 b l)).trans ?_
    show (if b.val < 1 then add1 x0 b l else 0) = if b.val < 2 then add1 x0 b l else 0
    rcases Nat.lt_or_ge b.val 1 with h1 | h1
    · rw [if_pos h1, if_pos (show b.val < 2 from by omega)]
    · rw [if_neg (show ¬ b.val < 1 from by omega), if_neg (show ¬ b.val < 2 from by omega)]

/-- After rows 0 to 2 have been updated: those rows hold what the block adds, the rows below still zero. -/
theorem LA1_4 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_4 (F := Ideal) c arg2 harg2 arg8 x0)) y
      = if (y (0 : Fin 2)).val < 3 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 3 then add1 x0 b l else 0
  unfold kernelRun0_A.sl.HS1_4
  by_cases h : b.val = 2
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 3 from by omega)).trans (add1_lt x0 b l (by omega))).symm
    refine (congrArg₂ (· + ·) ?_ (Finset.sum_congr rfl fun r _ => ?_)).trans (zero_add _)
    · exact (LA1_3 c arg2 harg2 arg8 x0 arg8.view arg8.view.junk ((Rect.unit (s := S16x128) ![2, 0] S1x128.size inb_S16x128_S1x128_2_0).toLoadRect.idx (ix2 (0 : Fin 1) l))).trans
        (if_neg (show ¬ ((2 + 1 * 0 : ℕ) < 2) from by decide))
    · show kconf (BitVec.ofNat 32 2) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 2 ∨ 2 + 1 ≤ b.val from by omega)).trans ?_
    refine (LA1_3 c arg2 harg2 arg8 x0 v f (ix2 b l)).trans ?_
    show (if b.val < 2 then add1 x0 b l else 0) = if b.val < 3 then add1 x0 b l else 0
    rcases Nat.lt_or_ge b.val 2 with h1 | h1
    · rw [if_pos h1, if_pos (show b.val < 3 from by omega)]
    · rw [if_neg (show ¬ b.val < 2 from by omega), if_neg (show ¬ b.val < 3 from by omega)]

/-- After rows 0 to 3 have been updated: those rows hold what the block adds, the rows below still zero. -/
theorem LA1_5 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_5 (F := Ideal) c arg2 harg2 arg8 x0)) y
      = if (y (0 : Fin 2)).val < 4 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 4 then add1 x0 b l else 0
  unfold kernelRun0_A.sl.HS1_5
  by_cases h : b.val = 3
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 4 from by omega)).trans (add1_lt x0 b l (by omega))).symm
    refine (congrArg₂ (· + ·) ?_ (Finset.sum_congr rfl fun r _ => ?_)).trans (zero_add _)
    · exact (LA1_4 c arg2 harg2 arg8 x0 arg8.view arg8.view.junk ((Rect.unit (s := S16x128) ![3, 0] S1x128.size inb_S16x128_S1x128_3_0).toLoadRect.idx (ix2 (0 : Fin 1) l))).trans
        (if_neg (show ¬ ((3 + 1 * 0 : ℕ) < 3) from by decide))
    · show kconf (BitVec.ofNat 32 3) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 3 ∨ 3 + 1 ≤ b.val from by omega)).trans ?_
    refine (LA1_4 c arg2 harg2 arg8 x0 v f (ix2 b l)).trans ?_
    show (if b.val < 3 then add1 x0 b l else 0) = if b.val < 4 then add1 x0 b l else 0
    rcases Nat.lt_or_ge b.val 3 with h1 | h1
    · rw [if_pos h1, if_pos (show b.val < 4 from by omega)]
    · rw [if_neg (show ¬ b.val < 3 from by omega), if_neg (show ¬ b.val < 4 from by omega)]

/-- After rows 0 to 4 have been updated: those rows hold what the block adds, the rows below still zero. -/
theorem LA1_6 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_6 (F := Ideal) c arg2 harg2 arg8 x0)) y
      = if (y (0 : Fin 2)).val < 5 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 5 then add1 x0 b l else 0
  unfold kernelRun0_A.sl.HS1_6
  by_cases h : b.val = 4
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 5 from by omega)).trans (add1_lt x0 b l (by omega))).symm
    refine (congrArg₂ (· + ·) ?_ (Finset.sum_congr rfl fun r _ => ?_)).trans (zero_add _)
    · exact (LA1_5 c arg2 harg2 arg8 x0 arg8.view arg8.view.junk ((Rect.unit (s := S16x128) ![4, 0] S1x128.size inb_S16x128_S1x128_4_0).toLoadRect.idx (ix2 (0 : Fin 1) l))).trans
        (if_neg (show ¬ ((4 + 1 * 0 : ℕ) < 4) from by decide))
    · show kconf (BitVec.ofNat 32 4) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 4 ∨ 4 + 1 ≤ b.val from by omega)).trans ?_
    refine (LA1_5 c arg2 harg2 arg8 x0 v f (ix2 b l)).trans ?_
    show (if b.val < 4 then add1 x0 b l else 0) = if b.val < 5 then add1 x0 b l else 0
    rcases Nat.lt_or_ge b.val 4 with h1 | h1
    · rw [if_pos h1, if_pos (show b.val < 5 from by omega)]
    · rw [if_neg (show ¬ b.val < 4 from by omega), if_neg (show ¬ b.val < 5 from by omega)]

/-- After rows 0 to 5 have been updated: those rows hold what the block adds, the rows below still zero. -/
theorem LA1_7 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_7 (F := Ideal) c arg2 harg2 arg8 x0)) y
      = if (y (0 : Fin 2)).val < 6 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 6 then add1 x0 b l else 0
  unfold kernelRun0_A.sl.HS1_7
  by_cases h : b.val = 5
  · refine (View.read_writes_cons_rows_of_mem v f _ _ _ (ix2 b l) (ix2 (0 : Fin 1) l) rfl (h.trans (Nat.add_zero _).symm) rfl).trans ?_
    unfold kernelRun0_A.sl.r_9
    refine (rowUpd_apply _ _ _ _ _ _ _ l).trans ?_
    refine Eq.trans ?_ ((if_pos (show b.val < 6 from by omega)).trans (add1_lt x0 b l (by omega))).symm
    refine (congrArg₂ (· + ·) ?_ (Finset.sum_congr rfl fun r _ => ?_)).trans (zero_add _)
    · exact (LA1_6 c arg2 harg2 arg8 x0 arg8.view arg8.view.junk ((Rect.unit (s := S16x128) ![5, 0] S1x128.size inb_S16x128_S1x128_5_0).toLoadRect.idx (ix2 (0 : Fin 1) l))).trans
        (if_neg (show ¬ ((5 + 1 * 0 : ℕ) < 5) from by decide))
    · show kconf (BitVec.ofNat 32 5) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 5 ∨ 5 + 1 ≤ b.val from by omega)).trans ?_
    refine (LA1_6 c arg2 harg2 arg8 x0 v f (ix2 b l)).trans ?_
    show (if b.val < 5 then add1 x0 b l else 0) = if b.val < 6 then add1 x0 b l else 0
    rcases Nat.lt_or_ge b.val 5 with h1 | h1
    · rw [if_pos h1, if_pos (show b.val < 6 from by omega)]
    · rw [if_neg (show ¬ b.val < 5 from by omega), if_neg (show ¬ b.val < 6 from by omega)]

/-- After rows 0 to 6 have been updated: those rows hold what the block adds, the rows below still zero. -/
theorem LA1_8 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_8 (F := Ideal) c arg2 harg2 arg8 x0)) y
      = if (y (0 : Fin 2)).val < 7 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 7 then add1 x0 b l else 0
  unfold kernelRun0_A.sl.HS1_8
  by_cases h : b.val = 6
  · refine (View.read_writes_cons_rows_of_mem v f _ _ _ (ix2 b l) (ix2 (0 : Fin 1) l) rfl (h.trans (Nat.add_zero _).symm) rfl).trans ?_
    unfold kernelRun0_A.sl.r_12
    refine (rowUpd_apply _ _ _ _ _ _ _ l).trans ?_
    refine Eq.trans ?_ ((if_pos (show b.val < 7 from by omega)).trans (add1_lt x0 b l (by omega))).symm
    refine (congrArg₂ (· + ·) ?_ (Finset.sum_congr rfl fun r _ => ?_)).trans (zero_add _)
    · exact (LA1_7 c arg2 harg2 arg8 x0 arg8.view arg8.view.junk ((Rect.unit (s := S16x128) ![6, 0] S1x128.size inb_S16x128_S1x128_6_0).toLoadRect.idx (ix2 (0 : Fin 1) l))).trans
        (if_neg (show ¬ ((6 + 1 * 0 : ℕ) < 6) from by decide))
    · show kconf (BitVec.ofNat 32 6) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 6 ∨ 6 + 1 ≤ b.val from by omega)).trans ?_
    refine (LA1_7 c arg2 harg2 arg8 x0 v f (ix2 b l)).trans ?_
    show (if b.val < 6 then add1 x0 b l else 0) = if b.val < 7 then add1 x0 b l else 0
    rcases Nat.lt_or_ge b.val 6 with h1 | h1
    · rw [if_pos h1, if_pos (show b.val < 7 from by omega)]
    · rw [if_neg (show ¬ b.val < 6 from by omega), if_neg (show ¬ b.val < 7 from by omega)]

/-- After rows 0 to 7 have been updated: those rows hold what the block adds, the rows below still zero. -/
theorem LA1_9 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_9 (F := Ideal) c arg2 harg2 arg8 x0)) y
      = if (y (0 : Fin 2)).val < 8 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 8 then add1 x0 b l else 0
  unfold kernelRun0_A.sl.HS1_9
  by_cases h : b.val = 7
  · refine (View.read_writes_cons_rows_of_mem v f _ _ _ (ix2 b l) (ix2 (0 : Fin 1) l) rfl (h.trans (Nat.add_zero _).symm) rfl).trans ?_
    unfold kernelRun0_A.sl.r_14
    refine (rowUpd_apply _ _ _ _ _ _ _ l).trans ?_
    refine Eq.trans ?_ ((if_pos (show b.val < 8 from by omega)).trans (add1_lt x0 b l (by omega))).symm
    refine (congrArg₂ (· + ·) ?_ (Finset.sum_congr rfl fun r _ => ?_)).trans (zero_add _)
    · exact (LA1_8 c arg2 harg2 arg8 x0 arg8.view arg8.view.junk ((Rect.unit (s := S16x128) ![7, 0] S1x128.size inb_S16x128_S1x128_7_0).toLoadRect.idx (ix2 (0 : Fin 1) l))).trans
        (if_neg (show ¬ ((7 + 1 * 0 : ℕ) < 7) from by decide))
    · show kconf (BitVec.ofNat 32 7) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 7 ∨ 7 + 1 ≤ b.val from by omega)).trans ?_
    refine (LA1_8 c arg2 harg2 arg8 x0 v f (ix2 b l)).trans ?_
    show (if b.val < 7 then add1 x0 b l else 0) = if b.val < 8 then add1 x0 b l else 0
    rcases Nat.lt_or_ge b.val 7 with h1 | h1
    · rw [if_pos h1, if_pos (show b.val < 8 from by omega)]
    · rw [if_neg (show ¬ b.val < 7 from by omega), if_neg (show ¬ b.val < 8 from by omega)]

/-- After rows 0 to 8 have been updated: those rows hold what the block adds, the rows below still zero. -/
theorem LA1_10 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_10 (F := Ideal) c arg2 harg2 arg8 x0)) y
      = if (y (0 : Fin 2)).val < 9 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 9 then add1 x0 b l else 0
  unfold kernelRun0_A.sl.HS1_10
  by_cases h : b.val = 8
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 9 from by omega)).trans (add1_lt x0 b l (by omega))).symm
    refine (congrArg₂ (· + ·) ?_ (Finset.sum_congr rfl fun r _ => ?_)).trans (zero_add _)
    · exact (LA1_9 c arg2 harg2 arg8 x0 arg8.view arg8.view.junk ((Rect.unit (s := S16x128) ![8, 0] S1x128.size inb_S16x128_S1x128_8_0).toLoadRect.idx (ix2 (0 : Fin 1) l))).trans
        (if_neg (show ¬ ((8 + 1 * 0 : ℕ) < 8) from by decide))
    · show kconf (BitVec.ofNat 32 8) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 8 ∨ 8 + 1 ≤ b.val from by omega)).trans ?_
    refine (LA1_9 c arg2 harg2 arg8 x0 v f (ix2 b l)).trans ?_
    show (if b.val < 8 then add1 x0 b l else 0) = if b.val < 9 then add1 x0 b l else 0
    rcases Nat.lt_or_ge b.val 8 with h1 | h1
    · rw [if_pos h1, if_pos (show b.val < 9 from by omega)]
    · rw [if_neg (show ¬ b.val < 8 from by omega), if_neg (show ¬ b.val < 9 from by omega)]

/-- After rows 0 to 9 have been updated: those rows hold what the block adds, the rows below still zero. -/
theorem LA1_11 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_11 (F := Ideal) c arg2 harg2 arg8 x0)) y
      = if (y (0 : Fin 2)).val < 10 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 10 then add1 x0 b l else 0
  unfold kernelRun0_A.sl.HS1_11
  by_cases h : b.val = 9
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 10 from by omega)).trans (add1_lt x0 b l (by omega))).symm
    refine (congrArg₂ (· + ·) ?_ (Finset.sum_congr rfl fun r _ => ?_)).trans (zero_add _)
    · exact (LA1_10 c arg2 harg2 arg8 x0 arg8.view arg8.view.junk ((Rect.unit (s := S16x128) ![9, 0] S1x128.size inb_S16x128_S1x128_9_0).toLoadRect.idx (ix2 (0 : Fin 1) l))).trans
        (if_neg (show ¬ ((9 + 1 * 0 : ℕ) < 9) from by decide))
    · show kconf (BitVec.ofNat 32 9) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 9 ∨ 9 + 1 ≤ b.val from by omega)).trans ?_
    refine (LA1_10 c arg2 harg2 arg8 x0 v f (ix2 b l)).trans ?_
    show (if b.val < 9 then add1 x0 b l else 0) = if b.val < 10 then add1 x0 b l else 0
    rcases Nat.lt_or_ge b.val 9 with h1 | h1
    · rw [if_pos h1, if_pos (show b.val < 10 from by omega)]
    · rw [if_neg (show ¬ b.val < 9 from by omega), if_neg (show ¬ b.val < 10 from by omega)]

/-- After rows 0 to 10 have been updated: those rows hold what the block adds, the rows below still zero. -/
theorem LA1_12 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_12 (F := Ideal) c arg2 harg2 arg8 x0)) y
      = if (y (0 : Fin 2)).val < 11 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 11 then add1 x0 b l else 0
  unfold kernelRun0_A.sl.HS1_12
  by_cases h : b.val = 10
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 11 from by omega)).trans (add1_lt x0 b l (by omega))).symm
    refine (congrArg₂ (· + ·) ?_ (Finset.sum_congr rfl fun r _ => ?_)).trans (zero_add _)
    · exact (LA1_11 c arg2 harg2 arg8 x0 arg8.view arg8.view.junk ((Rect.unit (s := S16x128) ![10, 0] S1x128.size inb_S16x128_S1x128_10_0).toLoadRect.idx (ix2 (0 : Fin 1) l))).trans
        (if_neg (show ¬ ((10 + 1 * 0 : ℕ) < 10) from by decide))
    · show kconf (BitVec.ofNat 32 10) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 10 ∨ 10 + 1 ≤ b.val from by omega)).trans ?_
    refine (LA1_11 c arg2 harg2 arg8 x0 v f (ix2 b l)).trans ?_
    show (if b.val < 10 then add1 x0 b l else 0) = if b.val < 11 then add1 x0 b l else 0
    rcases Nat.lt_or_ge b.val 10 with h1 | h1
    · rw [if_pos h1, if_pos (show b.val < 11 from by omega)]
    · rw [if_neg (show ¬ b.val < 10 from by omega), if_neg (show ¬ b.val < 11 from by omega)]

/-- After rows 0 to 11 have been updated: those rows hold what the block adds, the rows below still zero. -/
theorem LA1_13 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_13 (F := Ideal) c arg2 harg2 arg8 x0)) y
      = if (y (0 : Fin 2)).val < 12 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 12 then add1 x0 b l else 0
  unfold kernelRun0_A.sl.HS1_13
  by_cases h : b.val = 11
  · refine (View.read_writes_cons_rows_of_mem v f _ _ _ (ix2 b l) (ix2 (0 : Fin 1) l) rfl (h.trans (Nat.add_zero _).symm) rfl).trans ?_
    unfold kernelRun0_A.sl.r_18
    refine (rowUpd_apply _ _ _ _ _ _ _ l).trans ?_
    refine Eq.trans ?_ ((if_pos (show b.val < 12 from by omega)).trans (add1_lt x0 b l (by omega))).symm
    refine (congrArg₂ (· + ·) ?_ (Finset.sum_congr rfl fun r _ => ?_)).trans (zero_add _)
    · exact (LA1_12 c arg2 harg2 arg8 x0 arg8.view arg8.view.junk ((Rect.unit (s := S16x128) ![11, 0] S1x128.size inb_S16x128_S1x128_11_0).toLoadRect.idx (ix2 (0 : Fin 1) l))).trans
        (if_neg (show ¬ ((11 + 1 * 0 : ℕ) < 11) from by decide))
    · show kconf (BitVec.ofNat 32 11) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 11 ∨ 11 + 1 ≤ b.val from by omega)).trans ?_
    refine (LA1_12 c arg2 harg2 arg8 x0 v f (ix2 b l)).trans ?_
    show (if b.val < 11 then add1 x0 b l else 0) = if b.val < 12 then add1 x0 b l else 0
    rcases Nat.lt_or_ge b.val 11 with h1 | h1
    · rw [if_pos h1, if_pos (show b.val < 12 from by omega)]
    · rw [if_neg (show ¬ b.val < 11 from by omega), if_neg (show ¬ b.val < 12 from by omega)]

/-- After rows 0 to 12 have been updated: those rows hold what the block adds, the rows below still zero. -/
theorem LA1_14 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_14 (F := Ideal) c arg2 harg2 arg8 x0)) y
      = if (y (0 : Fin 2)).val < 13 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 13 then add1 x0 b l else 0
  unfold kernelRun0_A.sl.HS1_14
  by_cases h : b.val = 12
  · refine (View.read_writes_cons_rows_of_mem v f _ _ _ (ix2 b l) (ix2 (0 : Fin 1) l) rfl (h.trans (Nat.add_zero _).symm) rfl).trans ?_
    unfold kernelRun0_A.sl.r_21
    refine (rowUpd_apply _ _ _ _ _ _ _ l).trans ?_
    refine Eq.trans ?_ ((if_pos (show b.val < 13 from by omega)).trans (add1_lt x0 b l (by omega))).symm
    refine (congrArg₂ (· + ·) ?_ (Finset.sum_congr rfl fun r _ => ?_)).trans (zero_add _)
    · exact (LA1_13 c arg2 harg2 arg8 x0 arg8.view arg8.view.junk ((Rect.unit (s := S16x128) ![12, 0] S1x128.size inb_S16x128_S1x128_12_0).toLoadRect.idx (ix2 (0 : Fin 1) l))).trans
        (if_neg (show ¬ ((12 + 1 * 0 : ℕ) < 12) from by decide))
    · show kconf (BitVec.ofNat 32 12) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 12 ∨ 12 + 1 ≤ b.val from by omega)).trans ?_
    refine (LA1_13 c arg2 harg2 arg8 x0 v f (ix2 b l)).trans ?_
    show (if b.val < 12 then add1 x0 b l else 0) = if b.val < 13 then add1 x0 b l else 0
    rcases Nat.lt_or_ge b.val 12 with h1 | h1
    · rw [if_pos h1, if_pos (show b.val < 13 from by omega)]
    · rw [if_neg (show ¬ b.val < 12 from by omega), if_neg (show ¬ b.val < 13 from by omega)]

/-- After rows 0 to 13 have been updated: those rows hold what the block adds, the rows below still zero. -/
theorem LA1_15 (c : Dev nD) (arg2 : Memref sig .tc .vmem S4096x128 .f32) (harg2 : arg2.IsWhole)
    (arg8 : Memref sig .tc .vmem S16x128 .f32) (x0 : Vec Ideal S4096x128 .f32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS1_15 (F := Ideal) c arg2 harg2 arg8 x0)) y
      = if (y (0 : Fin 2)).val < 14 then add1 x0 (y (0 : Fin 2)) (y (1 : Fin 2)) else 0 := by
  obtain ⟨b, l, rfl⟩ : ∃ (b : Fin 16) (l : Fin 128), y = ix2 b l := ⟨y 0, y 1, eq_ix2 y⟩
  show _ = if b.val < 14 then add1 x0 b l else 0
  unfold kernelRun0_A.sl.HS1_15
  by_cases h : b.val = 13
  · refine (View.read_writes_cons_rows_of_mem v f _ _ _ (ix2 b l) (ix2 (0 : Fin 1) l) rfl (h.trans (Nat.add_zero _).symm) rfl).trans ?_
    unfold kernelRun0_A.sl.r_23
    refine (rowUpd_apply _ _ _ _ _ _ _ l).trans ?_
    refine Eq.trans ?_ ((if_pos (show b.val < 14 from by omega)).trans (add1_lt x0 b l (by omega))).symm
    refine (congrArg₂ (· + ·) ?_ (Finset.sum_congr rfl fun r _ => ?_)).trans (zero_add _)
    · exact (LA1_14 c arg2 harg2 arg8 x0 arg8.view arg8.view.junk ((Rect.unit (s := S16x128) ![13, 0] S1x128.size inb_S16x128_S1x128_13_0).toLoadRect.idx (ix2 (0 : Fin 1) l))).trans
        (if_neg (show ¬ ((13 + 1 * 0 : ℕ) < 13) from by decide))
    · show kconf (BitVec.ofNat 32 13) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem v f _ _ _ (ix2 b l) rfl rfl
      (show b.val < 13 ∨ 13 + 1 ≤ b.val from by omega)).trans ?_
    refine (LA1_14 c arg2 harg2 arg8 x0 v f (ix2 b l)).trans ?_
    show (if b.val < 13 then add1 x0 b l else 0) = if b.val < 14 then add1 x0 b l else 0
    rcases Nat.lt_or_ge b.val 13 with h1 | h1
    · rw [if_pos h1, if_pos (show b.val < 14 from by omega)]
    · rw [if_neg (show ¬ b.val < 13 from by omega), if_neg (show ¬ b.val < 14 from by omega)]

/-- CASE A, probability sums: after the first point of a core, entry (row, lane) of the accumulator is what the point's block adds. -/
theorem soutA1_apply (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : cond0_0 i) (hc1 : ¬cond0_1 i)
    (x0 : Vec Ideal S4096x128 .f32) (x1 : Vec Ideal S4096x128 .i32) (b : Fin 16) (l : Fin 128) :
    sout0_A_1 (F := Ideal) c i arg2 harg2 arg3 harg3 arg4 harg4 arg5 harg5 arg6 harg6 arg7 harg7 arg8 harg8 arg9 harg9 hc0 hc1 x0 x1 (ix2 b l) = add1 x0 b l := by
  unfold sout0_A_1
  unfold kernelRun0_A
  dsimp only
  refine Eq.trans ?_ (show (if b.val < 15 then add1 x0 b l else 0) = add1 x0 b l from by
    by_cases hb : b.val < 15
    · exact if_pos hb
    · rw [if_neg hb, add1_top x0 b l hb])
  by_cases h : b.val = 14
  · refine (View.read_writes_cons_rows_of_mem VS0_1 VS0_1.junk _ _ _ (ix2 b l) (ix2 (0 : Fin 1) l) rfl (h.trans (Nat.add_zero _).symm) rfl).trans ?_
    refine (rowUpd_apply _ _ _ _ _ _ _ l).trans ?_
    refine Eq.trans ?_ ((if_pos (show b.val < 15 from by omega)).trans (add1_lt x0 b l (by omega))).symm
    refine (congrArg₂ (· + ·) ?_ (Finset.sum_congr rfl fun r _ => ?_)).trans (zero_add _)
    · exact (LA1_15 c arg2 harg2 arg8 x0 arg8.view arg8.view.junk ((Rect.unit (s := S16x128) ![14, 0] S1x128.size inb_S16x128_S1x128_14_0).toLoadRect.idx (ix2 (0 : Fin 1) l))).trans
        (if_neg (show ¬ ((14 + 1 * 0 : ℕ) < 14) from by decide))
    · show kconf (BitVec.ofNat 32 14) (k0_pay8 (F := Ideal) (View.readAt (Elt Ideal) arg2.view (Rect.unit ![0, 0] S4096x128.size inb_S4096x128_S4096x128_0_0).toLoadRect (harg2.unread x0)) (ix2 r l))
        = kconf (BitVec.ofNat 32 b.val) (x0 (ix2 r l))
      rw [xin_eq, pay8_eq, h]
  · refine (View.read_writes_cons_rows_of_not_mem VS0_1 VS0_1.junk _ _ _ (ix2 b l) rfl rfl
      (show b.val < 14 ∨ 14 + 1 ≤ b.val from by omega)).trans ?_
    refine (LA1_15 c arg2 harg2 arg8 x0 VS0_1 VS0_1.junk (ix2 b l)).trans ?_
    show (if b.val < 14 then add1 x0 b l else 0) = if b.val < 15 then add1 x0 b l else 0
    rcases Nat.lt_or_ge b.val 14 with h1 | h1
    · rw [if_pos h1, if_pos (show b.val < 15 from by omega)]
    · rw [if_neg (show ¬ b.val < 14 from by omega), if_neg (show ¬ b.val < 15 from by omega)]

end Cert.KernelIdeal.ScratchA

end
-- ==== Proof.ScratchA2.lean ====
/-
  The first grid point of a core, accumulator of label sums. The body stores a whole block of zeros, then for each
  bin `ρ = 0, …, 14` in turn loads row `ρ`, adds the lane sums of the block's labels (as numbers) whose element's key
  is bin `ρ`, and stores the row back. Read newest store first: after the rows `0, …, k - 1` have been stored, entry
  (row, lane) reads what the block adds when the row is below `k` and zero otherwise — by induction on `k`, since the
  row loaded for bin `k` is still zero. After all fifteen, row 15 is zero and every other row holds what the block adds.
-/
import proofs.«114207_j16947940950786_2_alg».proof.Proof.Gen.KernelIdeal.Frame
import proofs.«114207_j16947940950786_2_alg».proof.Proof.KernelTerms
import proofs.«114207_j16947940950786_2_alg».proof.Proof.ScratchAIn
import Idealize.ShloMosaic.Lib.Pipeline.Value
import Idealize.ShloMosaic.Lib.WritesUnit
import Idealize.ShloMosaic.Lib.Tactic

set_option maxRecDepth 16384

noncomputable section

namespace Cert.KernelIdeal.ScratchA

open Idealize.ShloMosaic Idealize.ShloMosaic.TcCoe Idealize.ShloMosaic.ValueIdx Idealize.SL.Sem
open Cert.KernelIdeal Cert.KernelIdeal.Gen Cert.KernelIdeal.RowUpdate Cert.KernelIdeal.KernelTerms Cert.KTerms

/-- After the one store of a whole block of zeros every entry reads zero, whatever was there before. -/
theorem LA2_1 {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_1 (F := Ideal))) y = 0 := by
  unfold kernelRun0_A.sl.HS2_1
  refine (View.read_writes_cons_unit_of_mem v f _ _ _ y y rfl
    (Fin.forall_fin_two.mpr ⟨(Nat.zero_add _).symm, (Nat.zero_add _).symm⟩)).trans ?_
  show (shapeCast S16x128 (broadcast S16x128 (Scalar.ofBits (F := Ideal) .f32 0x00000000#32)) shapeCasts_S16x128_S16x128
    : FVec Ideal S16x128 .f32) y = 0
  rw [shapeCast_self]
  exact Ideal.ofBits_zero_f32

/-- After rows 0 to 0 have been updated: those rows hold what the block adds, the rows below still zero. -/
theorem LA2_2 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_2 (F := Ideal) c arg2 harg2 arg3 harg3 arg9 x0 x1)) y
      = if (y (0 : Fin 2)).val < 1 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 1 then add2 x0 x1 b l else 0
  unfold kernelRun0_A.sl.HS2_2
  by_cases h : b.val = 0
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 1 from by omega)).trans (add2_lt x0 x1 b l (by omega))).symm
    refine (congrArg₂ (· + ·) ?_ (Finset.sum_congr rfl fun r _ => ?_)).trans (zero_add _)
    · exact LA2_1 arg9.view arg9.view.junk ((Rect.unit (s := S16x128) ![0, 0] S1x128.size inb_S16x128_S1x128_0_0).toLoadRect.idx (ix2 (0 : Fin 1) l))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 0))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 0 ∨ 0 + 1 ≤ b.val from by omega)).trans ?_
    refine (LA2_1 v f (ix2 b l)).trans ?_
    exact (if_neg (show ¬ b.val < 1 from by omega)).symm

/-- After rows 0 to 1 have been updated: those rows hold what the block adds, the rows below still zero. -/
theorem LA2_3 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_3 (F := Ideal) c arg2 harg2 arg3 harg3 arg9 x0 x1)) y
      = if (y (0 : Fin 2)).val < 2 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 2 then add2 x0 x1 b l else 0
  unfold kernelRun0_A.sl.HS2_3
  by_cases h : b.val = 1
  · refine (View.read_writes_cons_rows_of_mem v f _ _ _ (ix2 b l) (ix2 (0 : Fin 1) l) rfl (h.trans (Nat.add_zero _).symm) rfl).trans ?_
    unfold kernelRun0_A.sl.r_4
    refine (rowUpd_apply _ _ _ _ _ _ _ l).trans ?_
    refine Eq.trans ?_ ((if_pos (show b.val < 2 from by omega)).trans (add2_lt x0 x1 b l (by omega))).symm
    refine (congrArg₂ (· + ·) ?_ (Finset.sum_congr rfl fun r _ => ?_)).trans (zero_add _)
    · exact (LA2_2 c arg2 harg2 arg3 harg3 arg9 x0 x1 arg9.view arg9.view.junk ((Rect.unit (s := S16x128) ![1, 0] S1x128.size inb_S16x128_S1x128_1_0).toLoadRect.idx (ix2 (0 : Fin 1) l))).trans
        (if_neg (show ¬ ((1 + 1 * 0 : ℕ) < 1) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 1))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 1 ∨ 1 + 1 ≤ b.val from by omega)).trans ?_
    refine (LA2_2 c arg2 harg2 arg3 harg3 arg9 x0 x1 v f (ix2 b l)).trans ?_
    show (if b.val < 1 then add2 x0 x1 b l else 0) = if b.val < 2 then add2 x0 x1 b l else 0
    rcases Nat.lt_or_ge b.val 1 with h1 | h1
    · rw [if_pos h1, if_pos (show b.val < 2 from by omega)]
    · rw [if_neg (show ¬ b.val < 1 from by omega), if_neg (show ¬ b.val < 2 from by omega)]

/-- After rows 0 to 2 have been updated: those rows hold what the block adds, the rows below still zero. -/
theorem LA2_4 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_4 (F := Ideal) c arg2 harg2 arg3 harg3 arg9 x0 x1)) y
      = if (y (0 : Fin 2)).val < 3 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 3 then add2 x0 x1 b l else 0
  unfold kernelRun0_A.sl.HS2_4
  by_cases h : b.val = 2
  · refine (View.read_writes_cons_rows_of_mem v f _ _ _ (ix2 b l) (ix2 (0 : Fin 1) l) rfl (h.trans (Nat.add_zero _).symm) rfl).trans ?_
    unfold kernelRun0_A.sl.r_6 kernelRun0_A.sl.r_7
    refine (rowUpd_apply _ _ _ _ _ _ _ l).trans ?_
    refine Eq.trans ?_ ((if_pos (show b.val < 3 from by omega)).trans (add2_lt x0 x1 b l (by omega))).symm
    refine (congrArg₂ (· + ·) ?_ (Finset.sum_congr rfl fun r _ => ?_)).trans (zero_add _)
    · exact (LA2_3 c arg2 harg2 arg3 harg3 arg9 x0 x1 arg9.view arg9.view.junk ((Rect.unit (s := S16x128) ![2, 0] S1x128.size inb_S16x128_S1x128_2_0).toLoadRect.idx (ix2 (0 : Fin 1) l))).trans
        (if_neg (show ¬ ((2 + 1 * 0 : ℕ) < 2) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 2))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 2 ∨ 2 + 1 ≤ b.val from by omega)).trans ?_
    refine (LA2_3 c arg2 harg2 arg3 harg3 arg9 x0 x1 v f (ix2 b l)).trans ?_
    show (if b.val < 2 then add2 x0 x1 b l else 0) = if b.val < 3 then add2 x0 x1 b l else 0
    rcases Nat.lt_or_ge b.val 2 with h1 | h1
    · rw [if_pos h1, if_pos (show b.val < 3 from by omega)]
    · rw [if_neg (show ¬ b.val < 2 from by omega), if_neg (show ¬ b.val < 3 from by omega)]

/-- After rows 0 to 3 have been updated: those rows hold what the block adds, the rows below still zero. -/
theorem LA2_5 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_5 (F := Ideal) c arg2 harg2 arg3 harg3 arg9 x0 x1)) y
      = if (y (0 : Fin 2)).val < 4 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 4 then add2 x0 x1 b l else 0
  unfold kernelRun0_A.sl.HS2_5
  by_cases h : b.val = 3
  · refine (View.read_writes_cons_rows_of_mem v f _ _ _ (ix2 b l) (ix2 (0 : Fin 1) l) rfl (h.trans (Nat.add_zero _).symm) rfl).trans ?_
    unfold kernelRun0_A.sl.r_8
    refine (rowUpd_apply _ _ _ _ _ _ _ l).trans ?_
    refine Eq.trans ?_ ((if_pos (show b.val < 4 from by omega)).trans (add2_lt x0 x1 b l (by omega))).symm
    refine (congrArg₂ (· + ·) ?_ (Finset.sum_congr rfl fun r _ => ?_)).trans (zero_add _)
    · exact (LA2_4 c arg2 harg2 arg3 harg3 arg9 x0 x1 arg9.view arg9.view.junk ((Rect.unit (s := S16x128) ![3, 0] S1x128.size inb_S16x128_S1x128_3_0).toLoadRect.idx (ix2 (0 : Fin 1) l))).trans
        (if_neg (show ¬ ((3 + 1 * 0 : ℕ) < 3) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 3))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 3 ∨ 3 + 1 ≤ b.val from by omega)).trans ?_
    refine (LA2_4 c arg2 harg2 arg3 harg3 arg9 x0 x1 v f (ix2 b l)).trans ?_
    show (if b.val < 3 then add2 x0 x1 b l else 0) = if b.val < 4 then add2 x0 x1 b l else 0
    rcases Nat.lt_or_ge b.val 3 with h1 | h1
    · rw [if_pos h1, if_pos (show b.val < 4 from by omega)]
    · rw [if_neg (show ¬ b.val < 3 from by omega), if_neg (show ¬ b.val < 4 from by omega)]

/-- After rows 0 to 4 have been updated: those rows hold what the block adds, the rows below still zero. -/
theorem LA2_6 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_6 (F := Ideal) c arg2 harg2 arg3 harg3 arg9 x0 x1)) y
      = if (y (0 : Fin 2)).val < 5 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 5 then add2 x0 x1 b l else 0
  unfold kernelRun0_A.sl.HS2_6
  by_cases h : b.val = 4
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 5 from by omega)).trans (add2_lt x0 x1 b l (by omega))).symm
    refine (congrArg₂ (· + ·) ?_ (Finset.sum_congr rfl fun r _ => ?_)).trans (zero_add _)
    · exact (LA2_5 c arg2 harg2 arg3 harg3 arg9 x0 x1 arg9.view arg9.view.junk ((Rect.unit (s := S16x128) ![4, 0] S1x128.size inb_S16x128_S1x128_4_0).toLoadRect.idx (ix2 (0 : Fin 1) l))).trans
        (if_neg (show ¬ ((4 + 1 * 0 : ℕ) < 4) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 4))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 4 ∨ 4 + 1 ≤ b.val from by omega)).trans ?_
    refine (LA2_5 c arg2 harg2 arg3 harg3 arg9 x0 x1 v f (ix2 b l)).trans ?_
    show (if b.val < 4 then add2 x0 x1 b l else 0) = if b.val < 5 then add2 x0 x1 b l else 0
    rcases Nat.lt_or_ge b.val 4 with h1 | h1
    · rw [if_pos h1, if_pos (show b.val < 5 from by omega)]
    · rw [if_neg (show ¬ b.val < 4 from by omega), if_neg (show ¬ b.val < 5 from by omega)]

/-- After rows 0 to 5 have been updated: those rows hold what the block adds, the rows below still zero. -/
theorem LA2_7 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_7 (F := Ideal) c arg2 harg2 arg3 harg3 arg9 x0 x1)) y
      = if (y (0 : Fin 2)).val < 6 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 6 then add2 x0 x1 b l else 0
  unfold kernelRun0_A.sl.HS2_7
  by_cases h : b.val = 5
  · refine (View.read_writes_cons_rows_of_mem v f _ _ _ (ix2 b l) (ix2 (0 : Fin 1) l) rfl (h.trans (Nat.add_zero _).symm) rfl).trans ?_
    unfold kernelRun0_A.sl.r_9
    refine (rowUpd_apply _ _ _ _ _ _ _ l).trans ?_
    refine Eq.trans ?_ ((if_pos (show b.val < 6 from by omega)).trans (add2_lt x0 x1 b l (by omega))).symm
    refine (congrArg₂ (· + ·) ?_ (Finset.sum_congr rfl fun r _ => ?_)).trans (zero_add _)
    · exact (LA2_6 c arg2 harg2 arg3 harg3 arg9 x0 x1 arg9.view arg9.view.junk ((Rect.unit (s := S16x128) ![5, 0] S1x128.size inb_S16x128_S1x128_5_0).toLoadRect.idx (ix2 (0 : Fin 1) l))).trans
        (if_neg (show ¬ ((5 + 1 * 0 : ℕ) < 5) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 5))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 5 ∨ 5 + 1 ≤ b.val from by omega)).trans ?_
    refine (LA2_6 c arg2 harg2 arg3 harg3 arg9 x0 x1 v f (ix2 b l)).trans ?_
    show (if b.val < 5 then add2 x0 x1 b l else 0) = if b.val < 6 then add2 x0 x1 b l else 0
    rcases Nat.lt_or_ge b.val 5 with h1 | h1
    · rw [if_pos h1, if_pos (show b.val < 6 from by omega)]
    · rw [if_neg (show ¬ b.val < 5 from by omega), if_neg (show ¬ b.val < 6 from by omega)]

/-- After rows 0 to 6 have been updated: those rows hold what the block adds, the rows below still zero. -/
theorem LA2_8 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_8 (F := Ideal) c arg2 harg2 arg3 harg3 arg9 x0 x1)) y
      = if (y (0 : Fin 2)).val < 7 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 7 then add2 x0 x1 b l else 0
  unfold kernelRun0_A.sl.HS2_8
  by_cases h : b.val = 6
  · refine (View.read_writes_cons_rows_of_mem v f _ _ _ (ix2 b l) (ix2 (0 : Fin 1) l) rfl (h.trans (Nat.add_zero _).symm) rfl).trans ?_
    unfold kernelRun0_A.sl.r_12
    refine (rowUpd_apply _ _ _ _ _ _ _ l).trans ?_
    refine Eq.trans ?_ ((if_pos (show b.val < 7 from by omega)).trans (add2_lt x0 x1 b l (by omega))).symm
    refine (congrArg₂ (· + ·) ?_ (Finset.sum_congr rfl fun r _ => ?_)).trans (zero_add _)
    · exact (LA2_7 c arg2 harg2 arg3 harg3 arg9 x0 x1 arg9.view arg9.view.junk ((Rect.unit (s := S16x128) ![6, 0] S1x128.size inb_S16x128_S1x128_6_0).toLoadRect.idx (ix2 (0 : Fin 1) l))).trans
        (if_neg (show ¬ ((6 + 1 * 0 : ℕ) < 6) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 6))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 6 ∨ 6 + 1 ≤ b.val from by omega)).trans ?_
    refine (LA2_7 c arg2 harg2 arg3 harg3 arg9 x0 x1 v f (ix2 b l)).trans ?_
    show (if b.val < 6 then add2 x0 x1 b l else 0) = if b.val < 7 then add2 x0 x1 b l else 0
    rcases Nat.lt_or_ge b.val 6 with h1 | h1
    · rw [if_pos h1, if_pos (show b.val < 7 from by omega)]
    · rw [if_neg (show ¬ b.val < 6 from by omega), if_neg (show ¬ b.val < 7 from by omega)]

/-- After rows 0 to 7 have been updated: those rows hold what the block adds, the rows below still zero. -/
theorem LA2_9 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_9 (F := Ideal) c arg2 harg2 arg3 harg3 arg9 x0 x1)) y
      = if (y (0 : Fin 2)).val < 8 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 8 then add2 x0 x1 b l else 0
  unfold kernelRun0_A.sl.HS2_9
  by_cases h : b.val = 7
  · refine (View.read_writes_cons_rows_of_mem v f _ _ _ (ix2 b l) (ix2 (0 : Fin 1) l) rfl (h.trans (Nat.add_zero _).symm) rfl).trans ?_
    unfold kernelRun0_A.sl.r_13
    refine (rowUpd_apply _ _ _ _ _ _ _ l).trans ?_
    refine Eq.trans ?_ ((if_pos (show b.val < 8 from by omega)).trans (add2_lt x0 x1 b l (by omega))).symm
    refine (congrArg₂ (· + ·) ?_ (Finset.sum_congr rfl fun r _ => ?_)).trans (zero_add _)
    · exact (LA2_8 c arg2 harg2 arg3 harg3 arg9 x0 x1 arg9.view arg9.view.junk ((Rect.unit (s := S16x128) ![7, 0] S1x128.size inb_S16x128_S1x128_7_0).toLoadRect.idx (ix2 (0 : Fin 1) l))).trans
        (if_neg (show ¬ ((7 + 1 * 0 : ℕ) < 7) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 7))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 7 ∨ 7 + 1 ≤ b.val from by omega)).trans ?_
    refine (LA2_8 c arg2 harg2 arg3 harg3 arg9 x0 x1 v f (ix2 b l)).trans ?_
    show (if b.val < 7 then add2 x0 x1 b l else 0) = if b.val < 8 then add2 x0 x1 b l else 0
    rcases Nat.lt_or_ge b.val 7 with h1 | h1
    · rw [if_pos h1, if_pos (show b.val < 8 from by omega)]
    · rw [if_neg (show ¬ b.val < 7 from by omega), if_neg (show ¬ b.val < 8 from by omega)]

/-- After rows 0 to 8 have been updated: those rows hold what the block adds, the rows below still zero. -/
theorem LA2_10 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_10 (F := Ideal) c arg2 harg2 arg3 harg3 arg9 x0 x1)) y
      = if (y (0 : Fin 2)).val < 9 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 9 then add2 x0 x1 b l else 0
  unfold kernelRun0_A.sl.HS2_10
  by_cases h : b.val = 8
  · refine (View.read_writes_cons_rows_of_mem v f _ _ _ (ix2 b l) (ix2 (0 : Fin 1) l) rfl (h.trans (Nat.add_zero _).symm) rfl).trans ?_
    unfold kernelRun0_A.sl.r_15 kernelRun0_A.sl.r_16
    refine (rowUpd_apply _ _ _ _ _ _ _ l).trans ?_
    refine Eq.trans ?_ ((if_pos (show b.val < 9 from by omega)).trans (add2_lt x0 x1 b l (by omega))).symm
    refine (congrArg₂ (· + ·) ?_ (Finset.sum_congr rfl fun r _ => ?_)).trans (zero_add _)
    · exact (LA2_9 c arg2 harg2 arg3 harg3 arg9 x0 x1 arg9.view arg9.view.junk ((Rect.unit (s := S16x128) ![8, 0] S1x128.size inb_S16x128_S1x128_8_0).toLoadRect.idx (ix2 (0 : Fin 1) l))).trans
        (if_neg (show ¬ ((8 + 1 * 0 : ℕ) < 8) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 8))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 8 ∨ 8 + 1 ≤ b.val from by omega)).trans ?_
    refine (LA2_9 c arg2 harg2 arg3 harg3 arg9 x0 x1 v f (ix2 b l)).trans ?_
    show (if b.val < 8 then add2 x0 x1 b l else 0) = if b.val < 9 then add2 x0 x1 b l else 0
    rcases Nat.lt_or_ge b.val 8 with h1 | h1
    · rw [if_pos h1, if_pos (show b.val < 9 from by omega)]
    · rw [if_neg (show ¬ b.val < 8 from by omega), if_neg (show ¬ b.val < 9 from by omega)]

/-- After rows 0 to 9 have been updated: those rows hold what the block adds, the rows below still zero. -/
theorem LA2_11 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_11 (F := Ideal) c arg2 harg2 arg3 harg3 arg9 x0 x1)) y
      = if (y (0 : Fin 2)).val < 10 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 10 then add2 x0 x1 b l else 0
  unfold kernelRun0_A.sl.HS2_11
  by_cases h : b.val = 9
  · refine (View.read_writes_cons_rows_of_mem v f _ _ _ (ix2 b l) (ix2 (0 : Fin 1) l) rfl (h.trans (Nat.add_zero _).symm) rfl).trans ?_
    unfold kernelRun0_A.sl.r_17
    refine (rowUpd_apply _ _ _ _ _ _ _ l).trans ?_
    refine Eq.trans ?_ ((if_pos (show b.val < 10 from by omega)).trans (add2_lt x0 x1 b l (by omega))).symm
    refine (congrArg₂ (· + ·) ?_ (Finset.sum_congr rfl fun r _ => ?_)).trans (zero_add _)
    · exact (LA2_10 c arg2 harg2 arg3 harg3 arg9 x0 x1 arg9.view arg9.view.junk ((Rect.unit (s := S16x128) ![9, 0] S1x128.size inb_S16x128_S1x128_9_0).toLoadRect.idx (ix2 (0 : Fin 1) l))).trans
        (if_neg (show ¬ ((9 + 1 * 0 : ℕ) < 9) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 9))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 9 ∨ 9 + 1 ≤ b.val from by omega)).trans ?_
    refine (LA2_10 c arg2 harg2 arg3 harg3 arg9 x0 x1 v f (ix2 b l)).trans ?_
    show (if b.val < 9 then add2 x0 x1 b l else 0) = if b.val < 10 then add2 x0 x1 b l else 0
    rcases Nat.lt_or_ge b.val 9 with h1 | h1
    · rw [if_pos h1, if_pos (show b.val < 10 from by omega)]
    · rw [if_neg (show ¬ b.val < 9 from by omega), if_neg (show ¬ b.val < 10 from by omega)]

/-- After rows 0 to 10 have been updated: those rows hold what the block adds, the rows below still zero. -/
theorem LA2_12 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_12 (F := Ideal) c arg2 harg2 arg3 harg3 arg9 x0 x1)) y
      = if (y (0 : Fin 2)).val < 11 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 11 then add2 x0 x1 b l else 0
  unfold kernelRun0_A.sl.HS2_12
  by_cases h : b.val = 10
  · refine (View.read_writes_cons_rows_of_mem v f _ _ _ (ix2 b l) (ix2 (0 : Fin 1) l) rfl (h.trans (Nat.add_zero _).symm) rfl).trans ?_
    refine (rowUpd_apply _ _ _ _ _ _ _ l).trans ?_
    refine Eq.trans ?_ ((if_pos (show b.val < 11 from by omega)).trans (add2_lt x0 x1 b l (by omega))).symm
    refine (congrArg₂ (· + ·) ?_ (Finset.sum_congr rfl fun r _ => ?_)).trans (zero_add _)
    · exact (LA2_11 c arg2 harg2 arg3 harg3 arg9 x0 x1 arg9.view arg9.view.junk ((Rect.unit (s := S16x128) ![10, 0] S1x128.size inb_S16x128_S1x128_10_0).toLoadRect.idx (ix2 (0 : Fin 1) l))).trans
        (if_neg (show ¬ ((10 + 1 * 0 : ℕ) < 10) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 10))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 10 ∨ 10 + 1 ≤ b.val from by omega)).trans ?_
    refine (LA2_11 c arg2 harg2 arg3 harg3 arg9 x0 x1 v f (ix2 b l)).trans ?_
    show (if b.val < 10 then add2 x0 x1 b l else 0) = if b.val < 11 then add2 x0 x1 b l else 0
    rcases Nat.lt_or_ge b.val 10 with h1 | h1
    · rw [if_pos h1, if_pos (show b.val < 11 from by omega)]
    · rw [if_neg (show ¬ b.val < 10 from by omega), if_neg (show ¬ b.val < 11 from by omega)]

/-- After rows 0 to 11 have been updated: those rows hold what the block adds, the rows below still zero. -/
theorem LA2_13 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_13 (F := Ideal) c arg2 harg2 arg3 harg3 arg9 x0 x1)) y
      = if (y (0 : Fin 2)).val < 12 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 12 then add2 x0 x1 b l else 0
  unfold kernelRun0_A.sl.HS2_13
  by_cases h : b.val = 11
  · refine (View.read_writes_cons_rows_of_mem v f _ _ _ (ix2 b l) (ix2 (0 : Fin 1) l) rfl (h.trans (Nat.add_zero _).symm) rfl).trans ?_
    unfold kernelRun0_A.sl.r_18
    refine (rowUpd_apply _ _ _ _ _ _ _ l).trans ?_
    refine Eq.trans ?_ ((if_pos (show b.val < 12 from by omega)).trans (add2_lt x0 x1 b l (by omega))).symm
    refine (congrArg₂ (· + ·) ?_ (Finset.sum_congr rfl fun r _ => ?_)).trans (zero_add _)
    · exact (LA2_12 c arg2 harg2 arg3 harg3 arg9 x0 x1 arg9.view arg9.view.junk ((Rect.unit (s := S16x128) ![11, 0] S1x128.size inb_S16x128_S1x128_11_0).toLoadRect.idx (ix2 (0 : Fin 1) l))).trans
        (if_neg (show ¬ ((11 + 1 * 0 : ℕ) < 11) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 11))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 11 ∨ 11 + 1 ≤ b.val from by omega)).trans ?_
    refine (LA2_12 c arg2 harg2 arg3 harg3 arg9 x0 x1 v f (ix2 b l)).trans ?_
    show (if b.val < 11 then add2 x0 x1 b l else 0) = if b.val < 12 then add2 x0 x1 b l else 0
    rcases Nat.lt_or_ge b.val 11 with h1 | h1
    · rw [if_pos h1, if_pos (show b.val < 12 from by omega)]
    · rw [if_neg (show ¬ b.val < 11 from by omega), if_neg (show ¬ b.val < 12 from by omega)]

/-- After rows 0 to 12 have been updated: those rows hold what the block adds, the rows below still zero. -/
theorem LA2_14 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_14 (F := Ideal) c arg2 harg2 arg3 harg3 arg9 x0 x1)) y
      = if (y (0 : Fin 2)).val < 13 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 13 then add2 x0 x1 b l else 0
  unfold kernelRun0_A.sl.HS2_14
  by_cases h : b.val = 12
  · refine (View.read_writes_cons_rows_of_mem v f _ _ _ (ix2 b l) (ix2 (0 : Fin 1) l) rfl (h.trans (Nat.add_zero _).symm) rfl).trans ?_
    unfold kernelRun0_A.sl.r_21
    refine (rowUpd_apply _ _ _ _ _ _ _ l).trans ?_
    refine Eq.trans ?_ ((if_pos (show b.val < 13 from by omega)).trans (add2_lt x0 x1 b l (by omega))).symm
    refine (congrArg₂ (· + ·) ?_ (Finset.sum_congr rfl fun r _ => ?_)).trans (zero_add _)
    · exact (LA2_13 c arg2 harg2 arg3 harg3 arg9 x0 x1 arg9.view arg9.view.junk ((Rect.unit (s := S16x128) ![12, 0] S1x128.size inb_S16x128_S1x128_12_0).toLoadRect.idx (ix2 (0 : Fin 1) l))).trans
        (if_neg (show ¬ ((12 + 1 * 0 : ℕ) < 12) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 12))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 12 ∨ 12 + 1 ≤ b.val from by omega)).trans ?_
    refine (LA2_13 c arg2 harg2 arg3 harg3 arg9 x0 x1 v f (ix2 b l)).trans ?_
    show (if b.val < 12 then add2 x0 x1 b l else 0) = if b.val < 13 then add2 x0 x1 b l else 0
    rcases Nat.lt_or_ge b.val 12 with h1 | h1
    · rw [if_pos h1, if_pos (show b.val < 13 from by omega)]
    · rw [if_neg (show ¬ b.val < 12 from by omega), if_neg (show ¬ b.val < 13 from by omega)]

/-- After rows 0 to 13 have been updated: those rows hold what the block adds, the rows below still zero. -/
theorem LA2_15 (c : Dev nD) (arg2 : Memref sig .tc .vmem S4096x128 .f32) (harg2 : arg2.IsWhole)
    (arg3 : Memref sig .tc .vmem S4096x128 .i32) (harg3 : arg3.IsWhole)
    (arg9 : Memref sig .tc .vmem S16x128 .f32) (x0 : Vec Ideal S4096x128 .f32) (x1 : Vec Ideal S4096x128 .i32)
    {sig' : RefSig} {κ : Kind} {sp : Space} (v : View sig' κ sp S16x128 .f32) (f : v.ty.Contents (Elt Ideal)) (y : S16x128.Idx) :
    v.read (Elt Ideal) (v.writes (Elt Ideal) f (kernelRun0_A.sl.HS2_15 (F := Ideal) c arg2 harg2 arg3 harg3 arg9 x0 x1)) y
      = if (y (0 : Fin 2)).val < 14 then add2 x0 x1 (y (0 : Fin 2)) (y (1 : Fin 2)) else 0 := by
  obtain ⟨b, l, rfl⟩ : ∃ (b : Fin 16) (l : Fin 128), y = ix2 b l := ⟨y 0, y 1, eq_ix2 y⟩
  show _ = if b.val < 14 then add2 x0 x1 b l else 0
  unfold kernelRun0_A.sl.HS2_15
  by_cases h : b.val = 13
  · refine (View.read_writes_cons_rows_of_mem v f _ _ _ (ix2 b l) (ix2 (0 : Fin 1) l) rfl (h.trans (Nat.add_zero _).symm) rfl).trans ?_
    unfold kernelRun0_A.sl.r_22
    refine (rowUpd_apply _ _ _ _ _ _ _ l).trans ?_
    refine Eq.trans ?_ ((if_pos (show b.val < 14 from by omega)).trans (add2_lt x0 x1 b l (by omega))).symm
    refine (congrArg₂ (· + ·) ?_ (Finset.sum_congr rfl fun r _ => ?_)).trans (zero_add _)
    · exact (LA2_14 c arg2 harg2 arg3 harg3 arg9 x0 x1 arg9.view arg9.view.junk ((Rect.unit (s := S16x128) ![13, 0] S1x128.size inb_S16x128_S1x128_13_0).toLoadRect.idx (ix2 (0 : Fin 1) l))).trans
        (if_neg (show ¬ ((13 + 1 * 0 : ℕ) < 13) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 13))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem v f _ _ _ (ix2 b l) rfl rfl
      (show b.val < 13 ∨ 13 + 1 ≤ b.val from by omega)).trans ?_
    refine (LA2_14 c arg2 harg2 arg3 harg3 arg9 x0 x1 v f (ix2 b l)).trans ?_
    show (if b.val < 13 then add2 x0 x1 b l else 0) = if b.val < 14 then add2 x0 x1 b l else 0
    rcases Nat.lt_or_ge b.val 13 with h1 | h1
    · rw [if_pos h1, if_pos (show b.val < 14 from by omega)]
    · rw [if_neg (show ¬ b.val < 13 from by omega), if_neg (show ¬ b.val < 14 from by omega)]

/-- CASE A, label sums: after the first point of a core, entry (row, lane) of the accumulator is what the point's blocks add. -/
theorem soutA2_apply (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : cond0_0 i) (hc1 : ¬cond0_1 i)
    (x0 : Vec Ideal S4096x128 .f32) (x1 : Vec Ideal S4096x128 .i32) (b : Fin 16) (l : Fin 128) :
    sout0_A_2 (F := Ideal) c i arg2 harg2 arg3 harg3 arg4 harg4 arg5 harg5 arg6 harg6 arg7 harg7 arg8 harg8 arg9 harg9 hc0 hc1 x0 x1 (ix2 b l) = add2 x0 x1 b l := by
  unfold sout0_A_2
  unfold kernelRun0_A
  dsimp only
  refine Eq.trans ?_ (show (if b.val < 15 then add2 x0 x1 b l else 0) = add2 x0 x1 b l from by
    by_cases hb : b.val < 15
    · exact if_pos hb
    · rw [if_neg hb, add2_top x0 x1 b l hb])
  by_cases h : b.val = 14
  · refine (View.read_writes_cons_rows_of_mem VS0_2 VS0_2.junk _ _ _ (ix2 b l) (ix2 (0 : Fin 1) l) rfl (h.trans (Nat.add_zero _).symm) rfl).trans ?_
    unfold kernelRun0_A.sl.r_24 kernelRun0_A.sl.r_25
    refine (rowUpd_apply _ _ _ _ _ _ _ l).trans ?_
    refine Eq.trans ?_ ((if_pos (show b.val < 15 from by omega)).trans (add2_lt x0 x1 b l (by omega))).symm
    refine (congrArg₂ (· + ·) ?_ (Finset.sum_congr rfl fun r _ => ?_)).trans (zero_add _)
    · exact (LA2_15 c arg2 harg2 arg3 harg3 arg9 x0 x1 arg9.view arg9.view.junk ((Rect.unit (s := S16x128) ![14, 0] S1x128.size inb_S16x128_S1x128_14_0).toLoadRect.idx (ix2 (0 : Fin 1) l))).trans
        (if_neg (show ¬ ((14 + 1 * 0 : ℕ) < 14) from by decide))
    · show Scalar.select (IntOp.cmpi .eq (Cert.Spec.key (k0_pay8 (F := Ideal) (View.readAt (Elt Ideal) arg2.view (Rect.unit ![0, 0] S4096x128.size inb_S4096x128_S4096x128_0_0).toLoadRect (harg2.unread x0)) (ix2 r l))) (BitVec.ofNat 32 14))
          (k0_pay9 (F := Ideal) (View.readAt (Elt Ideal) arg3.view (Rect.unit ![0, 0] S4096x128.size inb_S4096x128_S4096x128_0_0).toLoadRect (harg3.unread x1)) (ix2 r l)) (FloatOps.ofBits (F := Ideal) .f32 0x00000000#32)
        = kacc (BitVec.ofNat 32 b.val) (x0 (ix2 r l)) (x1 (ix2 r l))
      rw [xin_eq, x1in_eq, pay8_eq, pay9_apply, h]
      rfl
  · refine (View.read_writes_cons_rows_of_not_mem VS0_2 VS0_2.junk _ _ _ (ix2 b l) rfl rfl
      (show b.val < 14 ∨ 14 + 1 ≤ b.val from by omega)).trans ?_
    refine (LA2_15 c arg2 harg2 arg3 harg3 arg9 x0 x1 VS0_2 VS0_2.junk (ix2 b l)).trans ?_
    show (if b.val < 14 then add2 x0 x1 b l else 0) = if b.val < 15 then add2 x0 x1 b l else 0
    rcases Nat.lt_or_ge b.val 14 with h1 | h1
    · rw [if_pos h1, if_pos (show b.val < 15 from by omega)]
    · rw [if_neg (show ¬ b.val < 14 from by omega), if_neg (show ¬ b.val < 15 from by omega)]

end Cert.KernelIdeal.ScratchA

end
-- ==== Proof.ScratchB0.lean ====
/-
  The body's stores into accumulator 0 at a grid point of case B (neither the first nor the last point of its core), read back
  entry by entry. The body stores fifteen single rows, row 14 last; each row's payload is the row as the point before
  left it plus the lane sums of this point's block for that row's bin; row 15 is never stored. So entry (row, lane)
  ends at its earlier value plus what the block adds, which is nothing on row 15.
-/
import proofs.«114207_j16947940950786_2_alg».proof.Proof.Gen.KernelIdeal.Frame
import proofs.«114207_j16947940950786_2_alg».proof.Proof.KernelTerms
import Idealize.ShloMosaic.Lib.Pipeline.Value
import Idealize.ShloMosaic.Lib.WritesUnit
import Idealize.ShloMosaic.Lib.Tactic

set_option maxRecDepth 16384

noncomputable section

namespace Cert.KernelIdeal.ScratchB0

open Idealize.ShloMosaic Idealize.ShloMosaic.TcCoe Idealize.ShloMosaic.ValueIdx Idealize.SL.Sem
open Cert.KernelIdeal Cert.KernelIdeal.Gen Cert.KernelIdeal.RowUpdate Cert.KernelIdeal.KernelTerms Cert.KTerms

theorem hz2 : (![0, 0] : Fin 2 → Nat) = fun _ => 0 := funext fun a => by fin_cases a <;> rfl

/-- Case B, accumulator 0: after the point, entry (row, lane) is what the point before left there plus what this
    point's block adds. -/
theorem soutB0_apply (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : ¬cond0_1 i)
    (x0 : Vec Ideal S4096x128 .f32) (x1 : Vec Ideal S4096x128 .i32) (xs0 xs1 xs2 : Vec Ideal S16x128 .f32)
    (b : Fin 16) (l : Fin 128) :
    sout0_B_0 (F := Ideal) c i arg2 harg2 arg3 harg3 arg4 harg4 arg5 harg5 arg6 harg6 arg7 harg7 arg8 harg8 arg9 harg9 hc0 hc1 x0 x1 xs0 xs1 xs2 (ix2 b l) = xs0 (ix2 b l) + add0 x0 b l := by
  unfold sout0_B_0
  unfold kernelRun0_B
  dsimp only
  sl_unfold_words
  simp only [View.readAt_eq_ld, harg2.read_unread, harg3.read_unread, View.ld_unit_zero (S := S4096x128) hz2]
  obtain ⟨b, hb⟩ := b
  interval_cases b
  · -- row 0
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_mem _ _ _ _ _ (ix2 (⟨0, hb⟩ : Fin 16) l) (ix2 (0 : Fin 1) l) rfl rfl rfl).trans ?_
    refine (rowUpd_apply _ _ _ _ _ _ _ l).trans ?_
    rw [add0_lt x0 ⟨0, hb⟩ l (Nat.lt_of_sub_eq_succ rfl)]
    refine congrArg₂ (· + ·) ?_ (Finset.sum_congr rfl fun r _ => ?_)
    · rw [harg7.read_unread]; exact ldRow_apply xs0 0 hb _ l
    · exact congrArg (kcnt (BitVec.ofNat 32 0)) (congrFun (pay8_eq x0) (ix2 r l))
  · -- row 1
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_mem _ _ _ _ _ (ix2 (⟨1, hb⟩ : Fin 16) l) (ix2 (0 : Fin 1) l) rfl rfl rfl).trans ?_
    refine (rowUpd_apply _ _ _ _ _ _ _ l).trans ?_
    rw [add0_lt x0 ⟨1, hb⟩ l (Nat.lt_of_sub_eq_succ rfl)]
    refine congrArg₂ (· + ·) ?_ (Finset.sum_congr rfl fun r _ => ?_)
    · rw [harg7.read_unread]; exact ldRow_apply xs0 1 hb _ l
    · exact congrArg (kcnt (BitVec.ofNat 32 1)) (congrFun (pay8_eq x0) (ix2 r l))
  · -- row 2
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_mem _ _ _ _ _ (ix2 (⟨2, hb⟩ : Fin 16) l) (ix2 (0 : Fin 1) l) rfl rfl rfl).trans ?_
    refine (rowUpd_apply _ _ _ _ _ _ _ l).trans ?_
    rw [add0_lt x0 ⟨2, hb⟩ l (Nat.lt_of_sub_eq_succ rfl)]
    refine congrArg₂ (· + ·) ?_ (Finset.sum_congr rfl fun r _ => ?_)
    · rw [harg7.read_unread]; exact ldRow_apply xs0 2 hb _ l
    · exact congrArg (kcnt (BitVec.ofNat 32 2)) (congrFun (pay8_eq x0) (ix2 r l))
  · -- row 3
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_mem _ _ _ _ _ (ix2 (⟨3, hb⟩ : Fin 16) l) (ix2 (0 : Fin 1) l) rfl rfl rfl).trans ?_
    refine (rowUpd_apply _ _ _ _ _ _ _ l).trans ?_
    rw [add0_lt x0 ⟨3, hb⟩ l (Nat.lt_of_sub_eq_succ rfl)]
    refine congrArg₂ (· + ·) ?_ (Finset.sum_congr rfl fun r _ => ?_)
    · rw [harg7.read_unread]; exact ldRow_apply xs0 3 hb _ l
    · exact congrArg (kcnt (BitVec.ofNat 32 3)) (congrFun (pay8_eq x0) (ix2 r l))
  · -- row 4
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_mem _ _ _ _ _ (ix2 (⟨4, hb⟩ : Fin 16) l) (ix2 (0 : Fin 1) l) rfl rfl rfl).trans ?_
    refine (rowUpd_apply _ _ _ _ _ _ _ l).trans ?_
    rw [add0_lt x0 ⟨4, hb⟩ l (Nat.lt_of_sub_eq_succ rfl)]
    refine congrArg₂ (· + ·) ?_ (Finset.sum_congr rfl fun r _ => ?_)
    · rw [harg7.read_unread]; exact ldRow_apply xs0 4 hb _ l
    · exact congrArg (kcnt (BitVec.ofNat 32 4)) (congrFun (pay8_eq x0) (ix2 r l))
  · -- row 5
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_mem _ _ _ _ _ (ix2 (⟨5, hb⟩ : Fin 16) l) (ix2 (0 : Fin 1) l) rfl rfl rfl).trans ?_
    refine (rowUpd_apply _ _ _ _ _ _ _ l).trans ?_
    rw [add0_lt x0 ⟨5, hb⟩ l (Nat.lt_of_sub_eq_succ rfl)]
    refine congrArg₂ (· + ·) ?_ (Finset.sum_congr rfl fun r _ => ?_)
    · rw [harg7.read_unread]; exact ldRow_apply xs0 5 hb _ l
    · exact congrArg (kcnt (BitVec.ofNat 32 5)) (congrFun (pay8_eq x0) (ix2 r l))
  · -- row 6
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_mem _ _ _ _ _ (ix2 (⟨6, hb⟩ : Fin 16) l) (ix2 (0 : Fin 1) l) rfl rfl rfl).trans ?_
    refine (rowUpd_apply _ _ _ _ _ _ _ l).trans ?_
    rw [add0_lt x0 ⟨6, hb⟩ l (Nat.lt_of_sub_eq_succ rfl)]
    refine congrArg₂ (· + ·) ?_ (Finset.sum_congr rfl fun r _ => ?_)
    · rw [harg7.read_unread]; exact ldRow_apply xs0 6 hb _ l
    · exact congrArg (kcnt (BitVec.ofNat 32 6)) (congrFun (pay8_eq x0) (ix2 r l))
  · -- row 7
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_mem _ _ _ _ _ (ix2 (⟨7, hb⟩ : Fin 16) l) (ix2 (0 : Fin 1) l) rfl rfl rfl).trans ?_
    refine (rowUpd_apply _ _ _ _ _ _ _ l).trans ?_
    rw [add0_lt x0 ⟨7, hb⟩ l (Nat.lt_of_sub_eq_succ rfl)]
    refine congrArg₂ (· + ·) ?_ (Finset.sum_congr rfl fun r _ => ?_)
    · rw [harg7.read_unread]; exact ldRow_apply xs0 7 hb _ l
    · exact congrArg (kcnt (BitVec.ofNat 32 7)) (congrFun (pay8_eq x0) (ix2 r l))
  · -- row 8
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_mem _ _ _ _ _ (ix2 (⟨8, hb⟩ : Fin 16) l) (ix2 (0 : Fin 1) l) rfl rfl rfl).trans ?_
    refine (rowUpd_apply _ _ _ _ _ _ _ l).trans ?_
    rw [add0_lt x0 ⟨8, hb⟩ l (Nat.lt_of_sub_eq_succ rfl)]
    refine congrArg₂ (· + ·) ?_ (Finset.sum_congr rfl fun r _ => ?_)
    · rw [harg7.read_unread]; exact ldRow_apply xs0 8 hb _ l
    · exact congrArg (kcnt (BitVec.ofNat 32 8)) (congrFun (pay8_eq x0) (ix2 r l))
  · -- row 9
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_mem _ _ _ _ _ (ix2 (⟨9, hb⟩ : Fin 16) l) (ix2 (0 : Fin 1) l) rfl rfl rfl).trans ?_
    refine (rowUpd_apply _ _ _ _ _ _ _ l).trans ?_
    rw [add0_lt x0 ⟨9, hb⟩ l (Nat.lt_of_sub_eq_succ rfl)]
    refine congrArg₂ (· + ·) ?_ (Finset.sum_congr rfl fun r _ => ?_)
    · rw [harg7.read_unread]; exact ldRow_apply xs0 9 hb _ l
    · exact congrArg (kcnt (BitVec.ofNat 32 9)) (congrFun (pay8_eq x0) (ix2 r l))
  · -- row 10
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_mem _ _ _ _ _ (ix2 (⟨10, hb⟩ : Fin 16) l) (ix2 (0 : Fin 1) l) rfl rfl rfl).trans ?_
    refine (rowUpd_apply _ _ _ _ _ _ _ l).trans ?_
    rw [add0_lt x0 ⟨10, hb⟩ l (Nat.lt_of_sub_eq_succ rfl)]
    refine congrArg₂ (· + ·) ?_ (Finset.sum_congr rfl fun r _ => ?_)
    · rw [harg7.read_unread]; exact ldRow_apply xs0 10 hb _ l
    · exact congrArg (kcnt (BitVec.ofNat 32 10)) (congrFun (pay8_eq x0) (ix2 r l))
  · -- row 11
    refine (View.read_writes_cons_rows_of_not_mem _ _ _ _ _ (ix2 (⟨11, hb⟩ : Fin 16) l) rfl rfl (Or.inl (Nat.lt_of_sub_eq_succ rfl))).trans ?_
    refine (View.read_writes_cons_rows_of_not_mem _ _ _ _ _ (ix2 (⟨11, hb⟩ : Fin 16) l) rfl rfl (Or.inl (Nat.lt_of_sub_eq_succ rfl))).trans ?_
    refine (View.read_writes_cons_rows_of_not_mem _ _ _ _ _ (ix2 (⟨11, hb⟩ : Fin 16) l) rfl rfl (Or.inl (Nat.lt_of_sub_eq_succ rfl))).trans ?_
    refine (View.read_writes_cons_rows_of_mem _ _ _ _ _ (ix2 (⟨11, hb⟩ : Fin 16) l) (ix2 (0 : Fin 1) l) rfl rfl rfl).trans ?_
    refine (rowUpd_apply _ _ _ _ _ _ _ l).trans ?_
    rw [add0_lt x0 ⟨11, hb⟩ l (Nat.lt_of_sub_eq_succ rfl)]
    refine congrArg₂ (· + ·) ?_ (Finset.sum_congr rfl fun r _ => ?_)
    · rw [harg7.read_unread]; exact ldRow_apply xs0 11 hb _ l
    · exact congrArg (kcnt (BitVec.ofNat 32 11)) (congrFun (pay8_eq x0) (ix2 r l))
  · -- row 12
    refine (View.read_writes_cons_rows_of_not_mem _ _ _ _ _ (ix2 (⟨12, hb⟩ : Fin 16) l) rfl rfl (Or.inl (Nat.lt_of_sub_eq_succ rfl))).trans ?_
    refine (View.read_writes_cons_rows_of_not_mem _ _ _ _ _ (ix2 (⟨12, hb⟩ : Fin 16) l) rfl rfl (Or.inl (Nat.lt_of_sub_eq_succ rfl))).trans ?_
    refine (View.read_writes_cons_rows_of_mem _ _ _ _ _ (ix2 (⟨12, hb⟩ : Fin 16) l) (ix2 (0 : Fin 1) l) rfl rfl rfl).trans ?_
    refine (rowUpd_apply _ _ _ _ _ _ _ l).trans ?_
    rw [add0_lt x0 ⟨12, hb⟩ l (Nat.lt_of_sub_eq_succ rfl)]
    refine congrArg₂ (· + ·) ?_ (Finset.sum_congr rfl fun r _ => ?_)
    · rw [harg7.read_unread]; exact ldRow_apply xs0 12 hb _ l
    · exact congrArg (kcnt (BitVec.ofNat 32 12)) (congrFun (pay8_eq x0) (ix2 r l))
  · -- row 13
    refine (View.read_writes_cons_rows_of_not_mem _ _ _ _ _ (ix2 (⟨13, hb⟩ : Fin 16) l) rfl rfl (Or.inl (Nat.lt_of_sub_eq_succ rfl))).trans ?_
    refine (View.read_writes_cons_rows_of_mem _ _ _ _ _ (ix2 (⟨13, hb⟩ : Fin 16) l) (ix2 (0 : Fin 1) l) rfl rfl rfl).trans ?_
    refine (rowUpd_apply _ _ _ _ _ _ _ l).trans ?_
    rw [add0_lt x0 ⟨13, hb⟩ l (Nat.lt_of_sub_eq_succ rfl)]
    refine congrArg₂ (· + ·) ?_ (Finset.sum_congr rfl fun r _ => ?_)
    · rw [harg7.read_unread]; exact ldRow_apply xs0 13 hb _ l
    · exact congrArg (kcnt (BitVec.ofNat 32 13)) (congrFun (pay8_eq x0) (ix2 r l))
  · -- row 14
    refine (View.read_writes_cons_rows_of_mem _ _ _ _ _ (ix2 (⟨14, hb⟩ : Fin 16) l) (ix2 (0 : Fin 1) l) rfl rfl rfl).trans ?_
    refine (rowUpd_apply _ _ _ _ _ _ _ l).trans ?_
    rw [add0_lt x0 ⟨14, hb⟩ l (Nat.lt_of_sub_eq_succ rfl)]
    refine congrArg₂ (· + ·) ?_ (Finset.sum_congr rfl fun r _ => ?_)
    · rw [harg7.read_unread]; exact ldRow_apply xs0 14 hb _ l
    · exact congrArg (kcnt (BitVec.ofNat 32 14)) (congrFun (pay8_eq x0) (ix2 r l))
  · -- row 15
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    rw [add0_top x0 ⟨15, hb⟩ l (Nat.lt_irrefl _), add_zero]
    show View.read (Elt Ideal) arg7.view (harg7.unread xs0) _ = _
    rw [harg7.read_unread]

end Cert.KernelIdeal.ScratchB0

end
-- ==== Proof.ScratchB1.lean ====
/-
  The body's stores into accumulator 1 at a grid point of case B (neither the first nor the last point of its core), read back
  entry by entry. The body stores fifteen single rows, row 14 last; each row's payload is the row as the point before
  left it plus the lane sums of this point's block for that row's bin; row 15 is never stored. So entry (row, lane)
  ends at its earlier value plus what the block adds, which is nothing on row 15.
-/
import proofs.«114207_j16947940950786_2_alg».proof.Proof.Gen.KernelIdeal.Frame
import proofs.«114207_j16947940950786_2_alg».proof.Proof.KernelTerms
import Idealize.ShloMosaic.Lib.Pipeline.Value
import Idealize.ShloMosaic.Lib.WritesUnit
import Idealize.ShloMosaic.Lib.Tactic

set_option maxRecDepth 16384

noncomputable section

namespace Cert.KernelIdeal.ScratchB1

open Idealize.ShloMosaic Idealize.ShloMosaic.TcCoe Idealize.ShloMosaic.ValueIdx Idealize.SL.Sem
open Cert.KernelIdeal Cert.KernelIdeal.Gen Cert.KernelIdeal.RowUpdate Cert.KernelIdeal.KernelTerms Cert.KTerms

theorem hz2 : (![0, 0] : Fin 2 → Nat) = fun _ => 0 := funext fun a => by fin_cases a <;> rfl

/-- Case B, accumulator 1: after the point, entry (row, lane) is what the point before left there plus what this
    point's block adds. -/
theorem soutB1_apply (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : ¬cond0_1 i)
    (x0 : Vec Ideal S4096x128 .f32) (x1 : Vec Ideal S4096x128 .i32) (xs0 xs1 xs2 : Vec Ideal S16x128 .f32)
    (b : Fin 16) (l : Fin 128) :
    sout0_B_1 (F := Ideal) c i arg2 harg2 arg3 harg3 arg4 harg4 arg5 harg5 arg6 harg6 arg7 harg7 arg8 harg8 arg9 harg9 hc0 hc1 x0 x1 xs0 xs1 xs2 (ix2 b l) = xs1 (ix2 b l) + add1 x0 b l := by
  unfold sout0_B_1
  unfold kernelRun0_B
  dsimp only
  sl_unfold_words
  simp only [View.readAt_eq_ld, harg2.read_unread, harg3.read_unread, View.ld_unit_zero (S := S4096x128) hz2]
  obtain ⟨b, hb⟩ := b
  interval_cases b
  · -- row 0
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_mem _ _ _ _ _ (ix2 (⟨0, hb⟩ : Fin 16) l) (ix2 (0 : Fin 1) l) rfl rfl rfl).trans ?_
    refine (rowUpd_apply _ _ _ _ _ _ _ l).trans ?_
    rw [add1_lt x0 ⟨0, hb⟩ l (Nat.lt_of_sub_eq_succ rfl)]
    refine congrArg₂ (· + ·) ?_ (Finset.sum_congr rfl fun r _ => ?_)
    · rw [harg8.read_unread]; exact ldRow_apply xs1 0 hb _ l
    · exact congrArg (kconf (BitVec.ofNat 32 0)) (congrFun (pay8_eq x0) (ix2 r l))
  · -- row 1
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_mem _ _ _ _ _ (ix2 (⟨1, hb⟩ : Fin 16) l) (ix2 (0 : Fin 1) l) rfl rfl rfl).trans ?_
    refine (rowUpd_apply _ _ _ _ _ _ _ l).trans ?_
    rw [add1_lt x0 ⟨1, hb⟩ l (Nat.lt_of_sub_eq_succ rfl)]
    refine congrArg₂ (· + ·) ?_ (Finset.sum_congr rfl fun r _ => ?_)
    · rw [harg8.read_unread]; exact ldRow_apply xs1 1 hb _ l
    · exact congrArg (kconf (BitVec.ofNat 32 1)) (congrFun (pay8_eq x0) (ix2 r l))
  · -- row 2
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_mem _ _ _ _ _ (ix2 (⟨2, hb⟩ : Fin 16) l) (ix2 (0 : Fin 1) l) rfl rfl rfl).trans ?_
    refine (rowUpd_apply _ _ _ _ _ _ _ l).trans ?_
    rw [add1_lt x0 ⟨2, hb⟩ l (Nat.lt_of_sub_eq_succ rfl)]
    refine congrArg₂ (· + ·) ?_ (Finset.sum_congr rfl fun r _ => ?_)
    · rw [harg8.read_unread]; exact ldRow_apply xs1 2 hb _ l
    · exact congrArg (kconf (BitVec.ofNat 32 2)) (congrFun (pay8_eq x0) (ix2 r l))
  · -- row 3
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_mem _ _ _ _ _ (ix2 (⟨3, hb⟩ : Fin 16) l) (ix2 (0 : Fin 1) l) rfl rfl rfl).trans ?_
    refine (rowUpd_apply _ _ _ _ _ _ _ l).trans ?_
    rw [add1_lt x0 ⟨3, hb⟩ l (Nat.lt_of_sub_eq_succ rfl)]
    refine congrArg₂ (· + ·) ?_ (Finset.sum_congr rfl fun r _ => ?_)
    · rw [harg8.read_unread]; exact ldRow_apply xs1 3 hb _ l
    · exact congrArg (kconf (BitVec.ofNat 32 3)) (congrFun (pay8_eq x0) (ix2 r l))
  · -- row 4
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_mem _ _ _ _ _ (ix2 (⟨4, hb⟩ : Fin 16) l) (ix2 (0 : Fin 1) l) rfl rfl rfl).trans ?_
    refine (rowUpd_apply _ _ _ _ _ _ _ l).trans ?_
    rw [add1_lt x0 ⟨4, hb⟩ l (Nat.lt_of_sub_eq_succ rfl)]
    refine congrArg₂ (· + ·) ?_ (Finset.sum_congr rfl fun r _ => ?_)
    · rw [harg8.read_unread]; exact ldRow_apply xs1 4 hb _ l
    · exact congrArg (kconf (BitVec.ofNat 32 4)) (congrFun (pay8_eq x0) (ix2 r l))
  · -- row 5
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_mem _ _ _ _ _ (ix2 (⟨5, hb⟩ : Fin 16) l) (ix2 (0 : Fin 1) l) rfl rfl rfl).trans ?_
    refine (rowUpd_apply _ _ _ _ _ _ _ l).trans ?_
    rw [add1_lt x0 ⟨5, hb⟩ l (Nat.lt_of_sub_eq_succ rfl)]
    refine congrArg₂ (· + ·) ?_ (Finset.sum_congr rfl fun r _ => ?_)
    · rw [harg8.read_unread]; exact ldRow_apply xs1 5 hb _ l
    · exact congrArg (kconf (BitVec.ofNat 32 5)) (congrFun (pay8_eq x0) (ix2 r l))
  · -- row 6
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_mem _ _ _ _ _ (ix2 (⟨6, hb⟩ : Fin 16) l) (ix2 (0 : Fin 1) l) rfl rfl rfl).trans ?_
    refine (rowUpd_apply _ _ _ _ _ _ _ l).trans ?_
    rw [add1_lt x0 ⟨6, hb⟩ l (Nat.lt_of_sub_eq_succ rfl)]
    refine congrArg₂ (· + ·) ?_ (Finset.sum_congr rfl fun r _ => ?_)
    · rw [harg8.read_unread]; exact ldRow_apply xs1 6 hb _ l
    · exact congrArg (kconf (BitVec.ofNat 32 6)) (congrFun (pay8_eq x0) (ix2 r l))
  · -- row 7
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_mem _ _ _ _ _ (ix2 (⟨7, hb⟩ : Fin 16) l) (ix2 (0 : Fin 1) l) rfl rfl rfl).trans ?_
    refine (rowUpd_apply _ _ _ _ _ _ _ l).trans ?_
    rw [add1_lt x0 ⟨7, hb⟩ l (Nat.lt_of_sub_eq_succ rfl)]
    refine congrArg₂ (· + ·) ?_ (Finset.sum_congr rfl fun r _ => ?_)
    · rw [harg8.read_unread]; exact ldRow_apply xs1 7 hb _ l
    · exact congrArg (kconf (BitVec.ofNat 32 7)) (congrFun (pay8_eq x0) (ix2 r l))
  · -- row 8
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_mem _ _ _ _ _ (ix2 (⟨8, hb⟩ : Fin 16) l) (ix2 (0 : Fin 1) l) rfl rfl rfl).trans ?_
    refine (rowUpd_apply _ _ _ _ _ _ _ l).trans ?_
    rw [add1_lt x0 ⟨8, hb⟩ l (Nat.lt_of_sub_eq_succ rfl)]
    refine congrArg₂ (· + ·) ?_ (Finset.sum_congr rfl fun r _ => ?_)
    · rw [harg8.read_unread]; exact ldRow_apply xs1 8 hb _ l
    · exact congrArg (kconf (BitVec.ofNat 32 8)) (congrFun (pay8_eq x0) (ix2 r l))
  · -- row 9
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_mem _ _ _ _ _ (ix2 (⟨9, hb⟩ : Fin 16) l) (ix2 (0 : Fin 1) l) rfl rfl rfl).trans ?_
    refine (rowUpd_apply _ _ _ _ _ _ _ l).trans ?_
    rw [add1_lt x0 ⟨9, hb⟩ l (Nat.lt_of_sub_eq_succ rfl)]
    refine congrArg₂ (· + ·) ?_ (Finset.sum_congr rfl fun r _ => ?_)
    · rw [harg8.read_unread]; exact ldRow_apply xs1 9 hb _ l
    · exact congrArg (kconf (BitVec.ofNat 32 9)) (congrFun (pay8_eq x0) (ix2 r l))
  · -- row 10
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_mem _ _ _ _ _ (ix2 (⟨10, hb⟩ : Fin 16) l) (ix2 (0 : Fin 1) l) rfl rfl rfl).trans ?_
    refine (rowUpd_apply _ _ _ _ _ _ _ l).trans ?_
    rw [add1_lt x0 ⟨10, hb⟩ l (Nat.lt_of_sub_eq_succ rfl)]
    refine congrArg₂ (· + ·) ?_ (Finset.sum_congr rfl fun r _ => ?_)
    · rw [harg8.read_unread]; exact ldRow_apply xs1 10 hb _ l
    · exact congrArg (kconf (BitVec.ofNat 32 10)) (congrFun (pay8_eq x0) (ix2 r l))
  · -- row 11
    refine (View.read_writes_cons_rows_of_not_mem _ _ _ _ _ (ix2 (⟨11, hb⟩ : Fin 16) l) rfl rfl (Or.inl (Nat.lt_of_sub_eq_succ rfl))).trans ?_
    refine (View.read_writes_cons_rows_of_not_mem _ _ _ _ _ (ix2 (⟨11, hb⟩ : Fin 16) l) rfl rfl (Or.inl (Nat.lt_of_sub_eq_succ rfl))).trans ?_
    refine (View.read_writes_cons_rows_of_not_mem _ _ _ _ _ (ix2 (⟨11, hb⟩ : Fin 16) l) rfl rfl (Or.inl (Nat.lt_of_sub_eq_succ rfl))).trans ?_
    refine (View.read_writes_cons_rows_of_mem _ _ _ _ _ (ix2 (⟨11, hb⟩ : Fin 16) l) (ix2 (0 : Fin 1) l) rfl rfl rfl).trans ?_
    refine (rowUpd_apply _ _ _ _ _ _ _ l).trans ?_
    rw [add1_lt x0 ⟨11, hb⟩ l (Nat.lt_of_sub_eq_succ rfl)]
    refine congrArg₂ (· + ·) ?_ (Finset.sum_congr rfl fun r _ => ?_)
    · rw [harg8.read_unread]; exact ldRow_apply xs1 11 hb _ l
    · exact congrArg (kconf (BitVec.ofNat 32 11)) (congrFun (pay8_eq x0) (ix2 r l))
  · -- row 12
    refine (View.read_writes_cons_rows_of_not_mem _ _ _ _ _ (ix2 (⟨12, hb⟩ : Fin 16) l) rfl rfl (Or.inl (Nat.lt_of_sub_eq_succ rfl))).trans ?_
    refine (View.read_writes_cons_rows_of_not_mem _ _ _ _ _ (ix2 (⟨12, hb⟩ : Fin 16) l) rfl rfl (Or.inl (Nat.lt_of_sub_eq_succ rfl))).trans ?_
    refine (View.read_writes_cons_rows_of_mem _ _ _ _ _ (ix2 (⟨12, hb⟩ : Fin 16) l) (ix2 (0 : Fin 1) l) rfl rfl rfl).trans ?_
    refine (rowUpd_apply _ _ _ _ _ _ _ l).trans ?_
    rw [add1_lt x0 ⟨12, hb⟩ l (Nat.lt_of_sub_eq_succ rfl)]
    refine congrArg₂ (· + ·) ?_ (Finset.sum_congr rfl fun r _ => ?_)
    · rw [harg8.read_unread]; exact ldRow_apply xs1 12 hb _ l
    · exact congrArg (kconf (BitVec.ofNat 32 12)) (congrFun (pay8_eq x0) (ix2 r l))
  · -- row 13
    refine (View.read_writes_cons_rows_of_not_mem _ _ _ _ _ (ix2 (⟨13, hb⟩ : Fin 16) l) rfl rfl (Or.inl (Nat.lt_of_sub_eq_succ rfl))).trans ?_
    refine (View.read_writes_cons_rows_of_mem _ _ _ _ _ (ix2 (⟨13, hb⟩ : Fin 16) l) (ix2 (0 : Fin 1) l) rfl rfl rfl).trans ?_
    refine (rowUpd_apply _ _ _ _ _ _ _ l).trans ?_
    rw [add1_lt x0 ⟨13, hb⟩ l (Nat.lt_of_sub_eq_succ rfl)]
    refine congrArg₂ (· + ·) ?_ (Finset.sum_congr rfl fun r _ => ?_)
    · rw [harg8.read_unread]; exact ldRow_apply xs1 13 hb _ l
    · exact congrArg (kconf (BitVec.ofNat 32 13)) (congrFun (pay8_eq x0) (ix2 r l))
  · -- row 14
    refine (View.read_writes_cons_rows_of_mem _ _ _ _ _ (ix2 (⟨14, hb⟩ : Fin 16) l) (ix2 (0 : Fin 1) l) rfl rfl rfl).trans ?_
    refine (rowUpd_apply _ _ _ _ _ _ _ l).trans ?_
    rw [add1_lt x0 ⟨14, hb⟩ l (Nat.lt_of_sub_eq_succ rfl)]
    refine congrArg₂ (· + ·) ?_ (Finset.sum_congr rfl fun r _ => ?_)
    · rw [harg8.read_unread]; exact ldRow_apply xs1 14 hb _ l
    · exact congrArg (kconf (BitVec.ofNat 32 14)) (congrFun (pay8_eq x0) (ix2 r l))
  · -- row 15
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    rw [add1_top x0 ⟨15, hb⟩ l (Nat.lt_irrefl _), add_zero]
    show View.read (Elt Ideal) arg8.view (harg8.unread xs1) _ = _
    rw [harg8.read_unread]

end Cert.KernelIdeal.ScratchB1

end
-- ==== Proof.ScratchB2.lean ====
/-
  The body's stores into accumulator 2 at a grid point of case B (neither the first nor the last point of its core), read back
  entry by entry. The body stores fifteen single rows, row 14 last; each row's payload is the row as the point before
  left it plus the lane sums of this point's block for that row's bin; row 15 is never stored. So entry (row, lane)
  ends at its earlier value plus what the block adds, which is nothing on row 15.
-/
import proofs.«114207_j16947940950786_2_alg».proof.Proof.Gen.KernelIdeal.Frame
import proofs.«114207_j16947940950786_2_alg».proof.Proof.KernelTerms
import Idealize.ShloMosaic.Lib.Pipeline.Value
import Idealize.ShloMosaic.Lib.WritesUnit
import Idealize.ShloMosaic.Lib.Tactic

set_option maxRecDepth 16384

noncomputable section

namespace Cert.KernelIdeal.ScratchB2

open Idealize.ShloMosaic Idealize.ShloMosaic.TcCoe Idealize.ShloMosaic.ValueIdx Idealize.SL.Sem
open Cert.KernelIdeal Cert.KernelIdeal.Gen Cert.KernelIdeal.RowUpdate Cert.KernelIdeal.KernelTerms Cert.KTerms

theorem hz2 : (![0, 0] : Fin 2 → Nat) = fun _ => 0 := funext fun a => by fin_cases a <;> rfl

/-- Case B, accumulator 2: after the point, entry (row, lane) is what the point before left there plus what this
    point's block adds. -/
theorem soutB2_apply (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : ¬cond0_1 i)
    (x0 : Vec Ideal S4096x128 .f32) (x1 : Vec Ideal S4096x128 .i32) (xs0 xs1 xs2 : Vec Ideal S16x128 .f32)
    (b : Fin 16) (l : Fin 128) :
    sout0_B_2 (F := Ideal) c i arg2 harg2 arg3 harg3 arg4 harg4 arg5 harg5 arg6 harg6 arg7 harg7 arg8 harg8 arg9 harg9 hc0 hc1 x0 x1 xs0 xs1 xs2 (ix2 b l) = xs2 (ix2 b l) + add2 x0 x1 b l := by
  unfold sout0_B_2
  unfold kernelRun0_B
  dsimp only
  sl_unfold_words
  simp only [View.readAt_eq_ld, harg2.read_unread, harg3.read_unread, View.ld_unit_zero (S := S4096x128) hz2]
  obtain ⟨b, hb⟩ := b
  interval_cases b
  · -- row 0
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_mem _ _ _ _ _ (ix2 (⟨0, hb⟩ : Fin 16) l) (ix2 (0 : Fin 1) l) rfl rfl rfl).trans ?_
    refine (rowUpd_apply _ _ _ _ _ _ _ l).trans ?_
    rw [add2_lt x0 x1 ⟨0, hb⟩ l (Nat.lt_of_sub_eq_succ rfl)]
    refine congrArg₂ (· + ·) ?_ (Finset.sum_congr rfl fun r _ => ?_)
    · rw [harg9.read_unread]; exact ldRow_apply xs2 0 hb _ l
    · refine (congrArg (fun q => Scalar.select (IntOp.cmpi .eq (Cert.Spec.key (k0_pay8 (F := Ideal) x0 (ix2 r l))) (BitVec.ofNat 32 0)) q (FloatOps.ofBits (F := Ideal) .f32 0x00000000#32)) (pay9_apply x1 (ix2 r l))).trans ?_
      exact congrArg (fun p => kacc (BitVec.ofNat 32 0) p (x1 (ix2 r l))) (congrFun (pay8_eq x0) (ix2 r l))
  · -- row 1
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_mem _ _ _ _ _ (ix2 (⟨1, hb⟩ : Fin 16) l) (ix2 (0 : Fin 1) l) rfl rfl rfl).trans ?_
    refine (rowUpd_apply _ _ _ _ _ _ _ l).trans ?_
    rw [add2_lt x0 x1 ⟨1, hb⟩ l (Nat.lt_of_sub_eq_succ rfl)]
    refine congrArg₂ (· + ·) ?_ (Finset.sum_congr rfl fun r _ => ?_)
    · rw [harg9.read_unread]; exact ldRow_apply xs2 1 hb _ l
    · refine (congrArg (fun q => Scalar.select (IntOp.cmpi .eq (Cert.Spec.key (k0_pay8 (F := Ideal) x0 (ix2 r l))) (BitVec.ofNat 32 1)) q (FloatOps.ofBits (F := Ideal) .f32 0x00000000#32)) (pay9_apply x1 (ix2 r l))).trans ?_
      exact congrArg (fun p => kacc (BitVec.ofNat 32 1) p (x1 (ix2 r l))) (congrFun (pay8_eq x0) (ix2 r l))
  · -- row 2
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_mem _ _ _ _ _ (ix2 (⟨2, hb⟩ : Fin 16) l) (ix2 (0 : Fin 1) l) rfl rfl rfl).trans ?_
    refine (rowUpd_apply _ _ _ _ _ _ _ l).trans ?_
    rw [add2_lt x0 x1 ⟨2, hb⟩ l (Nat.lt_of_sub_eq_succ rfl)]
    refine congrArg₂ (· + ·) ?_ (Finset.sum_congr rfl fun r _ => ?_)
    · rw [harg9.read_unread]; exact ldRow_apply xs2 2 hb _ l
    · refine (congrArg (fun q => Scalar.select (IntOp.cmpi .eq (Cert.Spec.key (k0_pay8 (F := Ideal) x0 (ix2 r l))) (BitVec.ofNat 32 2)) q (FloatOps.ofBits (F := Ideal) .f32 0x00000000#32)) (pay9_apply x1 (ix2 r l))).trans ?_
      exact congrArg (fun p => kacc (BitVec.ofNat 32 2) p (x1 (ix2 r l))) (congrFun (pay8_eq x0) (ix2 r l))
  · -- row 3
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_mem _ _ _ _ _ (ix2 (⟨3, hb⟩ : Fin 16) l) (ix2 (0 : Fin 1) l) rfl rfl rfl).trans ?_
    refine (rowUpd_apply _ _ _ _ _ _ _ l).trans ?_
    rw [add2_lt x0 x1 ⟨3, hb⟩ l (Nat.lt_of_sub_eq_succ rfl)]
    refine congrArg₂ (· + ·) ?_ (Finset.sum_congr rfl fun r _ => ?_)
    · rw [harg9.read_unread]; exact ldRow_apply xs2 3 hb _ l
    · refine (congrArg (fun q => Scalar.select (IntOp.cmpi .eq (Cert.Spec.key (k0_pay8 (F := Ideal) x0 (ix2 r l))) (BitVec.ofNat 32 3)) q (FloatOps.ofBits (F := Ideal) .f32 0x00000000#32)) (pay9_apply x1 (ix2 r l))).trans ?_
      exact congrArg (fun p => kacc (BitVec.ofNat 32 3) p (x1 (ix2 r l))) (congrFun (pay8_eq x0) (ix2 r l))
  · -- row 4
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_mem _ _ _ _ _ (ix2 (⟨4, hb⟩ : Fin 16) l) (ix2 (0 : Fin 1) l) rfl rfl rfl).trans ?_
    refine (rowUpd_apply _ _ _ _ _ _ _ l).trans ?_
    rw [add2_lt x0 x1 ⟨4, hb⟩ l (Nat.lt_of_sub_eq_succ rfl)]
    refine congrArg₂ (· + ·) ?_ (Finset.sum_congr rfl fun r _ => ?_)
    · rw [harg9.read_unread]; exact ldRow_apply xs2 4 hb _ l
    · refine (congrArg (fun q => Scalar.select (IntOp.cmpi .eq (Cert.Spec.key (k0_pay8 (F := Ideal) x0 (ix2 r l))) (BitVec.ofNat 32 4)) q (FloatOps.ofBits (F := Ideal) .f32 0x00000000#32)) (pay9_apply x1 (ix2 r l))).trans ?_
      exact congrArg (fun p => kacc (BitVec.ofNat 32 4) p (x1 (ix2 r l))) (congrFun (pay8_eq x0) (ix2 r l))
  · -- row 5
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_mem _ _ _ _ _ (ix2 (⟨5, hb⟩ : Fin 16) l) (ix2 (0 : Fin 1) l) rfl rfl rfl).trans ?_
    refine (rowUpd_apply _ _ _ _ _ _ _ l).trans ?_
    rw [add2_lt x0 x1 ⟨5, hb⟩ l (Nat.lt_of_sub_eq_succ rfl)]
    refine congrArg₂ (· + ·) ?_ (Finset.sum_congr rfl fun r _ => ?_)
    · rw [harg9.read_unread]; exact ldRow_apply xs2 5 hb _ l
    · refine (congrArg (fun q => Scalar.select (IntOp.cmpi .eq (Cert.Spec.key (k0_pay8 (F := Ideal) x0 (ix2 r l))) (BitVec.ofNat 32 5)) q (FloatOps.ofBits (F := Ideal) .f32 0x00000000#32)) (pay9_apply x1 (ix2 r l))).trans ?_
      exact congrArg (fun p => kacc (BitVec.ofNat 32 5) p (x1 (ix2 r l))) (congrFun (pay8_eq x0) (ix2 r l))
  · -- row 6
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_mem _ _ _ _ _ (ix2 (⟨6, hb⟩ : Fin 16) l) (ix2 (0 : Fin 1) l) rfl rfl rfl).trans ?_
    refine (rowUpd_apply _ _ _ _ _ _ _ l).trans ?_
    rw [add2_lt x0 x1 ⟨6, hb⟩ l (Nat.lt_of_sub_eq_succ rfl)]
    refine congrArg₂ (· + ·) ?_ (Finset.sum_congr rfl fun r _ => ?_)
    · rw [harg9.read_unread]; exact ldRow_apply xs2 6 hb _ l
    · refine (congrArg (fun q => Scalar.select (IntOp.cmpi .eq (Cert.Spec.key (k0_pay8 (F := Ideal) x0 (ix2 r l))) (BitVec.ofNat 32 6)) q (FloatOps.ofBits (F := Ideal) .f32 0x00000000#32)) (pay9_apply x1 (ix2 r l))).trans ?_
      exact congrArg (fun p => kacc (BitVec.ofNat 32 6) p (x1 (ix2 r l))) (congrFun (pay8_eq x0) (ix2 r l))
  · -- row 7
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_mem _ _ _ _ _ (ix2 (⟨7, hb⟩ : Fin 16) l) (ix2 (0 : Fin 1) l) rfl rfl rfl).trans ?_
    refine (rowUpd_apply _ _ _ _ _ _ _ l).trans ?_
    rw [add2_lt x0 x1 ⟨7, hb⟩ l (Nat.lt_of_sub_eq_succ rfl)]
    refine congrArg₂ (· + ·) ?_ (Finset.sum_congr rfl fun r _ => ?_)
    · rw [harg9.read_unread]; exact ldRow_apply xs2 7 hb _ l
    · refine (congrArg (fun q => Scalar.select (IntOp.cmpi .eq (Cert.Spec.key (k0_pay8 (F := Ideal) x0 (ix2 r l))) (BitVec.ofNat 32 7)) q (FloatOps.ofBits (F := Ideal) .f32 0x00000000#32)) (pay9_apply x1 (ix2 r l))).trans ?_
      exact congrArg (fun p => kacc (BitVec.ofNat 32 7) p (x1 (ix2 r l))) (congrFun (pay8_eq x0) (ix2 r l))
  · -- row 8
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_mem _ _ _ _ _ (ix2 (⟨8, hb⟩ : Fin 16) l) (ix2 (0 : Fin 1) l) rfl rfl rfl).trans ?_
    refine (rowUpd_apply _ _ _ _ _ _ _ l).trans ?_
    rw [add2_lt x0 x1 ⟨8, hb⟩ l (Nat.lt_of_sub_eq_succ rfl)]
    refine congrArg₂ (· + ·) ?_ (Finset.sum_congr rfl fun r _ => ?_)
    · rw [harg9.read_unread]; exact ldRow_apply xs2 8 hb _ l
    · refine (congrArg (fun q => Scalar.select (IntOp.cmpi .eq (Cert.Spec.key (k0_pay8 (F := Ideal) x0 (ix2 r l))) (BitVec.ofNat 32 8)) q (FloatOps.ofBits (F := Ideal) .f32 0x00000000#32)) (pay9_apply x1 (ix2 r l))).trans ?_
      exact congrArg (fun p => kacc (BitVec.ofNat 32 8) p (x1 (ix2 r l))) (congrFun (pay8_eq x0) (ix2 r l))
  · -- row 9
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_mem _ _ _ _ _ (ix2 (⟨9, hb⟩ : Fin 16) l) (ix2 (0 : Fin 1) l) rfl rfl rfl).trans ?_
    refine (rowUpd_apply _ _ _ _ _ _ _ l).trans ?_
    rw [add2_lt x0 x1 ⟨9, hb⟩ l (Nat.lt_of_sub_eq_succ rfl)]
    refine congrArg₂ (· + ·) ?_ (Finset.sum_congr rfl fun r _ => ?_)
    · rw [harg9.read_unread]; exact ldRow_apply xs2 9 hb _ l
    · refine (congrArg (fun q => Scalar.select (IntOp.cmpi .eq (Cert.Spec.key (k0_pay8 (F := Ideal) x0 (ix2 r l))) (BitVec.ofNat 32 9)) q (FloatOps.ofBits (F := Ideal) .f32 0x00000000#32)) (pay9_apply x1 (ix2 r l))).trans ?_
      exact congrArg (fun p => kacc (BitVec.ofNat 32 9) p (x1 (ix2 r l))) (congrFun (pay8_eq x0) (ix2 r l))
  · -- row 10
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_mem _ _ _ _ _ (ix2 (⟨10, hb⟩ : Fin 16) l) (ix2 (0 : Fin 1) l) rfl rfl rfl).trans ?_
    refine (rowUpd_apply _ _ _ _ _ _ _ l).trans ?_
    rw [add2_lt x0 x1 ⟨10, hb⟩ l (Nat.lt_of_sub_eq_succ rfl)]
    refine congrArg₂ (· + ·) ?_ (Finset.sum_congr rfl fun r _ => ?_)
    · rw [harg9.read_unread]; exact ldRow_apply xs2 10 hb _ l
    · refine (congrArg (fun q => Scalar.select (IntOp.cmpi .eq (Cert.Spec.key (k0_pay8 (F := Ideal) x0 (ix2 r l))) (BitVec.ofNat 32 10)) q (FloatOps.ofBits (F := Ideal) .f32 0x00000000#32)) (pay9_apply x1 (ix2 r l))).trans ?_
      exact congrArg (fun p => kacc (BitVec.ofNat 32 10) p (x1 (ix2 r l))) (congrFun (pay8_eq x0) (ix2 r l))
  · -- row 11
    refine (View.read_writes_cons_rows_of_not_mem _ _ _ _ _ (ix2 (⟨11, hb⟩ : Fin 16) l) rfl rfl (Or.inl (Nat.lt_of_sub_eq_succ rfl))).trans ?_
    refine (View.read_writes_cons_rows_of_not_mem _ _ _ _ _ (ix2 (⟨11, hb⟩ : Fin 16) l) rfl rfl (Or.inl (Nat.lt_of_sub_eq_succ rfl))).trans ?_
    refine (View.read_writes_cons_rows_of_not_mem _ _ _ _ _ (ix2 (⟨11, hb⟩ : Fin 16) l) rfl rfl (Or.inl (Nat.lt_of_sub_eq_succ rfl))).trans ?_
    refine (View.read_writes_cons_rows_of_mem _ _ _ _ _ (ix2 (⟨11, hb⟩ : Fin 16) l) (ix2 (0 : Fin 1) l) rfl rfl rfl).trans ?_
    refine (rowUpd_apply _ _ _ _ _ _ _ l).trans ?_
    rw [add2_lt x0 x1 ⟨11, hb⟩ l (Nat.lt_of_sub_eq_succ rfl)]
    refine congrArg₂ (· + ·) ?_ (Finset.sum_congr rfl fun r _ => ?_)
    · rw [harg9.read_unread]; exact ldRow_apply xs2 11 hb _ l
    · refine (congrArg (fun q => Scalar.select (IntOp.cmpi .eq (Cert.Spec.key (k0_pay8 (F := Ideal) x0 (ix2 r l))) (BitVec.ofNat 32 11)) q (FloatOps.ofBits (F := Ideal) .f32 0x00000000#32)) (pay9_apply x1 (ix2 r l))).trans ?_
      exact congrArg (fun p => kacc (BitVec.ofNat 32 11) p (x1 (ix2 r l))) (congrFun (pay8_eq x0) (ix2 r l))
  · -- row 12
    refine (View.read_writes_cons_rows_of_not_mem _ _ _ _ _ (ix2 (⟨12, hb⟩ : Fin 16) l) rfl rfl (Or.inl (Nat.lt_of_sub_eq_succ rfl))).trans ?_
    refine (View.read_writes_cons_rows_of_not_mem _ _ _ _ _ (ix2 (⟨12, hb⟩ : Fin 16) l) rfl rfl (Or.inl (Nat.lt_of_sub_eq_succ rfl))).trans ?_
    refine (View.read_writes_cons_rows_of_mem _ _ _ _ _ (ix2 (⟨12, hb⟩ : Fin 16) l) (ix2 (0 : Fin 1) l) rfl rfl rfl).trans ?_
    refine (rowUpd_apply _ _ _ _ _ _ _ l).trans ?_
    rw [add2_lt x0 x1 ⟨12, hb⟩ l (Nat.lt_of_sub_eq_succ rfl)]
    refine congrArg₂ (· + ·) ?_ (Finset.sum_congr rfl fun r _ => ?_)
    · rw [harg9.read_unread]; exact ldRow_apply xs2 12 hb _ l
    · refine (congrArg (fun q => Scalar.select (IntOp.cmpi .eq (Cert.Spec.key (k0_pay8 (F := Ideal) x0 (ix2 r l))) (BitVec.ofNat 32 12)) q (FloatOps.ofBits (F := Ideal) .f32 0x00000000#32)) (pay9_apply x1 (ix2 r l))).trans ?_
      exact congrArg (fun p => kacc (BitVec.ofNat 32 12) p (x1 (ix2 r l))) (congrFun (pay8_eq x0) (ix2 r l))
  · -- row 13
    refine (View.read_writes_cons_rows_of_not_mem _ _ _ _ _ (ix2 (⟨13, hb⟩ : Fin 16) l) rfl rfl (Or.inl (Nat.lt_of_sub_eq_succ rfl))).trans ?_
    refine (View.read_writes_cons_rows_of_mem _ _ _ _ _ (ix2 (⟨13, hb⟩ : Fin 16) l) (ix2 (0 : Fin 1) l) rfl rfl rfl).trans ?_
    refine (rowUpd_apply _ _ _ _ _ _ _ l).trans ?_
    rw [add2_lt x0 x1 ⟨13, hb⟩ l (Nat.lt_of_sub_eq_succ rfl)]
    refine congrArg₂ (· + ·) ?_ (Finset.sum_congr rfl fun r _ => ?_)
    · rw [harg9.read_unread]; exact ldRow_apply xs2 13 hb _ l
    · refine (congrArg (fun q => Scalar.select (IntOp.cmpi .eq (Cert.Spec.key (k0_pay8 (F := Ideal) x0 (ix2 r l))) (BitVec.ofNat 32 13)) q (FloatOps.ofBits (F := Ideal) .f32 0x00000000#32)) (pay9_apply x1 (ix2 r l))).trans ?_
      exact congrArg (fun p => kacc (BitVec.ofNat 32 13) p (x1 (ix2 r l))) (congrFun (pay8_eq x0) (ix2 r l))
  · -- row 14
    refine (View.read_writes_cons_rows_of_mem _ _ _ _ _ (ix2 (⟨14, hb⟩ : Fin 16) l) (ix2 (0 : Fin 1) l) rfl rfl rfl).trans ?_
    refine (rowUpd_apply _ _ _ _ _ _ _ l).trans ?_
    rw [add2_lt x0 x1 ⟨14, hb⟩ l (Nat.lt_of_sub_eq_succ rfl)]
    refine congrArg₂ (· + ·) ?_ (Finset.sum_congr rfl fun r _ => ?_)
    · rw [harg9.read_unread]; exact ldRow_apply xs2 14 hb _ l
    · refine (congrArg (fun q => Scalar.select (IntOp.cmpi .eq (Cert.Spec.key (k0_pay8 (F := Ideal) x0 (ix2 r l))) (BitVec.ofNat 32 14)) q (FloatOps.ofBits (F := Ideal) .f32 0x00000000#32)) (pay9_apply x1 (ix2 r l))).trans ?_
      exact congrArg (fun p => kacc (BitVec.ofNat 32 14) p (x1 (ix2 r l))) (congrFun (pay8_eq x0) (ix2 r l))
  · -- row 15
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    rw [add2_top x0 x1 ⟨15, hb⟩ l (Nat.lt_irrefl _), add_zero]
    show View.read (Elt Ideal) arg9.view (harg9.unread xs2) _ = _
    rw [harg9.read_unread]

end Cert.KernelIdeal.ScratchB2

end
-- ==== Proof.ScratchC0.lean ====
/-
  The body's stores into accumulator 0 at a grid point of case C (the last point of its core), read back
  entry by entry. The body stores fifteen single rows, row 14 last; each row's payload is the row as the point before
  left it plus the lane sums of this point's block for that row's bin; row 15 is never stored. So entry (row, lane)
  ends at its earlier value plus what the block adds, which is nothing on row 15.
-/
import proofs.«114207_j16947940950786_2_alg».proof.Proof.Gen.KernelIdeal.Frame
import proofs.«114207_j16947940950786_2_alg».proof.Proof.KernelTerms
import Idealize.ShloMosaic.Lib.Pipeline.Value
import Idealize.ShloMosaic.Lib.WritesUnit
import Idealize.ShloMosaic.Lib.Tactic

set_option maxRecDepth 16384

noncomputable section

namespace Cert.KernelIdeal.ScratchC0

open Idealize.ShloMosaic Idealize.ShloMosaic.TcCoe Idealize.ShloMosaic.ValueIdx Idealize.SL.Sem
open Cert.KernelIdeal Cert.KernelIdeal.Gen Cert.KernelIdeal.RowUpdate Cert.KernelIdeal.KernelTerms Cert.KTerms

theorem hz2 : (![0, 0] : Fin 2 → Nat) = fun _ => 0 := funext fun a => by fin_cases a <;> rfl

/-- Case C, accumulator 0: after the point, entry (row, lane) is what the point before left there plus what this
    point's block adds. -/
theorem soutC0_apply (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S4096x128 .f32) (x1 : Vec Ideal S4096x128 .i32) (xs0 xs1 xs2 : Vec Ideal S16x128 .f32)
    (b : Fin 16) (l : Fin 128) :
    sout0_C_0 (F := Ideal) c i arg2 harg2 arg3 harg3 arg4 harg4 arg5 harg5 arg6 harg6 arg7 harg7 arg8 harg8 arg9 harg9 hc0 hc1 x0 x1 xs0 xs1 xs2 (ix2 b l) = xs0 (ix2 b l) + add0 x0 b l := by
  unfold sout0_C_0
  unfold kernelRun0_C
  dsimp only
  sl_unfold_words
  simp only [View.readAt_eq_ld, harg2.read_unread, harg3.read_unread, View.ld_unit_zero (S := S4096x128) hz2]
  obtain ⟨b, hb⟩ := b
  interval_cases b
  · -- row 0
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_mem _ _ _ _ _ (ix2 (⟨0, hb⟩ : Fin 16) l) (ix2 (0 : Fin 1) l) rfl rfl rfl).trans ?_
    refine (rowUpd_apply _ _ _ _ _ _ _ l).trans ?_
    rw [add0_lt x0 ⟨0, hb⟩ l (Nat.lt_of_sub_eq_succ rfl)]
    refine congrArg₂ (· + ·) ?_ (Finset.sum_congr rfl fun r _ => ?_)
    · rw [harg7.read_unread]; exact ldRow_apply xs0 0 hb _ l
    · exact congrArg (kcnt (BitVec.ofNat 32 0)) (congrFun (pay8_eq x0) (ix2 r l))
  · -- row 1
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_mem _ _ _ _ _ (ix2 (⟨1, hb⟩ : Fin 16) l) (ix2 (0 : Fin 1) l) rfl rfl rfl).trans ?_
    refine (rowUpd_apply _ _ _ _ _ _ _ l).trans ?_
    rw [add0_lt x0 ⟨1, hb⟩ l (Nat.lt_of_sub_eq_succ rfl)]
    refine congrArg₂ (· + ·) ?_ (Finset.sum_congr rfl fun r _ => ?_)
    · rw [harg7.read_unread]; exact ldRow_apply xs0 1 hb _ l
    · exact congrArg (kcnt (BitVec.ofNat 32 1)) (congrFun (pay8_eq x0) (ix2 r l))
  · -- row 2
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_mem _ _ _ _ _ (ix2 (⟨2, hb⟩ : Fin 16) l) (ix2 (0 : Fin 1) l) rfl rfl rfl).trans ?_
    refine (rowUpd_apply _ _ _ _ _ _ _ l).trans ?_
    rw [add0_lt x0 ⟨2, hb⟩ l (Nat.lt_of_sub_eq_succ rfl)]
    refine congrArg₂ (· + ·) ?_ (Finset.sum_congr rfl fun r _ => ?_)
    · rw [harg7.read_unread]; exact ldRow_apply xs0 2 hb _ l
    · exact congrArg (kcnt (BitVec.ofNat 32 2)) (congrFun (pay8_eq x0) (ix2 r l))
  · -- row 3
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_mem _ _ _ _ _ (ix2 (⟨3, hb⟩ : Fin 16) l) (ix2 (0 : Fin 1) l) rfl rfl rfl).trans ?_
    refine (rowUpd_apply _ _ _ _ _ _ _ l).trans ?_
    rw [add0_lt x0 ⟨3, hb⟩ l (Nat.lt_of_sub_eq_succ rfl)]
    refine congrArg₂ (· + ·) ?_ (Finset.sum_congr rfl fun r _ => ?_)
    · rw [harg7.read_unread]; exact ldRow_apply xs0 3 hb _ l
    · exact congrArg (kcnt (BitVec.ofNat 32 3)) (congrFun (pay8_eq x0) (ix2 r l))
  · -- row 4
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_mem _ _ _ _ _ (ix2 (⟨4, hb⟩ : Fin 16) l) (ix2 (0 : Fin 1) l) rfl rfl rfl).trans ?_
    refine (rowUpd_apply _ _ _ _ _ _ _ l).trans ?_
    rw [add0_lt x0 ⟨4, hb⟩ l (Nat.lt_of_sub_eq_succ rfl)]
    refine congrArg₂ (· + ·) ?_ (Finset.sum_congr rfl fun r _ => ?_)
    · rw [harg7.read_unread]; exact ldRow_apply xs0 4 hb _ l
    · exact congrArg (kcnt (BitVec.ofNat 32 4)) (congrFun (pay8_eq x0) (ix2 r l))
  · -- row 5
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_mem _ _ _ _ _ (ix2 (⟨5, hb⟩ : Fin 16) l) (ix2 (0 : Fin 1) l) rfl rfl rfl).trans ?_
    refine (rowUpd_apply _ _ _ _ _ _ _ l).trans ?_
    rw [add0_lt x0 ⟨5, hb⟩ l (Nat.lt_of_sub_eq_succ rfl)]
    refine congrArg₂ (· + ·) ?_ (Finset.sum_congr rfl fun r _ => ?_)
    · rw [harg7.read_unread]; exact ldRow_apply xs0 5 hb _ l
    · exact congrArg (kcnt (BitVec.ofNat 32 5)) (congrFun (pay8_eq x0) (ix2 r l))
  · -- row 6
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_mem _ _ _ _ _ (ix2 (⟨6, hb⟩ : Fin 16) l) (ix2 (0 : Fin 1) l) rfl rfl rfl).trans ?_
    refine (rowUpd_apply _ _ _ _ _ _ _ l).trans ?_
    rw [add0_lt x0 ⟨6, hb⟩ l (Nat.lt_of_sub_eq_succ rfl)]
    refine congrArg₂ (· + ·) ?_ (Finset.sum_congr rfl fun r _ => ?_)
    · rw [harg7.read_unread]; exact ldRow_apply xs0 6 hb _ l
    · exact congrArg (kcnt (BitVec.ofNat 32 6)) (congrFun (pay8_eq x0) (ix2 r l))
  · -- row 7
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_mem _ _ _ _ _ (ix2 (⟨7, hb⟩ : Fin 16) l) (ix2 (0 : Fin 1) l) rfl rfl rfl).trans ?_
    refine (rowUpd_apply _ _ _ _ _ _ _ l).trans ?_
    rw [add0_lt x0 ⟨7, hb⟩ l (Nat.lt_of_sub_eq_succ rfl)]
    refine congrArg₂ (· + ·) ?_ (Finset.sum_congr rfl fun r _ => ?_)
    · rw [harg7.read_unread]; exact ldRow_apply xs0 7 hb _ l
    · exact congrArg (kcnt (BitVec.ofNat 32 7)) (congrFun (pay8_eq x0) (ix2 r l))
  · -- row 8
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_mem _ _ _ _ _ (ix2 (⟨8, hb⟩ : Fin 16) l) (ix2 (0 : Fin 1) l) rfl rfl rfl).trans ?_
    refine (rowUpd_apply _ _ _ _ _ _ _ l).trans ?_
    rw [add0_lt x0 ⟨8, hb⟩ l (Nat.lt_of_sub_eq_succ rfl)]
    refine congrArg₂ (· + ·) ?_ (Finset.sum_congr rfl fun r _ => ?_)
    · rw [harg7.read_unread]; exact ldRow_apply xs0 8 hb _ l
    · exact congrArg (kcnt (BitVec.ofNat 32 8)) (congrFun (pay8_eq x0) (ix2 r l))
  · -- row 9
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_mem _ _ _ _ _ (ix2 (⟨9, hb⟩ : Fin 16) l) (ix2 (0 : Fin 1) l) rfl rfl rfl).trans ?_
    refine (rowUpd_apply _ _ _ _ _ _ _ l).trans ?_
    rw [add0_lt x0 ⟨9, hb⟩ l (Nat.lt_of_sub_eq_succ rfl)]
    refine congrArg₂ (· + ·) ?_ (Finset.sum_congr rfl fun r _ => ?_)
    · rw [harg7.read_unread]; exact ldRow_apply xs0 9 hb _ l
    · exact congrArg (kcnt (BitVec.ofNat 32 9)) (congrFun (pay8_eq x0) (ix2 r l))
  · -- row 10
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_mem _ _ _ _ _ (ix2 (⟨10, hb⟩ : Fin 16) l) (ix2 (0 : Fin 1) l) rfl rfl rfl).trans ?_
    refine (rowUpd_apply _ _ _ _ _ _ _ l).trans ?_
    rw [add0_lt x0 ⟨10, hb⟩ l (Nat.lt_of_sub_eq_succ rfl)]
    refine congrArg₂ (· + ·) ?_ (Finset.sum_congr rfl fun r _ => ?_)
    · rw [harg7.read_unread]; exact ldRow_apply xs0 10 hb _ l
    · exact congrArg (kcnt (BitVec.ofNat 32 10)) (congrFun (pay8_eq x0) (ix2 r l))
  · -- row 11
    refine (View.read_writes_cons_rows_of_not_mem _ _ _ _ _ (ix2 (⟨11, hb⟩ : Fin 16) l) rfl rfl (Or.inl (Nat.lt_of_sub_eq_succ rfl))).trans ?_
    refine (View.read_writes_cons_rows_of_not_mem _ _ _ _ _ (ix2 (⟨11, hb⟩ : Fin 16) l) rfl rfl (Or.inl (Nat.lt_of_sub_eq_succ rfl))).trans ?_
    refine (View.read_writes_cons_rows_of_not_mem _ _ _ _ _ (ix2 (⟨11, hb⟩ : Fin 16) l) rfl rfl (Or.inl (Nat.lt_of_sub_eq_succ rfl))).trans ?_
    refine (View.read_writes_cons_rows_of_mem _ _ _ _ _ (ix2 (⟨11, hb⟩ : Fin 16) l) (ix2 (0 : Fin 1) l) rfl rfl rfl).trans ?_
    refine (rowUpd_apply _ _ _ _ _ _ _ l).trans ?_
    rw [add0_lt x0 ⟨11, hb⟩ l (Nat.lt_of_sub_eq_succ rfl)]
    refine congrArg₂ (· + ·) ?_ (Finset.sum_congr rfl fun r _ => ?_)
    · rw [harg7.read_unread]; exact ldRow_apply xs0 11 hb _ l
    · exact congrArg (kcnt (BitVec.ofNat 32 11)) (congrFun (pay8_eq x0) (ix2 r l))
  · -- row 12
    refine (View.read_writes_cons_rows_of_not_mem _ _ _ _ _ (ix2 (⟨12, hb⟩ : Fin 16) l) rfl rfl (Or.inl (Nat.lt_of_sub_eq_succ rfl))).trans ?_
    refine (View.read_writes_cons_rows_of_not_mem _ _ _ _ _ (ix2 (⟨12, hb⟩ : Fin 16) l) rfl rfl (Or.inl (Nat.lt_of_sub_eq_succ rfl))).trans ?_
    refine (View.read_writes_cons_rows_of_mem _ _ _ _ _ (ix2 (⟨12, hb⟩ : Fin 16) l) (ix2 (0 : Fin 1) l) rfl rfl rfl).trans ?_
    refine (rowUpd_apply _ _ _ _ _ _ _ l).trans ?_
    rw [add0_lt x0 ⟨12, hb⟩ l (Nat.lt_of_sub_eq_succ rfl)]
    refine congrArg₂ (· + ·) ?_ (Finset.sum_congr rfl fun r _ => ?_)
    · rw [harg7.read_unread]; exact ldRow_apply xs0 12 hb _ l
    · exact congrArg (kcnt (BitVec.ofNat 32 12)) (congrFun (pay8_eq x0) (ix2 r l))
  · -- row 13
    refine (View.read_writes_cons_rows_of_not_mem _ _ _ _ _ (ix2 (⟨13, hb⟩ : Fin 16) l) rfl rfl (Or.inl (Nat.lt_of_sub_eq_succ rfl))).trans ?_
    refine (View.read_writes_cons_rows_of_mem _ _ _ _ _ (ix2 (⟨13, hb⟩ : Fin 16) l) (ix2 (0 : Fin 1) l) rfl rfl rfl).trans ?_
    refine (rowUpd_apply _ _ _ _ _ _ _ l).trans ?_
    rw [add0_lt x0 ⟨13, hb⟩ l (Nat.lt_of_sub_eq_succ rfl)]
    refine congrArg₂ (· + ·) ?_ (Finset.sum_congr rfl fun r _ => ?_)
    · rw [harg7.read_unread]; exact ldRow_apply xs0 13 hb _ l
    · exact congrArg (kcnt (BitVec.ofNat 32 13)) (congrFun (pay8_eq x0) (ix2 r l))
  · -- row 14
    refine (View.read_writes_cons_rows_of_mem _ _ _ _ _ (ix2 (⟨14, hb⟩ : Fin 16) l) (ix2 (0 : Fin 1) l) rfl rfl rfl).trans ?_
    refine (rowUpd_apply _ _ _ _ _ _ _ l).trans ?_
    rw [add0_lt x0 ⟨14, hb⟩ l (Nat.lt_of_sub_eq_succ rfl)]
    refine congrArg₂ (· + ·) ?_ (Finset.sum_congr rfl fun r _ => ?_)
    · rw [harg7.read_unread]; exact ldRow_apply xs0 14 hb _ l
    · exact congrArg (kcnt (BitVec.ofNat 32 14)) (congrFun (pay8_eq x0) (ix2 r l))
  · -- row 15
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    rw [add0_top x0 ⟨15, hb⟩ l (Nat.lt_irrefl _), add_zero]
    show View.read (Elt Ideal) arg7.view (harg7.unread xs0) _ = _
    rw [harg7.read_unread]

end Cert.KernelIdeal.ScratchC0

end
-- ==== Proof.ScratchC1.lean ====
/-
  The body's stores into accumulator 1 at a grid point of case C (the last point of its core), read back
  entry by entry. The body stores fifteen single rows, row 14 last; each row's payload is the row as the point before
  left it plus the lane sums of this point's block for that row's bin; row 15 is never stored. So entry (row, lane)
  ends at its earlier value plus what the block adds, which is nothing on row 15.
-/
import proofs.«114207_j16947940950786_2_alg».proof.Proof.Gen.KernelIdeal.Frame
import proofs.«114207_j16947940950786_2_alg».proof.Proof.KernelTerms
import Idealize.ShloMosaic.Lib.Pipeline.Value
import Idealize.ShloMosaic.Lib.WritesUnit
import Idealize.ShloMosaic.Lib.Tactic

set_option maxRecDepth 16384

noncomputable section

namespace Cert.KernelIdeal.ScratchC1

open Idealize.ShloMosaic Idealize.ShloMosaic.TcCoe Idealize.ShloMosaic.ValueIdx Idealize.SL.Sem
open Cert.KernelIdeal Cert.KernelIdeal.Gen Cert.KernelIdeal.RowUpdate Cert.KernelIdeal.KernelTerms Cert.KTerms

theorem hz2 : (![0, 0] : Fin 2 → Nat) = fun _ => 0 := funext fun a => by fin_cases a <;> rfl

/-- Case C, accumulator 1: after the point, entry (row, lane) is what the point before left there plus what this
    point's block adds. -/
theorem soutC1_apply (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S4096x128 .f32) (x1 : Vec Ideal S4096x128 .i32) (xs0 xs1 xs2 : Vec Ideal S16x128 .f32)
    (b : Fin 16) (l : Fin 128) :
    sout0_C_1 (F := Ideal) c i arg2 harg2 arg3 harg3 arg4 harg4 arg5 harg5 arg6 harg6 arg7 harg7 arg8 harg8 arg9 harg9 hc0 hc1 x0 x1 xs0 xs1 xs2 (ix2 b l) = xs1 (ix2 b l) + add1 x0 b l := by
  unfold sout0_C_1
  unfold kernelRun0_C
  dsimp only
  sl_unfold_words
  simp only [View.readAt_eq_ld, harg2.read_unread, harg3.read_unread, View.ld_unit_zero (S := S4096x128) hz2]
  obtain ⟨b, hb⟩ := b
  interval_cases b
  · -- row 0
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_mem _ _ _ _ _ (ix2 (⟨0, hb⟩ : Fin 16) l) (ix2 (0 : Fin 1) l) rfl rfl rfl).trans ?_
    refine (rowUpd_apply _ _ _ _ _ _ _ l).trans ?_
    rw [add1_lt x0 ⟨0, hb⟩ l (Nat.lt_of_sub_eq_succ rfl)]
    refine congrArg₂ (· + ·) ?_ (Finset.sum_congr rfl fun r _ => ?_)
    · rw [harg8.read_unread]; exact ldRow_apply xs1 0 hb _ l
    · exact congrArg (kconf (BitVec.ofNat 32 0)) (congrFun (pay8_eq x0) (ix2 r l))
  · -- row 1
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_mem _ _ _ _ _ (ix2 (⟨1, hb⟩ : Fin 16) l) (ix2 (0 : Fin 1) l) rfl rfl rfl).trans ?_
    refine (rowUpd_apply _ _ _ _ _ _ _ l).trans ?_
    rw [add1_lt x0 ⟨1, hb⟩ l (Nat.lt_of_sub_eq_succ rfl)]
    refine congrArg₂ (· + ·) ?_ (Finset.sum_congr rfl fun r _ => ?_)
    · rw [harg8.read_unread]; exact ldRow_apply xs1 1 hb _ l
    · exact congrArg (kconf (BitVec.ofNat 32 1)) (congrFun (pay8_eq x0) (ix2 r l))
  · -- row 2
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_mem _ _ _ _ _ (ix2 (⟨2, hb⟩ : Fin 16) l) (ix2 (0 : Fin 1) l) rfl rfl rfl).trans ?_
    refine (rowUpd_apply _ _ _ _ _ _ _ l).trans ?_
    rw [add1_lt x0 ⟨2, hb⟩ l (Nat.lt_of_sub_eq_succ rfl)]
    refine congrArg₂ (· + ·) ?_ (Finset.sum_congr rfl fun r _ => ?_)
    · rw [harg8.read_unread]; exact ldRow_apply xs1 2 hb _ l
    · exact congrArg (kconf (BitVec.ofNat 32 2)) (congrFun (pay8_eq x0) (ix2 r l))
  · -- row 3
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_mem _ _ _ _ _ (ix2 (⟨3, hb⟩ : Fin 16) l) (ix2 (0 : Fin 1) l) rfl rfl rfl).trans ?_
    refine (rowUpd_apply _ _ _ _ _ _ _ l).trans ?_
    rw [add1_lt x0 ⟨3, hb⟩ l (Nat.lt_of_sub_eq_succ rfl)]
    refine congrArg₂ (· + ·) ?_ (Finset.sum_congr rfl fun r _ => ?_)
    · rw [harg8.read_unread]; exact ldRow_apply xs1 3 hb _ l
    · exact congrArg (kconf (BitVec.ofNat 32 3)) (congrFun (pay8_eq x0) (ix2 r l))
  · -- row 4
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_mem _ _ _ _ _ (ix2 (⟨4, hb⟩ : Fin 16) l) (ix2 (0 : Fin 1) l) rfl rfl rfl).trans ?_
    refine (rowUpd_apply _ _ _ _ _ _ _ l).trans ?_
    rw [add1_lt x0 ⟨4, hb⟩ l (Nat.lt_of_sub_eq_succ rfl)]
    refine congrArg₂ (· + ·) ?_ (Finset.sum_congr rfl fun r _ => ?_)
    · rw [harg8.read_unread]; exact ldRow_apply xs1 4 hb _ l
    · exact congrArg (kconf (BitVec.ofNat 32 4)) (congrFun (pay8_eq x0) (ix2 r l))
  · -- row 5
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_mem _ _ _ _ _ (ix2 (⟨5, hb⟩ : Fin 16) l) (ix2 (0 : Fin 1) l) rfl rfl rfl).trans ?_
    refine (rowUpd_apply _ _ _ _ _ _ _ l).trans ?_
    rw [add1_lt x0 ⟨5, hb⟩ l (Nat.lt_of_sub_eq_succ rfl)]
    refine congrArg₂ (· + ·) ?_ (Finset.sum_congr rfl fun r _ => ?_)
    · rw [harg8.read_unread]; exact ldRow_apply xs1 5 hb _ l
    · exact congrArg (kconf (BitVec.ofNat 32 5)) (congrFun (pay8_eq x0) (ix2 r l))
  · -- row 6
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_mem _ _ _ _ _ (ix2 (⟨6, hb⟩ : Fin 16) l) (ix2 (0 : Fin 1) l) rfl rfl rfl).trans ?_
    refine (rowUpd_apply _ _ _ _ _ _ _ l).trans ?_
    rw [add1_lt x0 ⟨6, hb⟩ l (Nat.lt_of_sub_eq_succ rfl)]
    refine congrArg₂ (· + ·) ?_ (Finset.sum_congr rfl fun r _ => ?_)
    · rw [harg8.read_unread]; exact ldRow_apply xs1 6 hb _ l
    · exact congrArg (kconf (BitVec.ofNat 32 6)) (congrFun (pay8_eq x0) (ix2 r l))
  · -- row 7
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_mem _ _ _ _ _ (ix2 (⟨7, hb⟩ : Fin 16) l) (ix2 (0 : Fin 1) l) rfl rfl rfl).trans ?_
    refine (rowUpd_apply _ _ _ _ _ _ _ l).trans ?_
    rw [add1_lt x0 ⟨7, hb⟩ l (Nat.lt_of_sub_eq_succ rfl)]
    refine congrArg₂ (· + ·) ?_ (Finset.sum_congr rfl fun r _ => ?_)
    · rw [harg8.read_unread]; exact ldRow_apply xs1 7 hb _ l
    · exact congrArg (kconf (BitVec.ofNat 32 7)) (congrFun (pay8_eq x0) (ix2 r l))
  · -- row 8
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_mem _ _ _ _ _ (ix2 (⟨8, hb⟩ : Fin 16) l) (ix2 (0 : Fin 1) l) rfl rfl rfl).trans ?_
    refine (rowUpd_apply _ _ _ _ _ _ _ l).trans ?_
    rw [add1_lt x0 ⟨8, hb⟩ l (Nat.lt_of_sub_eq_succ rfl)]
    refine congrArg₂ (· + ·) ?_ (Finset.sum_congr rfl fun r _ => ?_)
    · rw [harg8.read_unread]; exact ldRow_apply xs1 8 hb _ l
    · exact congrArg (kconf (BitVec.ofNat 32 8)) (congrFun (pay8_eq x0) (ix2 r l))
  · -- row 9
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_mem _ _ _ _ _ (ix2 (⟨9, hb⟩ : Fin 16) l) (ix2 (0 : Fin 1) l) rfl rfl rfl).trans ?_
    refine (rowUpd_apply _ _ _ _ _ _ _ l).trans ?_
    rw [add1_lt x0 ⟨9, hb⟩ l (Nat.lt_of_sub_eq_succ rfl)]
    refine congrArg₂ (· + ·) ?_ (Finset.sum_congr rfl fun r _ => ?_)
    · rw [harg8.read_unread]; exact ldRow_apply xs1 9 hb _ l
    · exact congrArg (kconf (BitVec.ofNat 32 9)) (congrFun (pay8_eq x0) (ix2 r l))
  · -- row 10
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_mem _ _ _ _ _ (ix2 (⟨10, hb⟩ : Fin 16) l) (ix2 (0 : Fin 1) l) rfl rfl rfl).trans ?_
    refine (rowUpd_apply _ _ _ _ _ _ _ l).trans ?_
    rw [add1_lt x0 ⟨10, hb⟩ l (Nat.lt_of_sub_eq_succ rfl)]
    refine congrArg₂ (· + ·) ?_ (Finset.sum_congr rfl fun r _ => ?_)
    · rw [harg8.read_unread]; exact ldRow_apply xs1 10 hb _ l
    · exact congrArg (kconf (BitVec.ofNat 32 10)) (congrFun (pay8_eq x0) (ix2 r l))
  · -- row 11
    refine (View.read_writes_cons_rows_of_not_mem _ _ _ _ _ (ix2 (⟨11, hb⟩ : Fin 16) l) rfl rfl (Or.inl (Nat.lt_of_sub_eq_succ rfl))).trans ?_
    refine (View.read_writes_cons_rows_of_not_mem _ _ _ _ _ (ix2 (⟨11, hb⟩ : Fin 16) l) rfl rfl (Or.inl (Nat.lt_of_sub_eq_succ rfl))).trans ?_
    refine (View.read_writes_cons_rows_of_not_mem _ _ _ _ _ (ix2 (⟨11, hb⟩ : Fin 16) l) rfl rfl (Or.inl (Nat.lt_of_sub_eq_succ rfl))).trans ?_
    refine (View.read_writes_cons_rows_of_mem _ _ _ _ _ (ix2 (⟨11, hb⟩ : Fin 16) l) (ix2 (0 : Fin 1) l) rfl rfl rfl).trans ?_
    refine (rowUpd_apply _ _ _ _ _ _ _ l).trans ?_
    rw [add1_lt x0 ⟨11, hb⟩ l (Nat.lt_of_sub_eq_succ rfl)]
    refine congrArg₂ (· + ·) ?_ (Finset.sum_congr rfl fun r _ => ?_)
    · rw [harg8.read_unread]; exact ldRow_apply xs1 11 hb _ l
    · exact congrArg (kconf (BitVec.ofNat 32 11)) (congrFun (pay8_eq x0) (ix2 r l))
  · -- row 12
    refine (View.read_writes_cons_rows_of_not_mem _ _ _ _ _ (ix2 (⟨12, hb⟩ : Fin 16) l) rfl rfl (Or.inl (Nat.lt_of_sub_eq_succ rfl))).trans ?_
    refine (View.read_writes_cons_rows_of_not_mem _ _ _ _ _ (ix2 (⟨12, hb⟩ : Fin 16) l) rfl rfl (Or.inl (Nat.lt_of_sub_eq_succ rfl))).trans ?_
    refine (View.read_writes_cons_rows_of_mem _ _ _ _ _ (ix2 (⟨12, hb⟩ : Fin 16) l) (ix2 (0 : Fin 1) l) rfl rfl rfl).trans ?_
    refine (rowUpd_apply _ _ _ _ _ _ _ l).trans ?_
    rw [add1_lt x0 ⟨12, hb⟩ l (Nat.lt_of_sub_eq_succ rfl)]
    refine congrArg₂ (· + ·) ?_ (Finset.sum_congr rfl fun r _ => ?_)
    · rw [harg8.read_unread]; exact ldRow_apply xs1 12 hb _ l
    · exact congrArg (kconf (BitVec.ofNat 32 12)) (congrFun (pay8_eq x0) (ix2 r l))
  · -- row 13
    refine (View.read_writes_cons_rows_of_not_mem _ _ _ _ _ (ix2 (⟨13, hb⟩ : Fin 16) l) rfl rfl (Or.inl (Nat.lt_of_sub_eq_succ rfl))).trans ?_
    refine (View.read_writes_cons_rows_of_mem _ _ _ _ _ (ix2 (⟨13, hb⟩ : Fin 16) l) (ix2 (0 : Fin 1) l) rfl rfl rfl).trans ?_
    refine (rowUpd_apply _ _ _ _ _ _ _ l).trans ?_
    rw [add1_lt x0 ⟨13, hb⟩ l (Nat.lt_of_sub_eq_succ rfl)]
    refine congrArg₂ (· + ·) ?_ (Finset.sum_congr rfl fun r _ => ?_)
    · rw [harg8.read_unread]; exact ldRow_apply xs1 13 hb _ l
    · exact congrArg (kconf (BitVec.ofNat 32 13)) (congrFun (pay8_eq x0) (ix2 r l))
  · -- row 14
    refine (View.read_writes_cons_rows_of_mem _ _ _ _ _ (ix2 (⟨14, hb⟩ : Fin 16) l) (ix2 (0 : Fin 1) l) rfl rfl rfl).trans ?_
    refine (rowUpd_apply _ _ _ _ _ _ _ l).trans ?_
    rw [add1_lt x0 ⟨14, hb⟩ l (Nat.lt_of_sub_eq_succ rfl)]
    refine congrArg₂ (· + ·) ?_ (Finset.sum_congr rfl fun r _ => ?_)
    · rw [harg8.read_unread]; exact ldRow_apply xs1 14 hb _ l
    · exact congrArg (kconf (BitVec.ofNat 32 14)) (congrFun (pay8_eq x0) (ix2 r l))
  · -- row 15
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    rw [add1_top x0 ⟨15, hb⟩ l (Nat.lt_irrefl _), add_zero]
    show View.read (Elt Ideal) arg8.view (harg8.unread xs1) _ = _
    rw [harg8.read_unread]

end Cert.KernelIdeal.ScratchC1

end
-- ==== Proof.ScratchC2.lean ====
/-
  The body's stores into accumulator 2 at a grid point of case C (the last point of its core), read back
  entry by entry. The body stores fifteen single rows, row 14 last; each row's payload is the row as the point before
  left it plus the lane sums of this point's block for that row's bin; row 15 is never stored. So entry (row, lane)
  ends at its earlier value plus what the block adds, which is nothing on row 15.
-/
import proofs.«114207_j16947940950786_2_alg».proof.Proof.Gen.KernelIdeal.Frame
import proofs.«114207_j16947940950786_2_alg».proof.Proof.KernelTerms
import Idealize.ShloMosaic.Lib.Pipeline.Value
import Idealize.ShloMosaic.Lib.WritesUnit
import Idealize.ShloMosaic.Lib.Tactic

set_option maxRecDepth 16384

noncomputable section

namespace Cert.KernelIdeal.ScratchC2

open Idealize.ShloMosaic Idealize.ShloMosaic.TcCoe Idealize.ShloMosaic.ValueIdx Idealize.SL.Sem
open Cert.KernelIdeal Cert.KernelIdeal.Gen Cert.KernelIdeal.RowUpdate Cert.KernelIdeal.KernelTerms Cert.KTerms

theorem hz2 : (![0, 0] : Fin 2 → Nat) = fun _ => 0 := funext fun a => by fin_cases a <;> rfl

/-- Case C, accumulator 2: after the point, entry (row, lane) is what the point before left there plus what this
    point's block adds. -/
theorem soutC2_apply (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S4096x128 .f32) (x1 : Vec Ideal S4096x128 .i32) (xs0 xs1 xs2 : Vec Ideal S16x128 .f32)
    (b : Fin 16) (l : Fin 128) :
    sout0_C_2 (F := Ideal) c i arg2 harg2 arg3 harg3 arg4 harg4 arg5 harg5 arg6 harg6 arg7 harg7 arg8 harg8 arg9 harg9 hc0 hc1 x0 x1 xs0 xs1 xs2 (ix2 b l) = xs2 (ix2 b l) + add2 x0 x1 b l := by
  unfold sout0_C_2
  unfold kernelRun0_C
  dsimp only
  sl_unfold_words
  simp only [View.readAt_eq_ld, harg2.read_unread, harg3.read_unread, View.ld_unit_zero (S := S4096x128) hz2]
  obtain ⟨b, hb⟩ := b
  interval_cases b
  · -- row 0
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_not_mem _ _ _ _ _ (ix2 (⟨0, hb⟩ : Fin 16) l) rfl rfl (Or.inl (Nat.lt_of_sub_eq_succ rfl))).trans ?_
    refine (View.read_writes_cons_rows_of_mem _ _ _ _ _ (ix2 (⟨0, hb⟩ : Fin 16) l) (ix2 (0 : Fin 1) l) rfl rfl rfl).trans ?_
    refine (rowUpd_apply _ _ _ _ _ _ _ l).trans ?_
    rw [add2_lt x0 x1 ⟨0, hb⟩ l (Nat.lt_of_sub_eq_succ rfl)]
    refine congrArg₂ (· + ·) ?_ (Finset.sum_congr rfl fun r _ => ?_)
    · rw [harg9.read_unread]; exact ldRow_apply xs2 0 hb _ l
    · refine (congrArg (fun q => Scalar.select (IntOp.cmpi .eq (Cert.Spec.key (k0_pay8 (F := Ideal) x0 (ix2 r l))) (BitVec.ofNat 32 0)) q (FloatOps.ofBits (F := Ideal) .f32 0x00000000#32)) (pay9_apply x1 (ix2 r l))).trans ?_
      exact congrArg (fun p => kacc (BitVec.ofNat 32 0) p (x1 (ix2 r l))) (congrFun (pay8_eq x0) (ix2 r l))
  · -- row 1
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_not_mem _ _ _ _ _ (ix2 (⟨1, hb⟩ : Fin 16) l) rfl rfl (Or.inl (Nat.lt_of_sub_eq_succ rfl))).trans ?_
    refine (View.read_writes_cons_rows_of_mem _ _ _ _ _ (ix2 (⟨1, hb⟩ : Fin 16) l) (ix2 (0 : Fin 1) l) rfl rfl rfl).trans ?_
    refine (rowUpd_apply _ _ _ _ _ _ _ l).trans ?_
    rw [add2_lt x0 x1 ⟨1, hb⟩ l (Nat.lt_of_sub_eq_succ rfl)]
    refine congrArg₂ (· + ·) ?_ (Finset.sum_congr rfl fun r _ => ?_)
    · rw [harg9.read_unread]; exact ldRow_apply xs2 1 hb _ l
    · refine (congrArg (fun q => Scalar.select (IntOp.cmpi .eq (Cert.Spec.key (k0_pay8 (F := Ideal) x0 (ix2 r l))) (BitVec.ofNat 32 1)) q (FloatOps.ofBits (F := Ideal) .f32 0x00000000#32)) (pay9_apply x1 (ix2 r l))).trans ?_
      exact congrArg (fun p => kacc (BitVec.ofNat 32 1) p (x1 (ix2 r l))) (congrFun (pay8_eq x0) (ix2 r l))
  · -- row 2
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_not_mem _ _ _ _ _ (ix2 (⟨2, hb⟩ : Fin 16) l) rfl rfl (Or.inl (Nat.lt_of_sub_eq_succ rfl))).trans ?_
    refine (View.read_writes_cons_rows_of_mem _ _ _ _ _ (ix2 (⟨2, hb⟩ : Fin 16) l) (ix2 (0 : Fin 1) l) rfl rfl rfl).trans ?_
    refine (rowUpd_apply _ _ _ _ _ _ _ l).trans ?_
    rw [add2_lt x0 x1 ⟨2, hb⟩ l (Nat.lt_of_sub_eq_succ rfl)]
    refine congrArg₂ (· + ·) ?_ (Finset.sum_congr rfl fun r _ => ?_)
    · rw [harg9.read_unread]; exact ldRow_apply xs2 2 hb _ l
    · refine (congrArg (fun q => Scalar.select (IntOp.cmpi .eq (Cert.Spec.key (k0_pay8 (F := Ideal) x0 (ix2 r l))) (BitVec.ofNat 32 2)) q (FloatOps.ofBits (F := Ideal) .f32 0x00000000#32)) (pay9_apply x1 (ix2 r l))).trans ?_
      exact congrArg (fun p => kacc (BitVec.ofNat 32 2) p (x1 (ix2 r l))) (congrFun (pay8_eq x0) (ix2 r l))
  · -- row 3
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_not_mem _ _ _ _ _ (ix2 (⟨3, hb⟩ : Fin 16) l) rfl rfl (Or.inl (Nat.lt_of_sub_eq_succ rfl))).trans ?_
    refine (View.read_writes_cons_rows_of_mem _ _ _ _ _ (ix2 (⟨3, hb⟩ : Fin 16) l) (ix2 (0 : Fin 1) l) rfl rfl rfl).trans ?_
    refine (rowUpd_apply _ _ _ _ _ _ _ l).trans ?_
    rw [add2_lt x0 x1 ⟨3, hb⟩ l (Nat.lt_of_sub_eq_succ rfl)]
    refine congrArg₂ (· + ·) ?_ (Finset.sum_congr rfl fun r _ => ?_)
    · rw [harg9.read_unread]; exact ldRow_apply xs2 3 hb _ l
    · refine (congrArg (fun q => Scalar.select (IntOp.cmpi .eq (Cert.Spec.key (k0_pay8 (F := Ideal) x0 (ix2 r l))) (BitVec.ofNat 32 3)) q (FloatOps.ofBits (F := Ideal) .f32 0x00000000#32)) (pay9_apply x1 (ix2 r l))).trans ?_
      exact congrArg (fun p => kacc (BitVec.ofNat 32 3) p (x1 (ix2 r l))) (congrFun (pay8_eq x0) (ix2 r l))
  · -- row 4
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_not_mem _ _ _ _ _ (ix2 (⟨4, hb⟩ : Fin 16) l) rfl rfl (Or.inl (Nat.lt_of_sub_eq_succ rfl))).trans ?_
    refine (View.read_writes_cons_rows_of_mem _ _ _ _ _ (ix2 (⟨4, hb⟩ : Fin 16) l) (ix2 (0 : Fin 1) l) rfl rfl rfl).trans ?_
    refine (rowUpd_apply _ _ _ _ _ _ _ l).trans ?_
    rw [add2_lt x0 x1 ⟨4, hb⟩ l (Nat.lt_of_sub_eq_succ rfl)]
    refine congrArg₂ (· + ·) ?_ (Finset.sum_congr rfl fun r _ => ?_)
    · rw [harg9.read_unread]; exact ldRow_apply xs2 4 hb _ l
    · refine (congrArg (fun q => Scalar.select (IntOp.cmpi .eq (Cert.Spec.key (k0_pay8 (F := Ideal) x0 (ix2 r l))) (BitVec.ofNat 32 4)) q (FloatOps.ofBits (F := Ideal) .f32 0x00000000#32)) (pay9_apply x1 (ix2 r l))).trans ?_
      exact congrArg (fun p => kacc (BitVec.ofNat 32 4) p (x1 (ix2 r l))) (congrFun (pay8_eq x0) (ix2 r l))
  · -- row 5
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_not_mem _ _ _ _ _ (ix2 (⟨5, hb⟩ : Fin 16) l) rfl rfl (Or.inl (Nat.lt_of_sub_eq_succ rfl))).trans ?_
    refine (View.read_writes_cons_rows_of_mem _ _ _ _ _ (ix2 (⟨5, hb⟩ : Fin 16) l) (ix2 (0 : Fin 1) l) rfl rfl rfl).trans ?_
    refine (rowUpd_apply _ _ _ _ _ _ _ l).trans ?_
    rw [add2_lt x0 x1 ⟨5, hb⟩ l (Nat.lt_of_sub_eq_succ rfl)]
    refine congrArg₂ (· + ·) ?_ (Finset.sum_congr rfl fun r _ => ?_)
    · rw [harg9.read_unread]; exact ldRow_apply xs2 5 hb _ l
    · refine (congrArg (fun q => Scalar.select (IntOp.cmpi .eq (Cert.Spec.key (k0_pay8 (F := Ideal) x0 (ix2 r l))) (BitVec.ofNat 32 5)) q (FloatOps.ofBits (F := Ideal) .f32 0x00000000#32)) (pay9_apply x1 (ix2 r l))).trans ?_
      exact congrArg (fun p => kacc (BitVec.ofNat 32 5) p (x1 (ix2 r l))) (congrFun (pay8_eq x0) (ix2 r l))
  · -- row 6
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_not_mem _ _ _ _ _ (ix2 (⟨6, hb⟩ : Fin 16) l) rfl rfl (Or.inl (Nat.lt_of_sub_eq_succ rfl))).trans ?_
    refine (View.read_writes_cons_rows_of_mem _ _ _ _ _ (ix2 (⟨6, hb⟩ : Fin 16) l) (ix2 (0 : Fin 1) l) rfl rfl rfl).trans ?_
    refine (rowUpd_apply _ _ _ _ _ _ _ l).trans ?_
    rw [add2_lt x0 x1 ⟨6, hb⟩ l (Nat.lt_of_sub_eq_succ rfl)]
    refine congrArg₂ (· + ·) ?_ (Finset.sum_congr rfl fun r _ => ?_)
    · rw [harg9.read_unread]; exact ldRow_apply xs2 6 hb _ l
    · refine (congrArg (fun q => Scalar.select (IntOp.cmpi .eq (Cert.Spec.key (k0_pay8 (F := Ideal) x0 (ix2 r l))) (BitVec.ofNat 32 6)) q (FloatOps.ofBits (F := Ideal) .f32 0x00000000#32)) (pay9_apply x1 (ix2 r l))).trans ?_
      exact congrArg (fun p => kacc (BitVec.ofNat 32 6) p (x1 (ix2 r l))) (congrFun (pay8_eq x0) (ix2 r l))
  · -- row 7
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_not_mem _ _ _ _ _ (ix2 (⟨7, hb⟩ : Fin 16) l) rfl rfl (Or.inl (Nat.lt_of_sub_eq_succ rfl))).trans ?_
    refine (View.read_writes_cons_rows_of_mem _ _ _ _ _ (ix2 (⟨7, hb⟩ : Fin 16) l) (ix2 (0 : Fin 1) l) rfl rfl rfl).trans ?_
    refine (rowUpd_apply _ _ _ _ _ _ _ l).trans ?_
    rw [add2_lt x0 x1 ⟨7, hb⟩ l (Nat.lt_of_sub_eq_succ rfl)]
    refine congrArg₂ (· + ·) ?_ (Finset.sum_congr rfl fun r _ => ?_)
    · rw [harg9.read_unread]; exact ldRow_apply xs2 7 hb _ l
    · refine (congrArg (fun q => Scalar.select (IntOp.cmpi .eq (Cert.Spec.key (k0_pay8 (F := Ideal) x0 (ix2 r l))) (BitVec.ofNat 32 7)) q (FloatOps.ofBits (F := Ideal) .f32 0x00000000#32)) (pay9_apply x1 (ix2 r l))).trans ?_
      exact congrArg (fun p => kacc (BitVec.ofNat 32 7) p (x1 (ix2 r l))) (congrFun (pay8_eq x0) (ix2 r l))
  · -- row 8
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_not_mem _ _ _ _ _ (ix2 (⟨8, hb⟩ : Fin 16) l) rfl rfl (Or.inl (Nat.lt_of_sub_eq_succ rfl))).trans ?_
    refine (View.read_writes_cons_rows_of_mem _ _ _ _ _ (ix2 (⟨8, hb⟩ : Fin 16) l) (ix2 (0 : Fin 1) l) rfl rfl rfl).trans ?_
    refine (rowUpd_apply _ _ _ _ _ _ _ l).trans ?_
    rw [add2_lt x0 x1 ⟨8, hb⟩ l (Nat.lt_of_sub_eq_succ rfl)]
    refine congrArg₂ (· + ·) ?_ (Finset.sum_congr rfl fun r _ => ?_)
    · rw [harg9.read_unread]; exact ldRow_apply xs2 8 hb _ l
    · refine (congrArg (fun q => Scalar.select (IntOp.cmpi .eq (Cert.Spec.key (k0_pay8 (F := Ideal) x0 (ix2 r l))) (BitVec.ofNat 32 8)) q (FloatOps.ofBits (F := Ideal) .f32 0x00000000#32)) (pay9_apply x1 (ix2 r l))).trans ?_
      exact congrArg (fun p => kacc (BitVec.ofNat 32 8) p (x1 (ix2 r l))) (congrFun (pay8_eq x0) (ix2 r l))
  · -- row 9
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_not_mem _ _ _ _ _ (ix2 (⟨9, hb⟩ : Fin 16) l) rfl rfl (Or.inl (Nat.lt_of_sub_eq_succ rfl))).trans ?_
    refine (View.read_writes_cons_rows_of_mem _ _ _ _ _ (ix2 (⟨9, hb⟩ : Fin 16) l) (ix2 (0 : Fin 1) l) rfl rfl rfl).trans ?_
    refine (rowUpd_apply _ _ _ _ _ _ _ l).trans ?_
    rw [add2_lt x0 x1 ⟨9, hb⟩ l (Nat.lt_of_sub_eq_succ rfl)]
    refine congrArg₂ (· + ·) ?_ (Finset.sum_congr rfl fun r _ => ?_)
    · rw [harg9.read_unread]; exact ldRow_apply xs2 9 hb _ l
    · refine (congrArg (fun q => Scalar.select (IntOp.cmpi .eq (Cert.Spec.key (k0_pay8 (F := Ideal) x0 (ix2 r l))) (BitVec.ofNat 32 9)) q (FloatOps.ofBits (F := Ideal) .f32 0x00000000#32)) (pay9_apply x1 (ix2 r l))).trans ?_
      exact congrArg (fun p => kacc (BitVec.ofNat 32 9) p (x1 (ix2 r l))) (congrFun (pay8_eq x0) (ix2 r l))
  · -- row 10
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_not_mem _ _ _ _ _ (ix2 (⟨10, hb⟩ : Fin 16) l) rfl rfl (Or.inl (Nat.lt_of_sub_eq_succ rfl))).trans ?_
    refine (View.read_writes_cons_rows_of_mem _ _ _ _ _ (ix2 (⟨10, hb⟩ : Fin 16) l) (ix2 (0 : Fin 1) l) rfl rfl rfl).trans ?_
    refine (rowUpd_apply _ _ _ _ _ _ _ l).trans ?_
    rw [add2_lt x0 x1 ⟨10, hb⟩ l (Nat.lt_of_sub_eq_succ rfl)]
    refine congrArg₂ (· + ·) ?_ (Finset.sum_congr rfl fun r _ => ?_)
    · rw [harg9.read_unread]; exact ldRow_apply xs2 10 hb _ l
    · refine (congrArg (fun q => Scalar.select (IntOp.cmpi .eq (Cert.Spec.key (k0_pay8 (F := Ideal) x0 (ix2 r l))) (BitVec.ofNat 32 10)) q (FloatOps.ofBits (F := Ideal) .f32 0x00000000#32)) (pay9_apply x1 (ix2 r l))).trans ?_
      exact congrArg (fun p => kacc (BitVec.ofNat 32 10) p (x1 (ix2 r l))) (congrFun (pay8_eq x0) (ix2 r l))
  · -- row 11
    refine (View.read_writes_cons_rows_of_not_mem _ _ _ _ _ (ix2 (⟨11, hb⟩ : Fin 16) l) rfl rfl (Or.inl (Nat.lt_of_sub_eq_succ rfl))).trans ?_
    refine (View.read_writes_cons_rows_of_not_mem _ _ _ _ _ (ix2 (⟨11, hb⟩ : Fin 16) l) rfl rfl (Or.inl (Nat.lt_of_sub_eq_succ rfl))).trans ?_
    refine (View.read_writes_cons_rows_of_not_mem _ _ _ _ _ (ix2 (⟨11, hb⟩ : Fin 16) l) rfl rfl (Or.inl (Nat.lt_of_sub_eq_succ rfl))).trans ?_
    refine (View.read_writes_cons_rows_of_mem _ _ _ _ _ (ix2 (⟨11, hb⟩ : Fin 16) l) (ix2 (0 : Fin 1) l) rfl rfl rfl).trans ?_
    refine (rowUpd_apply _ _ _ _ _ _ _ l).trans ?_
    rw [add2_lt x0 x1 ⟨11, hb⟩ l (Nat.lt_of_sub_eq_succ rfl)]
    refine congrArg₂ (· + ·) ?_ (Finset.sum_congr rfl fun r _ => ?_)
    · rw [harg9.read_unread]; exact ldRow_apply xs2 11 hb _ l
    · refine (congrArg (fun q => Scalar.select (IntOp.cmpi .eq (Cert.Spec.key (k0_pay8 (F := Ideal) x0 (ix2 r l))) (BitVec.ofNat 32 11)) q (FloatOps.ofBits (F := Ideal) .f32 0x00000000#32)) (pay9_apply x1 (ix2 r l))).trans ?_
      exact congrArg (fun p => kacc (BitVec.ofNat 32 11) p (x1 (ix2 r l))) (congrFun (pay8_eq x0) (ix2 r l))
  · -- row 12
    refine (View.read_writes_cons_rows_of_not_mem _ _ _ _ _ (ix2 (⟨12, hb⟩ : Fin 16) l) rfl rfl (Or.inl (Nat.lt_of_sub_eq_succ rfl))).trans ?_
    refine (View.read_writes_cons_rows_of_not_mem _ _ _ _ _ (ix2 (⟨12, hb⟩ : Fin 16) l) rfl rfl (Or.inl (Nat.lt_of_sub_eq_succ rfl))).trans ?_
    refine (View.read_writes_cons_rows_of_mem _ _ _ _ _ (ix2 (⟨12, hb⟩ : Fin 16) l) (ix2 (0 : Fin 1) l) rfl rfl rfl).trans ?_
    refine (rowUpd_apply _ _ _ _ _ _ _ l).trans ?_
    rw [add2_lt x0 x1 ⟨12, hb⟩ l (Nat.lt_of_sub_eq_succ rfl)]
    refine congrArg₂ (· + ·) ?_ (Finset.sum_congr rfl fun r _ => ?_)
    · rw [harg9.read_unread]; exact ldRow_apply xs2 12 hb _ l
    · refine (congrArg (fun q => Scalar.select (IntOp.cmpi .eq (Cert.Spec.key (k0_pay8 (F := Ideal) x0 (ix2 r l))) (BitVec.ofNat 32 12)) q (FloatOps.ofBits (F := Ideal) .f32 0x00000000#32)) (pay9_apply x1 (ix2 r l))).trans ?_
      exact congrArg (fun p => kacc (BitVec.ofNat 32 12) p (x1 (ix2 r l))) (congrFun (pay8_eq x0) (ix2 r l))
  · -- row 13
    refine (View.read_writes_cons_rows_of_not_mem _ _ _ _ _ (ix2 (⟨13, hb⟩ : Fin 16) l) rfl rfl (Or.inl (Nat.lt_of_sub_eq_succ rfl))).trans ?_
    refine (View.read_writes_cons_rows_of_mem _ _ _ _ _ (ix2 (⟨13, hb⟩ : Fin 16) l) (ix2 (0 : Fin 1) l) rfl rfl rfl).trans ?_
    refine (rowUpd_apply _ _ _ _ _ _ _ l).trans ?_
    rw [add2_lt x0 x1 ⟨13, hb⟩ l (Nat.lt_of_sub_eq_succ rfl)]
    refine congrArg₂ (· + ·) ?_ (Finset.sum_congr rfl fun r _ => ?_)
    · rw [harg9.read_unread]; exact ldRow_apply xs2 13 hb _ l
    · refine (congrArg (fun q => Scalar.select (IntOp.cmpi .eq (Cert.Spec.key (k0_pay8 (F := Ideal) x0 (ix2 r l))) (BitVec.ofNat 32 13)) q (FloatOps.ofBits (F := Ideal) .f32 0x00000000#32)) (pay9_apply x1 (ix2 r l))).trans ?_
      exact congrArg (fun p => kacc (BitVec.ofNat 32 13) p (x1 (ix2 r l))) (congrFun (pay8_eq x0) (ix2 r l))
  · -- row 14
    refine (View.read_writes_cons_rows_of_mem _ _ _ _ _ (ix2 (⟨14, hb⟩ : Fin 16) l) (ix2 (0 : Fin 1) l) rfl rfl rfl).trans ?_
    refine (rowUpd_apply _ _ _ _ _ _ _ l).trans ?_
    rw [add2_lt x0 x1 ⟨14, hb⟩ l (Nat.lt_of_sub_eq_succ rfl)]
    refine congrArg₂ (· + ·) ?_ (Finset.sum_congr rfl fun r _ => ?_)
    · rw [harg9.read_unread]; exact ldRow_apply xs2 14 hb _ l
    · refine (congrArg (fun q => Scalar.select (IntOp.cmpi .eq (Cert.Spec.key (k0_pay8 (F := Ideal) x0 (ix2 r l))) (BitVec.ofNat 32 14)) q (FloatOps.ofBits (F := Ideal) .f32 0x00000000#32)) (pay9_apply x1 (ix2 r l))).trans ?_
      exact congrArg (fun p => kacc (BitVec.ofNat 32 14) p (x1 (ix2 r l))) (congrFun (pay8_eq x0) (ix2 r l))
  · -- row 15
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    refine (View.read_writes_cons_rows_of_not_mem _ _ _ _ _ (ix2 (⟨15, hb⟩ : Fin 16) l) rfl rfl (Or.inr (Nat.le_of_sub_eq_zero rfl))).trans ?_
    rw [add2_top x0 x1 ⟨15, hb⟩ l (Nat.lt_irrefl _), add_zero]
    show View.read (Elt Ideal) arg9.view (harg9.unread xs2) _ = _
    rw [harg9.read_unread]

end Cert.KernelIdeal.ScratchC2

end
-- ==== Proof.OutC.lean ====
/-
  At the last point of a core the body copies each accumulator, whole, into its output's staging buffer: one store of
  the [16,128] accumulator cast to [1,16,128]. So the staging buffer read at (0, row, lane) is the accumulator, as the
  row stores of this point leave it, at (row, lane).
-/
import proofs.«114207_j16947940950786_2_alg».proof.Proof.Gen.KernelIdeal.Frame
import proofs.«114207_j16947940950786_2_alg».proof.Proof.KernelTerms
import Idealize.ShloMosaic.Lib.Pipeline.Value
import Idealize.ShloMosaic.Lib.WritesUnit
import Idealize.ShloMosaic.Lib.Tactic
import Idealize.ShloMosaic.Lib.ValueLayout
set_option maxRecDepth 16384

noncomputable section

namespace Cert.KernelIdeal.OutC

open Idealize.ShloMosaic Idealize.ShloMosaic.TcCoe Idealize.ShloMosaic.ValueIdx Idealize.SL.Sem
open Cert.KernelIdeal Cert.KernelIdeal.Gen Cert.KernelIdeal.RowUpdate Cert.KernelIdeal.KernelTerms Cert.KTerms

theorem hz2 : (![0, 0] : Fin 2 → Nat) = fun _ => 0 := funext fun a => by fin_cases a <;> rfl

theorem hz3 : (![0, 0, 0] : Fin 3 → Nat) = fun _ => 0 := funext fun a => by fin_cases a <;> rfl

set_option maxHeartbeats 4000000 in
/-- Output window 2 at a core's last point: its staging buffer is accumulator 0 as this point leaves it, with a
    leading unit axis. -/
theorem outC2_apply (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S4096x128 .f32) (x1 : Vec Ideal S4096x128 .i32) (xs0 xs1 xs2 : Vec Ideal S16x128 .f32)
    (b : Fin 16) (l : Fin 128) :
    out0_C_2 (F := Ideal) c i arg2 harg2 arg3 harg3 arg4 harg4 arg5 harg5 arg6 harg6 arg7 harg7 arg8 harg8 arg9 harg9 hc0 hc1 x0 x1 xs0 xs1 xs2 (ix3 (0 : Fin 1) b l)
      = sout0_C_0 (F := Ideal) c i arg2 harg2 arg3 harg3 arg4 harg4 arg5 harg5 arg6 harg6 arg7 harg7 arg8 harg8 arg9 harg9 hc0 hc1 x0 x1 xs0 xs1 xs2 (ix2 b l) := by
  have e : out0_C_2 (F := Ideal) c i arg2 harg2 arg3 harg3 arg4 harg4 arg5 harg5 arg6 harg6 arg7 harg7 arg8 harg8 arg9 harg9 hc0 hc1 x0 x1 xs0 xs1 xs2
      = k0_pay2 (F := Ideal) (sout0_C_0 (F := Ideal) c i arg2 harg2 arg3 harg3 arg4 harg4 arg5 harg5 arg6 harg6 arg7 harg7 arg8 harg8 arg9 harg9 hc0 hc1 x0 x1 xs0 xs1 xs2) := by
    unfold out0_C_2 sout0_C_0
    rw [View.read_writes_eq_canon _ _ _ (cover0_C_2 c i arg2 harg2 arg3 harg3 arg4 harg4 arg5 harg5 arg6 harg6 arg7 harg7 arg8 harg8 arg9 harg9 hc0 hc1 x0 x1 xs0 xs1 xs2)]
    unfold kernelRun0_C
    dsimp only
    sl_unfold_words
    rw [View.canon_unit_zero hz3]
    simp only [View.readAt_eq_ld, View.ld_unit_zero (S := S16x128) hz2]
  rw [e]
  show shapeCast S1x16x128 (sout0_C_0 (F := Ideal) c i arg2 harg2 arg3 harg3 arg4 harg4 arg5 harg5 arg6 harg6 arg7 harg7 arg8 harg8 arg9 harg9 hc0 hc1 x0 x1 xs0 xs1 xs2) shapeCasts_S16x128_S1x16x128
      (ix3 (0 : Fin 1) b l) = _
  exact shapeCast_ab_1ab_apply (sout0_C_0 (F := Ideal) c i arg2 harg2 arg3 harg3 arg4 harg4 arg5 harg5 arg6 harg6 arg7 harg7 arg8 harg8 arg9 harg9 hc0 hc1 x0 x1 xs0 xs1 xs2) shapeCasts_S16x128_S1x16x128
    (0 : Fin 1) b l

set_option maxHeartbeats 4000000 in
/-- Output window 3 at a core's last point: its staging buffer is accumulator 1 as this point leaves it, with a
    leading unit axis. -/
theorem outC3_apply (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S4096x128 .f32) (x1 : Vec Ideal S4096x128 .i32) (xs0 xs1 xs2 : Vec Ideal S16x128 .f32)
    (b : Fin 16) (l : Fin 128) :
    out0_C_3 (F := Ideal) c i arg2 harg2 arg3 harg3 arg4 harg4 arg5 harg5 arg6 harg6 arg7 harg7 arg8 harg8 arg9 harg9 hc0 hc1 x0 x1 xs0 xs1 xs2 (ix3 (0 : Fin 1) b l)
      = sout0_C_1 (F := Ideal) c i arg2 harg2 arg3 harg3 arg4 harg4 arg5 harg5 arg6 harg6 arg7 harg7 arg8 harg8 arg9 harg9 hc0 hc1 x0 x1 xs0 xs1 xs2 (ix2 b l) := by
  have e : out0_C_3 (F := Ideal) c i arg2 harg2 arg3 harg3 arg4 harg4 arg5 harg5 arg6 harg6 arg7 harg7 arg8 harg8 arg9 harg9 hc0 hc1 x0 x1 xs0 xs1 xs2
      = k0_pay3 (F := Ideal) (sout0_C_1 (F := Ideal) c i arg2 harg2 arg3 harg3 arg4 harg4 arg5 harg5 arg6 harg6 arg7 harg7 arg8 harg8 arg9 harg9 hc0 hc1 x0 x1 xs0 xs1 xs2) := by
    unfold out0_C_3 sout0_C_1
    rw [View.read_writes_eq_canon _ _ _ (cover0_C_3 c i arg2 harg2 arg3 harg3 arg4 harg4 arg5 harg5 arg6 harg6 arg7 harg7 arg8 harg8 arg9 harg9 hc0 hc1 x0 x1 xs0 xs1 xs2)]
    unfold kernelRun0_C
    dsimp only
    sl_unfold_words
    rw [View.canon_unit_zero hz3]
    simp only [View.readAt_eq_ld, View.ld_unit_zero (S := S16x128) hz2]
  rw [e]
  show shapeCast S1x16x128 (sout0_C_1 (F := Ideal) c i arg2 harg2 arg3 harg3 arg4 harg4 arg5 harg5 arg6 harg6 arg7 harg7 arg8 harg8 arg9 harg9 hc0 hc1 x0 x1 xs0 xs1 xs2) shapeCasts_S16x128_S1x16x128
      (ix3 (0 : Fin 1) b l) = _
  exact shapeCast_ab_1ab_apply (sout0_C_1 (F := Ideal) c i arg2 harg2 arg3 harg3 arg4 harg4 arg5 harg5 arg6 harg6 arg7 harg7 arg8 harg8 arg9 harg9 hc0 hc1 x0 x1 xs0 xs1 xs2) shapeCasts_S16x128_S1x16x128
    (0 : Fin 1) b l

set_option maxHeartbeats 4000000 in
/-- Output window 4 at a core's last point: its staging buffer is accumulator 2 as this point leaves it, with a
    leading unit axis. -/
theorem outC4_apply (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S4096x128 .f32) (x1 : Vec Ideal S4096x128 .i32) (xs0 xs1 xs2 : Vec Ideal S16x128 .f32)
    (b : Fin 16) (l : Fin 128) :
    out0_C_4 (F := Ideal) c i arg2 harg2 arg3 harg3 arg4 harg4 arg5 harg5 arg6 harg6 arg7 harg7 arg8 harg8 arg9 harg9 hc0 hc1 x0 x1 xs0 xs1 xs2 (ix3 (0 : Fin 1) b l)
      = sout0_C_2 (F := Ideal) c i arg2 harg2 arg3 harg3 arg4 harg4 arg5 harg5 arg6 harg6 arg7 harg7 arg8 harg8 arg9 harg9 hc0 hc1 x0 x1 xs0 xs1 xs2 (ix2 b l) := by
  have e : out0_C_4 (F := Ideal) c i arg2 harg2 arg3 harg3 arg4 harg4 arg5 harg5 arg6 harg6 arg7 harg7 arg8 harg8 arg9 harg9 hc0 hc1 x0 x1 xs0 xs1 xs2
      = k0_pay4 (F := Ideal) (sout0_C_2 (F := Ideal) c i arg2 harg2 arg3 harg3 arg4 harg4 arg5 harg5 arg6 harg6 arg7 harg7 arg8 harg8 arg9 harg9 hc0 hc1 x0 x1 xs0 xs1 xs2) := by
    unfold out0_C_4 sout0_C_2
    rw [View.read_writes_eq_canon _ _ _ (cover0_C_4 c i arg2 harg2 arg3 harg3 arg4 harg4 arg5 harg5 arg6 harg6 arg7 harg7 arg8 harg8 arg9 harg9 hc0 hc1 x0 x1 xs0 xs1 xs2)]
    unfold kernelRun0_C
    dsimp only
    sl_unfold_words
    rw [View.canon_unit_zero hz3]
    simp only [View.readAt_eq_ld, View.ld_unit_zero (S := S16x128) hz2]
  rw [e]
  show shapeCast S1x16x128 (sout0_C_2 (F := Ideal) c i arg2 harg2 arg3 harg3 arg4 harg4 arg5 harg5 arg6 harg6 arg7 harg7 arg8 harg8 arg9 harg9 hc0 hc1 x0 x1 xs0 xs1 xs2) shapeCasts_S16x128_S1x16x128
      (ix3 (0 : Fin 1) b l) = _
  exact shapeCast_ab_1ab_apply (sout0_C_2 (F := Ideal) c i arg2 harg2 arg3 harg3 arg4 harg4 arg5 harg5 arg6 harg6 arg7 harg7 arg8 harg8 arg9 harg9 hc0 hc1 x0 x1 xs0 xs1 xs2) shapeCasts_S16x128_S1x16x128
    (0 : Fin 1) b l

end Cert.KernelIdeal.OutC

end
-- ==== Proof.Accum.lean ====
/-
  The three accumulators over the grid. The grid's 64 points are walked in order, 32 per core. At a core's first point
  the body zeroes the accumulators and adds the point's block; at every other point it adds the point's block to what
  the point before left; at the core's last point it also copies the accumulators to the outputs' staging buffers. So
  after a core's last point each output's staging buffer holds, at (row, lane), the sum over the core's 32 blocks of
  what each block adds: the core's part of the array the specification names.
-/
import proofs.«114207_j16947940950786_2_alg».proof.Proof.Gen.KernelIdeal.Frame
import proofs.«114207_j16947940950786_2_alg».proof.Proof.KernelTerms
import proofs.«114207_j16947940950786_2_alg».proof.Proof.KTermsEq
import proofs.«114207_j16947940950786_2_alg».proof.Proof.Final
import proofs.«114207_j16947940950786_2_alg».proof.Proof.BlockRead
import proofs.«114207_j16947940950786_2_alg».proof.Proof.LibGridAccum
import proofs.«114207_j16947940950786_2_alg».proof.Proof.ScratchA0
import proofs.«114207_j16947940950786_2_alg».proof.Proof.ScratchA1
import proofs.«114207_j16947940950786_2_alg».proof.Proof.ScratchA2
import proofs.«114207_j16947940950786_2_alg».proof.Proof.ScratchB0
import proofs.«114207_j16947940950786_2_alg».proof.Proof.ScratchB1
import proofs.«114207_j16947940950786_2_alg».proof.Proof.ScratchB2
import proofs.«114207_j16947940950786_2_alg».proof.Proof.ScratchC0
import proofs.«114207_j16947940950786_2_alg».proof.Proof.ScratchC1
import proofs.«114207_j16947940950786_2_alg».proof.Proof.ScratchC2
import proofs.«114207_j16947940950786_2_alg».proof.Proof.OutC

set_option maxRecDepth 16384

noncomputable section

namespace Cert.KernelIdeal.Accum

open Idealize.ShloMosaic Idealize.ShloMosaic.TcCoe Idealize.ShloMosaic.ValueIdx Idealize.SL.Sem
open Cert.KernelIdeal Cert.KernelIdeal.Gen Cert.KernelIdeal.KernelTerms Cert.KTerms

variable (m : (ℓ : Loc nD τ sig) → Buf (Elt Ideal) ℓ) (c : Dev nD)

/-! ### Accumulator 0 -/

/-- Accumulator 0 after point `n`, at (row, lane); zero past the grid. -/
def S0 (b : Fin 16) (l : Fin 128) (n : ℕ) : EReal :=
  if h : n < cfg0.N then (outsAt0 m c n h).2.2.2.1 (ix2 b l) else 0

/-- What point `n`'s block adds to accumulator 0 at (row, lane); zero past the grid. -/
def g0 (b : Fin 16) (l : Fin 128) (n : ℕ) : EReal :=
  if h : n < cfg0.N then add0 (iblk m c 0 ⟨n, h⟩ : Vec Ideal S4096x128 .f32) b l else 0

/-- A core's first point starts the accumulator afresh. -/
theorem S0_first (b : Fin 16) (l : Fin 128) (n : ℕ) (hn : n < cfg0.N) (h0 : n % 32 = 0) :
    S0 m c b l n = g0 m c b l n := by
  have hN : cfg0.N = 64 := N_0
  have h1 : ¬ n % 32 = 31 := by omega
  unfold S0 g0
  rw [dif_pos hn, dif_pos hn]
  obtain ⟨t, rfl⟩ : ∃ t : Fin cfg0.N, t.val = n := ⟨⟨n, hn⟩, rfl⟩
  rw [outsAt0_A m c t h0 h1]
  exact Cert.KernelIdeal.ScratchA.soutA0_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t : Vec Ideal S4096x128 .f32) (iblk m c 1 t : Vec Ideal S4096x128 .i32) b l

/-- Every other point adds to what the point before left. -/
theorem S0_next (b : Fin 16) (l : Fin 128) (n : ℕ) (hn : n < cfg0.N) (h0 : n % 32 ≠ 0) :
    S0 m c b l n = S0 m c b l (n - 1) + g0 m c b l n := by
  have hN : cfg0.N = 64 := N_0
  have hn' : n - 1 < cfg0.N := by omega
  unfold S0 g0
  rw [dif_pos hn, dif_pos hn, dif_pos hn']
  obtain ⟨t, rfl⟩ : ∃ t : Fin cfg0.N, t.val = n := ⟨⟨n, hn⟩, rfl⟩
  by_cases h1 : t.val % 32 = 31
  · rw [outsAt0_C m c t h0 h1]
    exact Cert.KernelIdeal.ScratchC0.soutC0_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t : Vec Ideal S4096x128 .f32) (iblk m c 1 t : Vec Ideal S4096x128 .i32) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b l
  · rw [outsAt0_B m c t h0 h1]
    exact Cert.KernelIdeal.ScratchB0.soutB0_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t : Vec Ideal S4096x128 .f32) (iblk m c 1 t : Vec Ideal S4096x128 .i32) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b l

/-- What a point adds, read off the argument arrays: the point is block `n % 32` of core `n / 32`. -/
theorem g0_eq (b : Fin 16) (l : Fin 128) (q : ℕ) (hq : q < 2) (i : Fin 32) :
    g0 m c b l (q * 32 + i.val)
      = if b.val < 15 then ∑ r : Fin 4096, kcnt (BitVec.ofNat 32 b.val)
          (m ((c : Thread nD τ).loc main_arg0) (Cert.Layout.elemIdx ⟨q, hq⟩ i r l)) else 0 := by
  have hN : cfg0.N = 64 := N_0
  have hi := i.isLt
  have hk : q * 32 + i.val < cfg0.N := by omega
  unfold g0 add0
  rw [dif_pos hk]
  refine if_congr Iff.rfl (Finset.sum_congr rfl fun r _ => ?_) rfl
  have e0 := Cert.BlockRead.iblk0_apply m c ⟨q * 32 + i.val, hk⟩ r l

  have ec : (⟨(q * 32 + i.val) / 32, Cert.BlockRead.core_lt ⟨q * 32 + i.val, hk⟩⟩ : Fin 2) = ⟨q, hq⟩ := Fin.ext (by show (q * 32 + i.val) / 32 = q; omega)
  have ei : (⟨(q * 32 + i.val) % 32, Cert.BlockRead.blk_lt ⟨q * 32 + i.val, hk⟩⟩ : Fin 32) = i := Fin.ext (by show (q * 32 + i.val) % 32 = i.val; omega)
  rw [ec, ei] at e0
  rw [e0]

set_option maxHeartbeats 4000000 in
/-- After a core's last point, output window 2's staging buffer holds the core's part of the array. -/
theorem out2_last (t : Fin cfg0.N) (h31 : t.val % 32 = 31) (b : Fin 16) (l : Fin 128) :
    (outsAt0 m c t.val t.isLt).1 (ix3 (0 : Fin 1) b l)
      = Cert.Final.cntArr (m ((c : Thread nD τ).loc main_arg0)) (ix3 ⟨t.val / 32, Cert.BlockRead.core_lt t⟩ b l) := by
  have hN : cfg0.N = 64 := N_0
  have h0 : ¬ t.val % 32 = 0 := by omega
  have hq : t.val / 32 < 2 := Cert.BlockRead.core_lt t
  -- the output is the accumulator after this point
  have eS : (outsAt0 m c t.val t.isLt).1 (ix3 (0 : Fin 1) b l) = S0 m c b l t.val := by
    unfold S0
    rw [dif_pos t.isLt, outsAt0_C m c t h0 h31]
    exact Cert.KernelIdeal.OutC.outC2_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h31) (iblk m c 0 t : Vec Ideal S4096x128 .f32) (iblk m c 1 t : Vec Ideal S4096x128 .i32) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b l
  rw [eS, Cert.LibGridAccum.accum_last (S0 m c b l) (g0 m c b l) cfg0.N
    (fun n hn h => S0_first m c b l n hn h) (fun n hn h => S0_next m c b l n hn h) t.val t.isLt h31]
  unfold Cert.Final.cntArr
  by_cases hb : b.val < 15
  · rw [dif_pos (show ((ix3 (⟨t.val / 32, hq⟩ : Fin 2) b l : Cert.Final.S2x16x128.Idx) 1).val < 15 from hb)]
    refine Finset.sum_congr rfl fun i _ => ?_
    rw [g0_eq m c b l (t.val / 32) hq i, if_pos hb]
    refine Finset.sum_congr rfl fun r _ => ?_
    exact kcnt_eq (Cert.Final.binOf b.val hb) _
  · rw [dif_neg (show ¬ ((ix3 (⟨t.val / 32, hq⟩ : Fin 2) b l : Cert.Final.S2x16x128.Idx) 1).val < 15 from hb)]
    refine Finset.sum_eq_zero fun i _ => ?_
    rw [g0_eq m c b l (t.val / 32) hq i, if_neg hb]

/-! ### Accumulator 1 -/

/-- Accumulator 1 after point `n`, at (row, lane); zero past the grid. -/
def S1 (b : Fin 16) (l : Fin 128) (n : ℕ) : EReal :=
  if h : n < cfg0.N then (outsAt0 m c n h).2.2.2.2.1 (ix2 b l) else 0

/-- What point `n`'s block adds to accumulator 1 at (row, lane); zero past the grid. -/
def g1 (b : Fin 16) (l : Fin 128) (n : ℕ) : EReal :=
  if h : n < cfg0.N then add1 (iblk m c 0 ⟨n, h⟩ : Vec Ideal S4096x128 .f32) b l else 0

/-- A core's first point starts the accumulator afresh. -/
theorem S1_first (b : Fin 16) (l : Fin 128) (n : ℕ) (hn : n < cfg0.N) (h0 : n % 32 = 0) :
    S1 m c b l n = g1 m c b l n := by
  have hN : cfg0.N = 64 := N_0
  have h1 : ¬ n % 32 = 31 := by omega
  unfold S1 g1
  rw [dif_pos hn, dif_pos hn]
  obtain ⟨t, rfl⟩ : ∃ t : Fin cfg0.N, t.val = n := ⟨⟨n, hn⟩, rfl⟩
  rw [outsAt0_A m c t h0 h1]
  exact Cert.KernelIdeal.ScratchA.soutA1_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t : Vec Ideal S4096x128 .f32) (iblk m c 1 t : Vec Ideal S4096x128 .i32) b l

/-- Every other point adds to what the point before left. -/
theorem S1_next (b : Fin 16) (l : Fin 128) (n : ℕ) (hn : n < cfg0.N) (h0 : n % 32 ≠ 0) :
    S1 m c b l n = S1 m c b l (n - 1) + g1 m c b l n := by
  have hN : cfg0.N = 64 := N_0
  have hn' : n - 1 < cfg0.N := by omega
  unfold S1 g1
  rw [dif_pos hn, dif_pos hn, dif_pos hn']
  obtain ⟨t, rfl⟩ : ∃ t : Fin cfg0.N, t.val = n := ⟨⟨n, hn⟩, rfl⟩
  by_cases h1 : t.val % 32 = 31
  · rw [outsAt0_C m c t h0 h1]
    exact Cert.KernelIdeal.ScratchC1.soutC1_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t : Vec Ideal S4096x128 .f32) (iblk m c 1 t : Vec Ideal S4096x128 .i32) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b l
  · rw [outsAt0_B m c t h0 h1]
    exact Cert.KernelIdeal.ScratchB1.soutB1_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t : Vec Ideal S4096x128 .f32) (iblk m c 1 t : Vec Ideal S4096x128 .i32) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b l

/-- What a point adds, read off the argument arrays: the point is block `n % 32` of core `n / 32`. -/
theorem g1_eq (b : Fin 16) (l : Fin 128) (q : ℕ) (hq : q < 2) (i : Fin 32) :
    g1 m c b l (q * 32 + i.val)
      = if b.val < 15 then ∑ r : Fin 4096, kconf (BitVec.ofNat 32 b.val)
          (m ((c : Thread nD τ).loc main_arg0) (Cert.Layout.elemIdx ⟨q, hq⟩ i r l)) else 0 := by
  have hN : cfg0.N = 64 := N_0
  have hi := i.isLt
  have hk : q * 32 + i.val < cfg0.N := by omega
  unfold g1 add1
  rw [dif_pos hk]
  refine if_congr Iff.rfl (Finset.sum_congr rfl fun r _ => ?_) rfl
  have e0 := Cert.BlockRead.iblk0_apply m c ⟨q * 32 + i.val, hk⟩ r l

  have ec : (⟨(q * 32 + i.val) / 32, Cert.BlockRead.core_lt ⟨q * 32 + i.val, hk⟩⟩ : Fin 2) = ⟨q, hq⟩ := Fin.ext (by show (q * 32 + i.val) / 32 = q; omega)
  have ei : (⟨(q * 32 + i.val) % 32, Cert.BlockRead.blk_lt ⟨q * 32 + i.val, hk⟩⟩ : Fin 32) = i := Fin.ext (by show (q * 32 + i.val) % 32 = i.val; omega)
  rw [ec, ei] at e0
  rw [e0]

set_option maxHeartbeats 4000000 in
/-- After a core's last point, output window 3's staging buffer holds the core's part of the array. -/
theorem out3_last (t : Fin cfg0.N) (h31 : t.val % 32 = 31) (b : Fin 16) (l : Fin 128) :
    (outsAt0 m c t.val t.isLt).2.1 (ix3 (0 : Fin 1) b l)
      = Cert.Final.confArr (m ((c : Thread nD τ).loc main_arg0)) (ix3 ⟨t.val / 32, Cert.BlockRead.core_lt t⟩ b l) := by
  have hN : cfg0.N = 64 := N_0
  have h0 : ¬ t.val % 32 = 0 := by omega
  have hq : t.val / 32 < 2 := Cert.BlockRead.core_lt t
  -- the output is the accumulator after this point
  have eS : (outsAt0 m c t.val t.isLt).2.1 (ix3 (0 : Fin 1) b l) = S1 m c b l t.val := by
    unfold S1
    rw [dif_pos t.isLt, outsAt0_C m c t h0 h31]
    exact Cert.KernelIdeal.OutC.outC3_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h31) (iblk m c 0 t : Vec Ideal S4096x128 .f32) (iblk m c 1 t : Vec Ideal S4096x128 .i32) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b l
  rw [eS, Cert.LibGridAccum.accum_last (S1 m c b l) (g1 m c b l) cfg0.N
    (fun n hn h => S1_first m c b l n hn h) (fun n hn h => S1_next m c b l n hn h) t.val t.isLt h31]
  unfold Cert.Final.confArr
  by_cases hb : b.val < 15
  · rw [dif_pos (show ((ix3 (⟨t.val / 32, hq⟩ : Fin 2) b l : Cert.Final.S2x16x128.Idx) 1).val < 15 from hb)]
    refine Finset.sum_congr rfl fun i _ => ?_
    rw [g1_eq m c b l (t.val / 32) hq i, if_pos hb]
    refine Finset.sum_congr rfl fun r _ => ?_
    exact kconf_eq (Cert.Final.binOf b.val hb) _
  · rw [dif_neg (show ¬ ((ix3 (⟨t.val / 32, hq⟩ : Fin 2) b l : Cert.Final.S2x16x128.Idx) 1).val < 15 from hb)]
    refine Finset.sum_eq_zero fun i _ => ?_
    rw [g1_eq m c b l (t.val / 32) hq i, if_neg hb]

/-! ### Accumulator 2 -/

/-- Accumulator 2 after point `n`, at (row, lane); zero past the grid. -/
def S2 (b : Fin 16) (l : Fin 128) (n : ℕ) : EReal :=
  if h : n < cfg0.N then (outsAt0 m c n h).2.2.2.2.2 (ix2 b l) else 0

/-- What point `n`'s block adds to accumulator 2 at (row, lane); zero past the grid. -/
def g2 (b : Fin 16) (l : Fin 128) (n : ℕ) : EReal :=
  if h : n < cfg0.N then add2 (iblk m c 0 ⟨n, h⟩ : Vec Ideal S4096x128 .f32) (iblk m c 1 ⟨n, h⟩ : Vec Ideal S4096x128 .i32) b l else 0

/-- A core's first point starts the accumulator afresh. -/
theorem S2_first (b : Fin 16) (l : Fin 128) (n : ℕ) (hn : n < cfg0.N) (h0 : n % 32 = 0) :
    S2 m c b l n = g2 m c b l n := by
  have hN : cfg0.N = 64 := N_0
  have h1 : ¬ n % 32 = 31 := by omega
  unfold S2 g2
  rw [dif_pos hn, dif_pos hn]
  obtain ⟨t, rfl⟩ : ∃ t : Fin cfg0.N, t.val = n := ⟨⟨n, hn⟩, rfl⟩
  rw [outsAt0_A m c t h0 h1]
  exact Cert.KernelIdeal.ScratchA.soutA2_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t : Vec Ideal S4096x128 .f32) (iblk m c 1 t : Vec Ideal S4096x128 .i32) b l

/-- Every other point adds to what the point before left. -/
theorem S2_next (b : Fin 16) (l : Fin 128) (n : ℕ) (hn : n < cfg0.N) (h0 : n % 32 ≠ 0) :
    S2 m c b l n = S2 m c b l (n - 1) + g2 m c b l n := by
  have hN : cfg0.N = 64 := N_0
  have hn' : n - 1 < cfg0.N := by omega
  unfold S2 g2
  rw [dif_pos hn, dif_pos hn, dif_pos hn']
  obtain ⟨t, rfl⟩ : ∃ t : Fin cfg0.N, t.val = n := ⟨⟨n, hn⟩, rfl⟩
  by_cases h1 : t.val % 32 = 31
  · rw [outsAt0_C m c t h0 h1]
    exact Cert.KernelIdeal.ScratchC2.soutC2_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t : Vec Ideal S4096x128 .f32) (iblk m c 1 t : Vec Ideal S4096x128 .i32) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b l
  · rw [outsAt0_B m c t h0 h1]
    exact Cert.KernelIdeal.ScratchB2.soutB2_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t : Vec Ideal S4096x128 .f32) (iblk m c 1 t : Vec Ideal S4096x128 .i32) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b l

/-- What a point adds, read off the argument arrays: the point is block `n % 32` of core `n / 32`. -/
theorem g2_eq (b : Fin 16) (l : Fin 128) (q : ℕ) (hq : q < 2) (i : Fin 32) :
    g2 m c b l (q * 32 + i.val)
      = if b.val < 15 then ∑ r : Fin 4096, kacc (BitVec.ofNat 32 b.val)
          (m ((c : Thread nD τ).loc main_arg0) (Cert.Layout.elemIdx ⟨q, hq⟩ i r l))
          (m ((c : Thread nD τ).loc main_arg1) (Cert.Layout.elemIdx ⟨q, hq⟩ i r l)) else 0 := by
  have hN : cfg0.N = 64 := N_0
  have hi := i.isLt
  have hk : q * 32 + i.val < cfg0.N := by omega
  unfold g2 add2
  rw [dif_pos hk]
  refine if_congr Iff.rfl (Finset.sum_congr rfl fun r _ => ?_) rfl
  have e0 := Cert.BlockRead.iblk0_apply m c ⟨q * 32 + i.val, hk⟩ r l
  have e1 := Cert.BlockRead.iblk1_apply m c ⟨q * 32 + i.val, hk⟩ r l
  have ec : (⟨(q * 32 + i.val) / 32, Cert.BlockRead.core_lt ⟨q * 32 + i.val, hk⟩⟩ : Fin 2) = ⟨q, hq⟩ := Fin.ext (by show (q * 32 + i.val) / 32 = q; omega)
  have ei : (⟨(q * 32 + i.val) % 32, Cert.BlockRead.blk_lt ⟨q * 32 + i.val, hk⟩⟩ : Fin 32) = i := Fin.ext (by show (q * 32 + i.val) % 32 = i.val; omega)
  rw [ec, ei] at e0
  rw [ec, ei] at e1
  rw [e0, e1]

set_option maxHeartbeats 4000000 in
/-- After a core's last point, output window 4's staging buffer holds the core's part of the array. -/
theorem out4_last (t : Fin cfg0.N) (h31 : t.val % 32 = 31) (b : Fin 16) (l : Fin 128) :
    (outsAt0 m c t.val t.isLt).2.2.1 (ix3 (0 : Fin 1) b l)
      = Cert.Final.accArr (m ((c : Thread nD τ).loc main_arg0)) (m ((c : Thread nD τ).loc main_arg1)) (ix3 ⟨t.val / 32, Cert.BlockRead.core_lt t⟩ b l) := by
  have hN : cfg0.N = 64 := N_0
  have h0 : ¬ t.val % 32 = 0 := by omega
  have hq : t.val / 32 < 2 := Cert.BlockRead.core_lt t
  -- the output is the accumulator after this point
  have eS : (outsAt0 m c t.val t.isLt).2.2.1 (ix3 (0 : Fin 1) b l) = S2 m c b l t.val := by
    unfold S2
    rw [dif_pos t.isLt, outsAt0_C m c t h0 h31]
    exact Cert.KernelIdeal.OutC.outC4_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h31) (iblk m c 0 t : Vec Ideal S4096x128 .f32) (iblk m c 1 t : Vec Ideal S4096x128 .i32) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b l
  rw [eS, Cert.LibGridAccum.accum_last (S2 m c b l) (g2 m c b l) cfg0.N
    (fun n hn h => S2_first m c b l n hn h) (fun n hn h => S2_next m c b l n hn h) t.val t.isLt h31]
  unfold Cert.Final.accArr
  by_cases hb : b.val < 15
  · rw [dif_pos (show ((ix3 (⟨t.val / 32, hq⟩ : Fin 2) b l : Cert.Final.S2x16x128.Idx) 1).val < 15 from hb)]
    refine Finset.sum_congr rfl fun i _ => ?_
    rw [g2_eq m c b l (t.val / 32) hq i, if_pos hb]
    refine Finset.sum_congr rfl fun r _ => ?_
    exact kacc_eq (Cert.Final.binOf b.val hb) _ _
  · rw [dif_neg (show ¬ ((ix3 (⟨t.val / 32, hq⟩ : Fin 2) b l : Cert.Final.S2x16x128.Idx) 1).val < 15 from hb)]
    refine Finset.sum_eq_zero fun i _ => ?_
    rw [g2_eq m c b l (t.val / 32) hq i, if_neg hb]

end Cert.KernelIdeal.Accum

end
-- ==== Proof.Arrays.lean ====
/-
  The kernel's three output arrays when the region ends, from what the output staging buffers hold after the last
  point of each core.

  Each output array has shape 2 × 16 × 128 and is written in blocks of shape 1 × 16 × 128: the block of grid point
  `t` (of 64) is row-block `t / 32` of the first axis. A block is written back only at the last point of each core,
  `t ≡ 31 (mod 32)`. If at those points the staging buffer holds row-block `t / 32` of an array `G`, then, the two
  blocks of points 31 and 63 covering the array, the array ends holding `G`.
-/
import proofs.«114207_j16947940950786_2_alg».proof.Proof.Gen.KernelIdeal.Frame
import proofs.«114207_j16947940950786_2_alg».proof.Proof.Final
import proofs.«114207_j16947940950786_2_alg».proof.Proof.BlockRead
import Idealize.ShloMosaic.Lib.Pipeline.Value
import Idealize.ShloMosaic.Lib.Tactic

noncomputable section

namespace Cert.Arrays

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen

variable (m : (ℓ : Loc nD τ sig) → Buf (Elt Ideal) ℓ)

/-- A block `X` of shape 1 × 16 × 128 that is, entry by entry, row-block `k` of an array `G` of shape 2 × 16 × 128:
    its entry at `y` is `G` at any index `i` with coordinates `(k, y₁, y₂)`. -/
theorem entry_eq (X : S1x16x128.Idx → EReal) (G : S2x16x128.Idx → EReal) (k : Fin 2)
    (h : ∀ (b : Fin 16) (l : Fin 128), X (ix3 (0 : Fin 1) b l) = G (ix3 k b l))
    (y : S1x16x128.Idx) (i : S2x16x128.Idx)
    (h0 : (i 0).val = k.val) (h1 : (i 1).val = (y 1).val) (h2 : (i 2).val = (y 2).val) : X y = G i := by
  have ey : y = ix3 (0 : Fin 1) (y 1) (y 2) := by
    funext a
    match a with
    | ⟨0, _⟩ => exact Fin.ext (by have : (y 0).val < 1 := (y 0).isLt; show (y 0).val = 0; omega)
    | ⟨1, _⟩ => rfl
    | ⟨2, _⟩ => rfl
  have ei : i = ix3 k (y 1) (y 2) := by
    funext a
    match a with
    | ⟨0, _⟩ => exact Fin.ext h0
    | ⟨1, _⟩ => exact Fin.ext h1
    | ⟨2, _⟩ => exact Fin.ext h2
  exact (congrArg X ey).trans ((h (y 1) (y 2)).trans (congrArg G ei.symm))

/-! ## Output window 2: the array of counts -/

/-- Window 2's block at point `t` is block `t / 32` of the first axis, block 0 of the other two. -/
theorem idx2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- What a point that writes window 2 back writes is its block of the array of counts. -/
theorem flushed2_eq
    (hOut : ∀ (c : Dev nD) (t : Fin cfg0.N), t.val % 32 = 31 → ∀ (b : Fin 16) (l : Fin 128),
      (outsAt0 m c t.val t.isLt).1 (ix3 (0 : Fin 1) b l)
        = Cert.Final.cntArr (m ((c : Thread nD τ).loc main_arg0)) (ix3 ⟨t.val / 32, Cert.BlockRead.core_lt t⟩ b l))
    (c : Dev nD) (t : Fin cfg0.N) (hf : (cfg0.win 2).flush t = true) :
    (dats m 0 c).flushed 2 t
      = ((cfg0.win 2).blk t).view.read (Elt Ideal) (Cert.Final.cntArr (m ((c : Thread nD τ).loc main_arg0))) := by
  have h31 : t.val % 32 = 31 := (flush0_2 t).mp hf
  obtain ⟨e0, e1, e2⟩ := idx2 t
  show (cfg0.win 2).cut (grid0.coords t) ((dats m 0 c).after 2 t) = _
  rw [after0_2]
  funext y
  rw [View.read_apply]
  show (outsAt0 m c t.val t.isLt).1 ((cfg0.win 2).xinj (grid0.coords t) y)
    = Cert.Final.cntArr (m ((c : Thread nD τ).loc main_arg0)) (((cfg0.win 2).blk t).view.emb y)
  refine entry_eq _ _ ⟨t.val / 32, Cert.BlockRead.core_lt t⟩ (hOut c t h31) _ _ ?_ ?_ ?_
  · show win0_2.index t 0 * 1 + 1 * (y 0).val = t.val / 32
    have : (y 0).val < 1 := (y 0).isLt
    omega
  · show win0_2.index t 1 * 16 + 1 * (y 1).val = (y 1).val
    omega
  · show win0_2.index t 2 * 128 + 1 * (y 2).val = (y 2).val
    omega

/-- An index of the array is in point `t`'s block iff each coordinate is in the block's range on its axis. -/
theorem mem_blk2 (t : Fin cfg0.N) (i : S2x16x128.Idx) :
    i ∈ ((cfg0.win 2).blk t).view.set ↔ ∀ a : Fin 3, win0_2.index t a * S1x16x128.size a ≤ (i a).val
      ∧ (i a).val < win0_2.index t a * S1x16x128.size a + S1x16x128.size a := by
  show i ∈ ((View.whole main_v2_0).slice (win0_2.rect t)).set ↔ _
  rw [View.set_slice_whole, Rect.mem_set_unit]
  exact Iff.rfl

/-- Every index `(k, b, l)` of the array is in the block of the last point of core `k`, which is written back. -/
theorem cover2 (i : S2x16x128.Idx) :
    ∃ t : Fin cfg0.N, (cfg0.win 2).flush t = true ∧ i ∈ ((cfg0.win 2).blk t).view.set := by
  have hk : (i 0).val < 2 := (i 0).isLt
  have h1 : (i 1).val < 16 := (i 1).isLt
  have h2 : (i 2).val < 128 := (i 2).isLt
  have hT : 32 * (i 0).val + 31 < cfg0.N := lt_of_lt_of_eq (show 32 * (i 0).val + 31 < 64 by omega) N_0.symm
  obtain ⟨e0, e1, e2⟩ := idx2 ⟨32 * (i 0).val + 31, hT⟩
  have e0' : win0_2.index ⟨32 * (i 0).val + 31, hT⟩ 0 = (32 * (i 0).val + 31) / 32 := e0
  refine ⟨⟨32 * (i 0).val + 31, hT⟩, (flush0_2 _).mpr (show (32 * (i 0).val + 31) % 32 = 31 by omega), ?_⟩
  rw [mem_blk2]
  intro a
  match a with
  | ⟨0, _⟩ =>
    show win0_2.index ⟨32 * (i 0).val + 31, hT⟩ 0 * 1 ≤ (i 0).val
      ∧ (i 0).val < win0_2.index ⟨32 * (i 0).val + 31, hT⟩ 0 * 1 + 1
    rw [e0']; omega
  | ⟨1, _⟩ =>
    show win0_2.index ⟨32 * (i 0).val + 31, hT⟩ 1 * 16 ≤ (i 1).val
      ∧ (i 1).val < win0_2.index ⟨32 * (i 0).val + 31, hT⟩ 1 * 16 + 16
    rw [e1]; omega
  | ⟨2, _⟩ =>
    show win0_2.index ⟨32 * (i 0).val + 31, hT⟩ 2 * 128 ≤ (i 2).val
      ∧ (i 2).val < win0_2.index ⟨32 * (i 0).val + 31, hT⟩ 2 * 128 + 128
    rw [e2]; omega

/-- So the array ends holding the counts. -/
theorem final2
    (hOut : ∀ (c : Dev nD) (t : Fin cfg0.N), t.val % 32 = 31 → ∀ (b : Fin 16) (l : Fin 128),
      (outsAt0 m c t.val t.isLt).1 (ix3 (0 : Fin 1) b l)
        = Cert.Final.cntArr (m ((c : Thread nD τ).loc main_arg0)) (ix3 ⟨t.val / 32, Cert.BlockRead.core_lt t⟩ b l))
    (c : Dev nD) :
    (dats m 0 c).arrAt 2 cfg0.N = Cert.Final.cntArr (m ((c : Thread nD τ).loc main_arg0)) :=
  (dats m 0 c).arrAt_eq_of_cover 2 (Cert.Final.cntArr (m ((c : Thread nD τ).loc main_arg0))) (flushed2_eq m hOut c) cover2

/-! ## Output window 3: the array of probability sums -/

/-- Window 3's block at point `t` is block `t / 32` of the first axis, block 0 of the other two. -/
theorem idx3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)

/-- What a point that writes window 3 back writes is its block of the array of probability sums. -/
theorem flushed3_eq
    (hOut : ∀ (c : Dev nD) (t : Fin cfg0.N), t.val % 32 = 31 → ∀ (b : Fin 16) (l : Fin 128),
      (outsAt0 m c t.val t.isLt).2.1 (ix3 (0 : Fin 1) b l)
        = Cert.Final.confArr (m ((c : Thread nD τ).loc main_arg0)) (ix3 ⟨t.val / 32, Cert.BlockRead.core_lt t⟩ b l))
    (c : Dev nD) (t : Fin cfg0.N) (hf : (cfg0.win 3).flush t = true) :
    (dats m 0 c).flushed 3 t
      = ((cfg0.win 3).blk t).view.read (Elt Ideal) (Cert.Final.confArr (m ((c : Thread nD τ).loc main_arg0))) := by
  have h31 : t.val % 32 = 31 := (flush0_3 t).mp hf
  obtain ⟨e0, e1, e2⟩ := idx3 t
  show (cfg0.win 3).cut (grid0.coords t) ((dats m 0 c).after 3 t) = _
  rw [after0_3]
  funext y
  rw [View.read_apply]
  show (outsAt0 m c t.val t.isLt).2.1 ((cfg0.win 3).xinj (grid0.coords t) y)
    = Cert.Final.confArr (m ((c : Thread nD τ).loc main_arg0)) (((cfg0.win 3).blk t).view.emb y)
  refine entry_eq _ _ ⟨t.val / 32, Cert.BlockRead.core_lt t⟩ (hOut c t h31) _ _ ?_ ?_ ?_
  · show win0_3.index t 0 * 1 + 1 * (y 0).val = t.val / 32
    have : (y 0).val < 1 := (y 0).isLt
    omega
  · show win0_3.index t 1 * 16 + 1 * (y 1).val = (y 1).val
    omega
  · show win0_3.index t 2 * 128 + 1 * (y 2).val = (y 2).val
    omega

/-- An index of the array is in point `t`'s block iff each coordinate is in the block's range on its axis. -/
theorem mem_blk3 (t : Fin cfg0.N) (i : S2x16x128.Idx) :
    i ∈ ((cfg0.win 3).blk t).view.set ↔ ∀ a : Fin 3, win0_3.index t a * S1x16x128.size a ≤ (i a).val
      ∧ (i a).val < win0_3.index t a * S1x16x128.size a + S1x16x128.size a := by
  show i ∈ ((View.whole main_v2_1).slice (win0_3.rect t)).set ↔ _
  rw [View.set_slice_whole, Rect.mem_set_unit]
  exact Iff.rfl

/-- Every index `(k, b, l)` of the array is in the block of the last point of core `k`, which is written back. -/
theorem cover3 (i : S2x16x128.Idx) :
    ∃ t : Fin cfg0.N, (cfg0.win 3).flush t = true ∧ i ∈ ((cfg0.win 3).blk t).view.set := by
  have hk : (i 0).val < 2 := (i 0).isLt
  have h1 : (i 1).val < 16 := (i 1).isLt
  have h2 : (i 2).val < 128 := (i 2).isLt
  have hT : 32 * (i 0).val + 31 < cfg0.N := lt_of_lt_of_eq (show 32 * (i 0).val + 31 < 64 by omega) N_0.symm
  obtain ⟨e0, e1, e2⟩ := idx3 ⟨32 * (i 0).val + 31, hT⟩
  have e0' : win0_3.index ⟨32 * (i 0).val + 31, hT⟩ 0 = (32 * (i 0).val + 31) / 32 := e0
  refine ⟨⟨32 * (i 0).val + 31, hT⟩, (flush0_3 _).mpr (show (32 * (i 0).val + 31) % 32 = 31 by omega), ?_⟩
  rw [mem_blk3]
  intro a
  match a with
  | ⟨0, _⟩ =>
    show win0_3.index ⟨32 * (i 0).val + 31, hT⟩ 0 * 1 ≤ (i 0).val
      ∧ (i 0).val < win0_3.index ⟨32 * (i 0).val + 31, hT⟩ 0 * 1 + 1
    rw [e0']; omega
  | ⟨1, _⟩ =>
    show win0_3.index ⟨32 * (i 0).val + 31, hT⟩ 1 * 16 ≤ (i 1).val
      ∧ (i 1).val < win0_3.index ⟨32 * (i 0).val + 31, hT⟩ 1 * 16 + 16
    rw [e1]; omega
  | ⟨2, _⟩ =>
    show win0_3.index ⟨32 * (i 0).val + 31, hT⟩ 2 * 128 ≤ (i 2).val
      ∧ (i 2).val < win0_3.index ⟨32 * (i 0).val + 31, hT⟩ 2 * 128 + 128
    rw [e2]; omega

/-- So the array ends holding the probability sums. -/
theorem final3
    (hOut : ∀ (c : Dev nD) (t : Fin cfg0.N), t.val % 32 = 31 → ∀ (b : Fin 16) (l : Fin 128),
      (outsAt0 m c t.val t.isLt).2.1 (ix3 (0 : Fin 1) b l)
        = Cert.Final.confArr (m ((c : Thread nD τ).loc main_arg0)) (ix3 ⟨t.val / 32, Cert.BlockRead.core_lt t⟩ b l))
    (c : Dev nD) :
    (dats m 0 c).arrAt 3 cfg0.N = Cert.Final.confArr (m ((c : Thread nD τ).loc main_arg0)) :=
  (dats m 0 c).arrAt_eq_of_cover 3 (Cert.Final.confArr (m ((c : Thread nD τ).loc main_arg0))) (flushed3_eq m hOut c) cover3

/-! ## Output window 4: the array of label sums -/

/-- Window 4's block at point `t` is block `t / 32` of the first axis, block 0 of the other two. -/
theorem idx4 : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)

/-- What a point that writes window 4 back writes is its block of the array of label sums. -/
theorem flushed4_eq
    (hOut : ∀ (c : Dev nD) (t : Fin cfg0.N), t.val % 32 = 31 → ∀ (b : Fin 16) (l : Fin 128),
      (outsAt0 m c t.val t.isLt).2.2.1 (ix3 (0 : Fin 1) b l)
        = Cert.Final.accArr (m ((c : Thread nD τ).loc main_arg0)) (m ((c : Thread nD τ).loc main_arg1)) (ix3 ⟨t.val / 32, Cert.BlockRead.core_lt t⟩ b l))
    (c : Dev nD) (t : Fin cfg0.N) (hf : (cfg0.win 4).flush t = true) :
    (dats m 0 c).flushed 4 t
      = ((cfg0.win 4).blk t).view.read (Elt Ideal) (Cert.Final.accArr (m ((c : Thread nD τ).loc main_arg0)) (m ((c : Thread nD τ).loc main_arg1))) := by
  have h31 : t.val % 32 = 31 := (flush0_4 t).mp hf
  obtain ⟨e0, e1, e2⟩ := idx4 t
  show (cfg0.win 4).cut (grid0.coords t) ((dats m 0 c).after 4 t) = _
  rw [after0_4]
  funext y
  rw [View.read_apply]
  show (outsAt0 m c t.val t.isLt).2.2.1 ((cfg0.win 4).xinj (grid0.coords t) y)
    = Cert.Final.accArr (m ((c : Thread nD τ).loc main_arg0)) (m ((c : Thread nD τ).loc main_arg1)) (((cfg0.win 4).blk t).view.emb y)
  refine entry_eq _ _ ⟨t.val / 32, Cert.BlockRead.core_lt t⟩ (hOut c t h31) _ _ ?_ ?_ ?_
  · show win0_4.index t 0 * 1 + 1 * (y 0).val = t.val / 32
    have : (y 0).val < 1 := (y 0).isLt
    omega
  · show win0_4.index t 1 * 16 + 1 * (y 1).val = (y 1).val
    omega
  · show win0_4.index t 2 * 128 + 1 * (y 2).val = (y 2).val
    omega

/-- An index of the array is in point `t`'s block iff each coordinate is in the block's range on its axis. -/
theorem mem_blk4 (t : Fin cfg0.N) (i : S2x16x128.Idx) :
    i ∈ ((cfg0.win 4).blk t).view.set ↔ ∀ a : Fin 3, win0_4.index t a * S1x16x128.size a ≤ (i a).val
      ∧ (i a).val < win0_4.index t a * S1x16x128.size a + S1x16x128.size a := by
  show i ∈ ((View.whole main_v2_2).slice (win0_4.rect t)).set ↔ _
  rw [View.set_slice_whole, Rect.mem_set_unit]
  exact Iff.rfl

/-- Every index `(k, b, l)` of the array is in the block of the last point of core `k`, which is written back. -/
theorem cover4 (i : S2x16x128.Idx) :
    ∃ t : Fin cfg0.N, (cfg0.win 4).flush t = true ∧ i ∈ ((cfg0.win 4).blk t).view.set := by
  have hk : (i 0).val < 2 := (i 0).isLt
  have h1 : (i 1).val < 16 := (i 1).isLt
  have h2 : (i 2).val < 128 := (i 2).isLt
  have hT : 32 * (i 0).val + 31 < cfg0.N := lt_of_lt_of_eq (show 32 * (i 0).val + 31 < 64 by omega) N_0.symm
  obtain ⟨e0, e1, e2⟩ := idx4 ⟨32 * (i 0).val + 31, hT⟩
  have e0' : win0_4.index ⟨32 * (i 0).val + 31, hT⟩ 0 = (32 * (i 0).val + 31) / 32 := e0
  refine ⟨⟨32 * (i 0).val + 31, hT⟩, (flush0_4 _).mpr (show (32 * (i 0).val + 31) % 32 = 31 by omega), ?_⟩
  rw [mem_blk4]
  intro a
  match a with
  | ⟨0, _⟩ =>
    show win0_4.index ⟨32 * (i 0).val + 31, hT⟩ 0 * 1 ≤ (i 0).val
      ∧ (i 0).val < win0_4.index ⟨32 * (i 0).val + 31, hT⟩ 0 * 1 + 1
    rw [e0']; omega
  | ⟨1, _⟩ =>
    show win0_4.index ⟨32 * (i 0).val + 31, hT⟩ 1 * 16 ≤ (i 1).val
      ∧ (i 1).val < win0_4.index ⟨32 * (i 0).val + 31, hT⟩ 1 * 16 + 16
    rw [e1]; omega
  | ⟨2, _⟩ =>
    show win0_4.index ⟨32 * (i 0).val + 31, hT⟩ 2 * 128 ≤ (i 2).val
      ∧ (i 2).val < win0_4.index ⟨32 * (i 0).val + 31, hT⟩ 2 * 128 + 128
    rw [e2]; omega

/-- So the array ends holding the label sums. -/
theorem final4
    (hOut : ∀ (c : Dev nD) (t : Fin cfg0.N), t.val % 32 = 31 → ∀ (b : Fin 16) (l : Fin 128),
      (outsAt0 m c t.val t.isLt).2.2.1 (ix3 (0 : Fin 1) b l)
        = Cert.Final.accArr (m ((c : Thread nD τ).loc main_arg0)) (m ((c : Thread nD τ).loc main_arg1)) (ix3 ⟨t.val / 32, Cert.BlockRead.core_lt t⟩ b l))
    (c : Dev nD) :
    (dats m 0 c).arrAt 4 cfg0.N = Cert.Final.accArr (m ((c : Thread nD τ).loc main_arg0)) (m ((c : Thread nD τ).loc main_arg1)) :=
  (dats m 0 c).arrAt_eq_of_cover 4 (Cert.Final.accArr (m ((c : Thread nD τ).loc main_arg0)) (m ((c : Thread nD τ).loc main_arg1))) (flushed4_eq m hOut c) cover4

end Cert.Arrays

end
-- ==== Proof.LibTailSum.lean ====
/-
  A host sum over the first and last axes of a slice, read at an index.

  Take an array of shape 2 × 16 × 128 over the extended reals, keep its first fifteen rows of the middle axis (the
  slice at offsets 0, 0, 0 of shape 2 × 15 × 128), and sum over the first and the last axis starting from the
  constant zero. The result at `j` (of fifteen) is the double sum, over the first coordinate `c` and the last
  coordinate `l`, of the array at `(c, j, l)`: the indices of the slice that drop to `j` are exactly the `(c, j, l)`,
  and the slice at offset zero reads the array at the same coordinates.
-/
import Idealize.ShloMosaic.PureOps.Ideal
import Idealize.ShloMosaic.PureOps.Ideal.Laws
import Idealize.ShloMosaic.Lib.ValueIdx

noncomputable section

open scoped BigOperators

/-!
  The host's sum over the first and last axes of the leading 2 × 15 × 128 slice of a 2 × 16 × 128 array of extended
  reals, from the constant zero, read at an index: the double sum over the first and last coordinates (`tail_sum`).
-/

namespace Cert.LibTailSum

open Idealize.ShloMosaic Idealize.ShloMosaic.ValueIdx

abbrev S2x16x128 : Shape := ⟨3, ![2, 16, 128]⟩
abbrev S2x15x128 : Shape := ⟨3, ![2, 15, 128]⟩
abbrev S15 : Shape := ⟨1, ![15]⟩
abbrev S_ : Shape := ⟨0, ![]⟩

/-- A coordinate of the fifteen is a coordinate of the sixteen. -/
theorem lt16 (j : S15.Idx) : (j 0).val < 16 := Nat.lt_succ_of_lt (j 0).isLt

/-- Dropping the first and the last axis of `(c, b, l)` leaves `(b)`; -/
theorem drop_ix3 (hr : S2x15x128.ReducesTo [0, 2] S15) (c : Fin 2) (b : Fin 15) (l : Fin 128) :
    hr.drop (ix3 c b l) = ix1 b := by
  funext d
  match d with
  | ⟨0, _⟩ => rfl

/-- and an index that drops to `j` is `(its first coordinate, j, its last coordinate)`; -/
theorem eq_ix3_of_drop (hr : S2x15x128.ReducesTo [0, 2] S15) (i : S2x15x128.Idx) (j : S15.Idx)
    (h : hr.drop i = j) : i = ix3 (i 0) (j 0) (i 2) := by
  subst h
  funext a
  match a with
  | ⟨0, _⟩ => rfl
  | ⟨1, _⟩ => rfl
  | ⟨2, _⟩ => rfl

/-- so the indices the sum at `j` runs over are the `(c, j, l)`, one for each pair `(c, l)`. -/
def pairEmb (j : S15.Idx) : Fin 2 × Fin 128 ↪ S2x15x128.Idx :=
  ⟨fun p => ix3 p.1 (j 0) p.2, fun p q h => by
    have h0 : p.1 = q.1 := congrFun h 0
    have h2 : p.2 = q.2 := congrFun h 2
    exact Prod.ext h0 h2⟩

theorem filter_drop (hr : S2x15x128.ReducesTo [0, 2] S15) (j : S15.Idx) :
    Finset.univ.filter (fun i : S2x15x128.Idx => hr.drop i = j) = Finset.univ.map (pairEmb j) := by
  ext i
  simp only [Finset.mem_filter, Finset.mem_univ, true_and, Finset.mem_map, pairEmb, Function.Embedding.coeFn_mk]
  constructor
  · intro h
    exact ⟨(i 0, i 2), (eq_ix3_of_drop hr i j h).symm⟩
  · rintro ⟨p, hp⟩
    exact hp ▸ (drop_ix3 hr p.1 (j 0) p.2).trans (eq_ix1 j).symm

/-- The slice at offset zero reads the array at the same coordinates. -/
theorem slice_ix3 {α : Type} (out : S2x16x128.Idx → α) (h : S2x16x128.Slices ![0, 0, 0] S2x15x128)
    (c : Fin 2) (b : Fin 15) (l : Fin 128) :
    extractStridedSlice S2x15x128 ![0, 0, 0] out h (ix3 c b l) = out (ix3 c ⟨b.val, Nat.lt_succ_of_lt b.isLt⟩ l) := by
  unfold extractStridedSlice
  congr 1
  funext a
  apply Fin.ext
  match a with
  | ⟨0, _⟩ => show 0 + c.val = c.val; omega
  | ⟨1, _⟩ => show 0 + b.val = b.val; omega
  | ⟨2, _⟩ => show 0 + l.val = l.val; omega

/-- The host's sum over the first and last axes of the slice, from the constant zero, at `j`: the double sum of the
    array at `(c, j, l)`. -/
theorem tail_sum (out : S2x16x128.Idx → EReal) (h : S2x16x128.Slices ![0, 0, 0] S2x15x128)
    (hr : S2x15x128.ReducesTo [0, 2] S15) (hz : 0 < S_.numel) (j : S15.Idx) :
    Host.reduceAdd (F := Ideal) (φ := .f32) (extractStridedSlice S2x15x128 ![0, 0, 0] out h)
        (constant (F := Ideal) S_ .f32 0x00000000#32) hr hz j
      = ∑ c : Fin 2, ∑ l : Fin 128, out (ix3 c ⟨(j 0).val, lt16 j⟩ l) := by
  show Ideal.hostReduceAdd hr _ (Ideal.ofBits .f32 0x00000000#32) j = _
  unfold Ideal.hostReduceAdd
  rw [Ideal.ofBits_zero_f32, zero_add, filter_drop, Finset.sum_map, Fintype.sum_prod_type]
  refine Finset.sum_congr rfl fun c _ => Finset.sum_congr rfl fun l _ => ?_
  exact slice_ix3 out h c (j 0) l

end Cert.LibTailSum

end
-- ==== Proof.LibSumBlocks.lean ====
/-
  The sum over a vector's 33554432 elements, split by where the kernel finds each element.

  Element number `n` is found at exactly one (core `c`, block `i`, row `r`, lane `l`), with
  `n = ((32·c + i)·4096 + r)·128 + l`: `c = n / 16777216`, `i = n / 524288 mod 32`, `r = n / 128 mod 4096`,
  `l = n mod 128`. So a sum over all elements is the fourfold sum over the coordinates, in any order of the four.
-/
import proofs.«114207_j16947940950786_2_alg».proof.Proof.Layout

noncomputable section

open scoped BigOperators

/-!
  The sum over the elements of the vector as the sum over cores, lanes, blocks and rows (`sum_elems`), through the
  bijection between the four coordinates and the element number (`elemEquiv`).
-/

namespace Cert.LibSumBlocks

open Idealize.ShloMosaic Idealize.ShloMosaic.ValueIdx Cert.Layout

/-- An element number is below the vector's length. -/
theorem val_lt (e : SN.Idx) : (e 0).val < 33554432 := (e 0).isLt

/-- The four coordinates and the element number determine each other. -/
def elemEquiv : (Fin 2 × Fin 32 × Fin 4096 × Fin 128) ≃ SN.Idx where
  toFun p := elemIdx p.1 p.2.1 p.2.2.1 p.2.2.2
  invFun e :=
    (⟨(e 0).val / 16777216, by have := val_lt e; omega⟩, ⟨(e 0).val / 524288 % 32, Nat.mod_lt _ (by decide)⟩,
      ⟨(e 0).val / 128 % 4096, Nat.mod_lt _ (by decide)⟩, ⟨(e 0).val % 128, Nat.mod_lt _ (by decide)⟩)
  left_inv := fun ⟨c, i, r, l⟩ => by
    have := c.isLt; have := i.isLt; have := r.isLt; have := l.isLt
    refine Prod.ext (Fin.ext ?_) (Prod.ext (Fin.ext ?_) (Prod.ext (Fin.ext ?_) (Fin.ext ?_)))
    · show (((c.val * 32 + i.val) * 4096 + r.val) * 128 + l.val) / 16777216 = c.val
      omega
    · show (((c.val * 32 + i.val) * 4096 + r.val) * 128 + l.val) / 524288 % 32 = i.val
      omega
    · show (((c.val * 32 + i.val) * 4096 + r.val) * 128 + l.val) / 128 % 4096 = r.val
      omega
    · show (((c.val * 32 + i.val) * 4096 + r.val) * 128 + l.val) % 128 = l.val
      omega
  right_inv := fun e => by
    have := val_lt e
    funext d
    match d with
    | ⟨0, _⟩ =>
      apply Fin.ext
      show (((e 0).val / 16777216 * 32 + (e 0).val / 524288 % 32) * 4096 + (e 0).val / 128 % 4096) * 128
        + (e 0).val % 128 = (e 0).val
      omega

/-- A sum over all elements is the sum over cores, lanes, blocks and rows of the element found there. -/
theorem sum_elems {M : Type*} [AddCommMonoid M] (f : SN.Idx → M) :
    ∑ e, f e = ∑ c : Fin 2, ∑ l : Fin 128, ∑ i : Fin 32, ∑ r : Fin 4096, f (elemIdx c i r l) := by
  rw [← Equiv.sum_comp elemEquiv f, Fintype.sum_prod_type]
  refine Finset.sum_congr rfl fun c _ => ?_
  rw [Fintype.sum_prod_type]
  refine ((Finset.sum_congr rfl fun i _ => ?_).trans Finset.sum_comm :
    _ = ∑ l : Fin 128, ∑ i : Fin 32, ∑ r : Fin 4096, f (elemIdx c i r l))
  rw [Fintype.sum_prod_type]
  exact Finset.sum_comm

end Cert.LibSumBlocks

end
-- ==== Proof.FlushTail.lean ====
/-
  From what the three output staging buffers hold after the last point of each core to the kernel's whole run: the run
  ends with the result array at the calibration error of the two argument arrays, and the arguments unchanged.

  After the region the host slices each of the three output arrays to its first fifteen rows and sums it over the cores
  and the lanes; the three sums are the three histograms (an output array's entry `(c, b, l)` being the sum, over the
  blocks and rows of core `c`, of the terms of bin `b` at lane `l`, and every element being found at exactly one core,
  lane, block and row). The remaining host lines are, operation for operation, the error computed from the histograms.
-/
import proofs.«114207_j16947940950786_2_alg».proof.Proof.Gen.KernelIdeal.Frame
import proofs.«114207_j16947940950786_2_alg».proof.Proof.Spec
import proofs.«114207_j16947940950786_2_alg».proof.Proof.Final
import proofs.«114207_j16947940950786_2_alg».proof.Proof.Arrays
import proofs.«114207_j16947940950786_2_alg».proof.Proof.LibTailSum
import proofs.«114207_j16947940950786_2_alg».proof.Proof.LibSumBlocks
import Idealize.ShloMosaic.Lib.Pipeline.Value
import Idealize.ShloMosaic.Lib.StableHlo.Run
import Idealize.ShloMosaic.Lib.Tactic

noncomputable section

open scoped BigOperators

namespace Cert.FlushTail

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The three histograms as sums of the output arrays' entries -/

/-- The counts array summed over cores and lanes at bin `j` is the count of bin `j` over all elements. -/
theorem counts_eq (p : Cert.Layout.SN.Idx → Ideal .f32) (j : Cert.Spec.S15.Idx) :
    ∑ c' : Fin 2, ∑ l : Fin 128, Cert.Final.cntArr p (ix3 c' ⟨(j 0).val, Cert.LibTailSum.lt16 j⟩ l)
      = Cert.Spec.counts p j := by
  refine Eq.trans ?_ (Cert.LibSumBlocks.sum_elems (fun e => Cert.Spec.cntTerm j (p e))).symm
  refine Finset.sum_congr rfl fun c' _ => Finset.sum_congr rfl fun l _ => ?_
  show (if h : (j 0).val < 15 then
      ∑ i : Fin 32, ∑ r : Fin 4096, Cert.Spec.cntTerm (Cert.Final.binOf (j 0).val h) (p (Cert.Layout.elemIdx c' i r l))
    else 0) = _
  have hj : (j 0).val < 15 := (j 0).isLt
  rw [dif_pos hj, show Cert.Final.binOf (j 0).val hj = j from (eq_ix1 j).symm]

/-- The array of probability sums summed over cores and lanes at bin `j` is the probability sum of bin `j`. -/
theorem confs_eq (p : Cert.Layout.SN.Idx → Ideal .f32) (j : Cert.Spec.S15.Idx) :
    ∑ c' : Fin 2, ∑ l : Fin 128, Cert.Final.confArr p (ix3 c' ⟨(j 0).val, Cert.LibTailSum.lt16 j⟩ l)
      = Cert.Spec.confs p j := by
  refine Eq.trans ?_ (Cert.LibSumBlocks.sum_elems (fun e => Cert.Spec.confTerm j (p e))).symm
  refine Finset.sum_congr rfl fun c' _ => Finset.sum_congr rfl fun l _ => ?_
  show (if h : (j 0).val < 15 then
      ∑ i : Fin 32, ∑ r : Fin 4096, Cert.Spec.confTerm (Cert.Final.binOf (j 0).val h) (p (Cert.Layout.elemIdx c' i r l))
    else 0) = _
  have hj : (j 0).val < 15 := (j 0).isLt
  rw [dif_pos hj, show Cert.Final.binOf (j 0).val hj = j from (eq_ix1 j).symm]

/-- The array of label sums summed over cores and lanes at bin `j` is the label sum of bin `j`. -/
theorem accs_eq (p : Cert.Layout.SN.Idx → Ideal .f32) (lab : Cert.Layout.SN.Idx → BitVec 32) (j : Cert.Spec.S15.Idx) :
    ∑ c' : Fin 2, ∑ l : Fin 128, Cert.Final.accArr p lab (ix3 c' ⟨(j 0).val, Cert.LibTailSum.lt16 j⟩ l)
      = Cert.Spec.accs p lab j := by
  refine Eq.trans ?_ (Cert.LibSumBlocks.sum_elems (fun e => Cert.Spec.accTerm j (p e) (lab e))).symm
  refine Finset.sum_congr rfl fun c' _ => Finset.sum_congr rfl fun l _ => ?_
  show (if h : (j 0).val < 15 then
      ∑ i : Fin 32, ∑ r : Fin 4096, Cert.Spec.accTerm (Cert.Final.binOf (j 0).val h) (p (Cert.Layout.elemIdx c' i r l))
        (lab (Cert.Layout.elemIdx c' i r l))
    else 0) = _
  have hj : (j 0).val < 15 := (j 0).isLt
  rw [dif_pos hj, show Cert.Final.binOf (j 0).val hj = j from (eq_ix1 j).symm]

/-! ## The host lines after the region -/

/-- The buffers as the region leaves them: the pipeline's arrays at their final contents, the others as at entry. -/
abbrev W (c : Dev nD) : Valuation τ sig (Elt Ideal) :=
  Pipeline.withArrays (cfgs 0).spec c (V0 m c) (fun w => (dats m 0 c).arrAt w (cfgs 0).N)

/-- The host's sum, over cores and lanes, of the first fifteen rows of an output array. -/
abbrev hsum (x : S2x16x128.Idx → EReal) : S15.Idx → EReal :=
  Host.reduceAdd (F := Ideal) (φ := .f32) (extractStridedSlice S2x15x128 ![0, 0, 0] x slices_S2x16x128_S2x15x128_0_0_0)
    (constant (F := Ideal) S_ .f32 0x00000000#32) reducesTo_S2x15x128_S15_d0_2 h_S_

/-- That sum at bin `j` is the double sum of the array's entries `(c, j, l)`. -/
theorem hsum_apply (x : S2x16x128.Idx → EReal) (j : S15.Idx) :
    hsum x j = ∑ c' : Fin 2, ∑ l : Fin 128, x (ix3 c' ⟨(j 0).val, Cert.LibTailSum.lt16 j⟩ l) :=
  Cert.LibTailSum.tail_sum x slices_S2x16x128_S2x15x128_0_0_0 reducesTo_S2x15x128_S15_d0_2 h_S_ j

set_option maxHeartbeats 1000000 in
/-- The result buffer after the host lines: the error computed from the three host sums of the output arrays. -/
theorem tail_v18 (c : Dev nD) :
    Pipeline.afterTail₀ cfgs (dats m) 0 (V0 m) [hostOps1] c main_v18
      = Cert.Spec.tail bcast_S_S15 reducesTo_S15_S_d0 h_S_
          (hsum (W m c (Proc.devRef .tc main_v2_0))) (hsum (W m c (Proc.devRef .tc main_v2_1)))
          (hsum (W m c (Proc.devRef .tc main_v2_2))) := by
  unfold Pipeline.afterTail₀
  simp only [List.flatten_cons, List.flatten_nil, List.append_nil]
  after_results_simp
  rfl

/-- With the output arrays at the three arrays of sums, the result buffer holds the calibration error. -/
theorem tail_eq
    (hOut2 : ∀ (c : Dev nD) (t : Fin cfg0.N), t.val % 32 = 31 → ∀ (b : Fin 16) (l : Fin 128),
      (outsAt0 m c t.val t.isLt).1 (ix3 (0 : Fin 1) b l)
        = Cert.Final.cntArr (m ((c : Thread nD τ).loc main_arg0)) (ix3 ⟨t.val / 32, Cert.BlockRead.core_lt t⟩ b l))
    (hOut3 : ∀ (c : Dev nD) (t : Fin cfg0.N), t.val % 32 = 31 → ∀ (b : Fin 16) (l : Fin 128),
      (outsAt0 m c t.val t.isLt).2.1 (ix3 (0 : Fin 1) b l)
        = Cert.Final.confArr (m ((c : Thread nD τ).loc main_arg0)) (ix3 ⟨t.val / 32, Cert.BlockRead.core_lt t⟩ b l))
    (hOut4 : ∀ (c : Dev nD) (t : Fin cfg0.N), t.val % 32 = 31 → ∀ (b : Fin 16) (l : Fin 128),
      (outsAt0 m c t.val t.isLt).2.2.1 (ix3 (0 : Fin 1) b l)
        = Cert.Final.accArr (m ((c : Thread nD τ).loc main_arg0)) (m ((c : Thread nD τ).loc main_arg1)) (ix3 ⟨t.val / 32, Cert.BlockRead.core_lt t⟩ b l))
    (c : Dev nD) :
    Pipeline.afterTail₀ cfgs (dats m) 0 (V0 m) [hostOps1] c main_v18
      = Cert.Spec.spec bcast_S_S15 reducesTo_S15_S_d0 h_S_ (m ((c.tc : Thread nD τ).loc main_arg0))
          (m ((c.tc : Thread nD τ).loc main_arg1)) := by
  have e2 : hsum (W m c (Proc.devRef .tc main_v2_0)) = Cert.Spec.counts (m ((c.tc : Thread nD τ).loc main_arg0)) := by
    have a : (W m c (Proc.devRef .tc main_v2_0) : S2x16x128.Idx → EReal) = (dats m 0 c).arrAt 2 cfg0.N :=
      Pipeline.withArrays_arr spec0 launch0.win.arr_inj c _ _ 2
    rw [a, Cert.Arrays.final2 m hOut2 c]
    funext j
    exact (hsum_apply _ j).trans (counts_eq _ j)
  have e3 : hsum (W m c (Proc.devRef .tc main_v2_1)) = Cert.Spec.confs (m ((c.tc : Thread nD τ).loc main_arg0)) := by
    have a : (W m c (Proc.devRef .tc main_v2_1) : S2x16x128.Idx → EReal) = (dats m 0 c).arrAt 3 cfg0.N :=
      Pipeline.withArrays_arr spec0 launch0.win.arr_inj c _ _ 3
    rw [a, Cert.Arrays.final3 m hOut3 c]
    funext j
    exact (hsum_apply _ j).trans (confs_eq _ j)
  have e4 : hsum (W m c (Proc.devRef .tc main_v2_2))
      = Cert.Spec.accs (m ((c.tc : Thread nD τ).loc main_arg0)) (m ((c.tc : Thread nD τ).loc main_arg1)) := by
    have a : (W m c (Proc.devRef .tc main_v2_2) : S2x16x128.Idx → EReal) = (dats m 0 c).arrAt 4 cfg0.N :=
      Pipeline.withArrays_arr spec0 launch0.win.arr_inj c _ _ 4
    rw [a, Cert.Arrays.final4 m hOut4 c]
    funext j
    exact (hsum_apply _ j).trans (accs_eq _ _ j)
  rw [tail_v18, e2, e3, e4]
  rfl

/-! ## The run -/

/-- The kernel's whole run: the result buffer ends at the calibration error of the two argument arrays, which end as
    launched. -/
theorem run
    (hOut2 : ∀ (c : Dev nD) (t : Fin cfg0.N), t.val % 32 = 31 → ∀ (b : Fin 16) (l : Fin 128),
      (outsAt0 m c t.val t.isLt).1 (ix3 (0 : Fin 1) b l)
        = Cert.Final.cntArr (m ((c : Thread nD τ).loc main_arg0)) (ix3 ⟨t.val / 32, Cert.BlockRead.core_lt t⟩ b l))
    (hOut3 : ∀ (c : Dev nD) (t : Fin cfg0.N), t.val % 32 = 31 → ∀ (b : Fin 16) (l : Fin 128),
      (outsAt0 m c t.val t.isLt).2.1 (ix3 (0 : Fin 1) b l)
        = Cert.Final.confArr (m ((c : Thread nD τ).loc main_arg0)) (ix3 ⟨t.val / 32, Cert.BlockRead.core_lt t⟩ b l))
    (hOut4 : ∀ (c : Dev nD) (t : Fin cfg0.N), t.val % 32 = 31 → ∀ (b : Fin 16) (l : Fin 128),
      (outsAt0 m c t.val t.isLt).2.2.1 (ix3 (0 : Fin 1) b l)
        = Cert.Final.accArr (m ((c : Thread nD τ).loc main_arg0)) (m ((c : Thread nD τ).loc main_arg1)) (ix3 ⟨t.val / 32, Cert.BlockRead.core_lt t⟩ b l)) :
    θ_run (defs (F := Ideal)) (onTc (τ := τ) (main (F := Ideal))) ⟨m, fun _ => 0, ρ⟩ (fun r => ∀ c : Dev nD,
        r.2.mem ((c.tc : Thread nD τ).loc main_v18)
          = Cert.Spec.spec bcast_S_S15 reducesTo_S15_S_d0 h_S_ (m ((c.tc : Thread nD τ).loc main_arg0))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v18 (Pipeline.mem_restRefs_of main_v18 (by decide) (by decide))).trans (tail_eq m hOut2 hOut3 hOut4 c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.FlushTail

end
-- ==== Proof.lean ====
/-
  The expected calibration error of 33554432 (probability, label) pairs: a kernel that bins the elements block by
  block into per-lane partial histograms, against the reference that scatters every element into its bin.

  Both programs compute, over the extended reals, `∑ bins, (count / 2^25) · |acc / max count 1 - conf / max count 1|`
  of the same three histograms (Proof/Spec.lean): an element's bin is `min 14 (max 0 (⌈15·p⌉ - 1))`, it counts only when
  `0 < p ≤ 1`, and a bin's count, probability sum and label sum run over the elements with that bin.

  The reference adds each element's weight, weighted probability and weighted label to its bin (a scatter with an
  adding body): at a bin this is the sum over all elements of the element's term, the weight being one or zero
  (Proof/LibScatterAdd.lean, Proof/RefValue.lean). The kernel walks the elements as 2 cores × 32 blocks × 4096 rows ×
  128 lanes; per block and bin it compares the key once and adds the block's lane sums to row `bin` of three [16,128]
  accumulators, zeroed at a core's first block and copied out after its last (Proof/RowUpdate.lean, Proof/Scratch*.lean,
  Proof/OutC.lean, Proof/Accum.lean, Proof/Arrays.lean); the lines after the call add the two cores' rows and the 128
  lanes (Proof/LibTailSum.lean, Proof/FlushTail.lean). The two arrangements are one sum over all the elements
  (Proof/LibSumBlocks.lean): addition of extended reals is commutative and associative, and a product with the weight
  zero is zero, so no finiteness of the inputs is used. The ideal pass rewrote nothing, so the second claim is trivial.
-/
import proofs.«114207_j16947940950786_2_alg».proof.Defs
import proofs.«114207_j16947940950786_2_alg».proof.Proof.Gen.Kernel
import proofs.«114207_j16947940950786_2_alg».proof.Proof.Gen.Kernel.Skeleton
import proofs.«114207_j16947940950786_2_alg».proof.Proof.Gen.Kernel.Launch
import proofs.«114207_j16947940950786_2_alg».proof.Proof.Gen.Kernel.Points
import proofs.«114207_j16947940950786_2_alg».proof.Proof.Gen.Kernel.Frame
import proofs.«114207_j16947940950786_2_alg».proof.Proof.Gen.KernelIdeal
import proofs.«114207_j16947940950786_2_alg».proof.Proof.Gen.KernelIdeal.Skeleton
import proofs.«114207_j16947940950786_2_alg».proof.Proof.Gen.KernelIdeal.Launch
import proofs.«114207_j16947940950786_2_alg».proof.Proof.Gen.KernelIdeal.Points
import proofs.«114207_j16947940950786_2_alg».proof.Proof.Gen.KernelIdeal.Frame
import proofs.«114207_j16947940950786_2_alg».proof.Proof.Gen.ReferenceIdeal
import proofs.«114207_j16947940950786_2_alg».proof.Proof.Gen.ReferenceIdeal.Run
import proofs.«114207_j16947940950786_2_alg».proof.Proof.Gen.ReferenceIdeal.Read
import proofs.«114207_j16947940950786_2_alg».proof.Proof.Gen.Pre_finite_inputs
import proofs.«114207_j16947940950786_2_alg».proof.Proof.RefValue
import proofs.«114207_j16947940950786_2_alg».proof.Proof.Accum
import proofs.«114207_j16947940950786_2_alg».proof.Proof.FlushTail
import Idealize.ShloMosaic.Adequacy
import Idealize.ShloMosaic.Init

noncomputable section

namespace Cert.Proof

open Idealize.ShloMosaic Idealize.SL.Sem

/-- The printed kernel runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments alone: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Over the extended reals both programs end at the calibration error of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.FlushTail.run m ρ
    (fun c t h b l => Cert.KernelIdeal.Accum.out2_last m c t h b l)
    (fun c t h b l => Cert.KernelIdeal.Accum.out3_last m c t h b l)
    (fun c t h b l => Cert.KernelIdeal.Accum.out4_last m c t h b l), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.RefSide.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
